-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v331) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x64x2048 : Shape := ⟨4, ![4, 3, 64, 2048]⟩
abbrev S4x20x64x2048 : Shape := ⟨4, ![4, 20, 64, 2048]⟩
abbrev S4x64x2048 : Shape := ⟨3, ![4, 64, 2048]⟩
abbrev S_ : Shape := ⟨0, ![]⟩

class Facts : Prop where
  bcast_S_S4x3x64x2048 : S_.BroadcastsInDim S4x3x64x2048 (![] : Fin 0 → Fin S4x3x64x2048.rank)
  reducesTo_S4x3x64x2048_S_d0_1_2_3 : S4x3x64x2048.ReducesTo [0, 1, 2, 3] S_
  h_S_ : 0 < S_.numel
  bcast_S_S4x20x64x2048 : S_.BroadcastsInDim S4x20x64x2048 (![] : Fin 0 → Fin S4x20x64x2048.rank)
  reducesTo_S4x20x64x2048_S_d0_1_2_3 : S4x20x64x2048.ReducesTo [0, 1, 2, 3] S_

variable [Facts]

def fn {F : FTy → Type} [FloatOps F] (main_arg0 : FVec F S4x3x64x2048 .f32) (main_arg1 : FVec F S4x20x64x2048 .f32) (main_arg2 : IVec S4x64x2048 1) : IVec S_ 1 :=
  let main_v0 : FVec F S4x3x64x2048 .f32 := Host.absf main_arg0
  let main_cst : FVec F S_ .f32 := constant S_ .f32 0x7F800000#32
  let main_v1 : FVec F S4x3x64x2048 .f32 := broadcastInDim S4x3x64x2048 ![] bcast_S_S4x3x64x2048 main_cst
  let main_v2 : IVec S4x3x64x2048 1 := cmpf .olt main_v0 main_v1
  let main_c : IVec S_ 1 := constantI S_ 1 1#1
  let main_v3 : IVec S_ 1 := (fun x v => Host.reduce IntOp.andi x v reducesTo_S4x3x64x2048_S_d0_1_2_3 h_S_) main_v2 main_c
  let main_v4 : FVec F S4x20x64x2048 .f32 := Host.absf main_arg1
  let main_cst_0 : FVec F S_ .f32 := constant S_ .f32 0x7F800000#32
  let main_v5 : FVec F S4x20x64x2048 .f32 := broadcastInDim S4x20x64x2048 ![] bcast_S_S4x20x64x2048 main_cst_0
  let main_v6 : IVec S4x20x64x2048 1 := cmpf .olt main_v4 main_v5
  let main_c_1 : IVec S_ 1 := constantI S_ 1 1#1
  let main_v7 : IVec S_ 1 := (fun x v => Host.reduce IntOp.andi x v reducesTo_S4x20x64x2048_S_d0_1_2_3 h_S_) main_v6 main_c_1
  let main_v8 : IVec S_ 1 := andi main_v3 main_v7
  main_v8
-- ==== Kernel.lean ====
abbrev S4x3x64x2048 : Shape := ⟨4, ![4, 3, 64, 2048]⟩
abbrev S4x20x64x2048 : Shape := ⟨4, ![4, 20, 64, 2048]⟩
abbrev S4x64x2048 : Shape := ⟨3, ![4, 64, 2048]⟩
abbrev S_ : Shape := ⟨0, ![]⟩
abbrev S4x3x68x2052 : Shape := ⟨4, ![4, 3, 68, 2052]⟩
abbrev S4x20x68x2052 : Shape := ⟨4, ![4, 20, 68, 2052]⟩
abbrev S4x68x2052 : Shape := ⟨3, ![4, 68, 2052]⟩
abbrev S1x3x68x2052 : Shape := ⟨4, ![1, 3, 68, 2052]⟩
abbrev S1x5x68x2052 : Shape := ⟨4, ![1, 5, 68, 2052]⟩
abbrev S1x68x2052 : Shape := ⟨3, ![1, 68, 2052]⟩
abbrev S1x5x64x2048 : Shape := ⟨4, ![1, 5, 64, 2048]⟩
abbrev S5x68x2052 : Shape := ⟨3, ![5, 68, 2052]⟩
abbrev S68x2052 : Shape := ⟨2, ![68, 2052]⟩
abbrev S1x3x64x2048 : Shape := ⟨4, ![1, 3, 64, 2048]⟩
abbrev S3x64x2048 : Shape := ⟨3, ![3, 64, 2048]⟩
abbrev S5x64x2048 : Shape := ⟨3, ![5, 64, 2048]⟩
abbrev S64x2048 : Shape := ⟨2, ![64, 2048]⟩
abbrev S1x64x2048 : Shape := ⟨3, ![1, 64, 2048]⟩

abbrev nBuf : Space → Nat
  | .hbm => 14
  | .vmem => 8
  | .smem => 0
  | _ => 0

abbrev bufTy : (tb : Table) → Fin (tcTables nBuf tb) → BufTy
  | .hbm, ⟨0, _⟩ => ⟨S4x3x64x2048, .f32⟩
  | .hbm, ⟨1, _⟩ => ⟨S4x20x64x2048, .f32⟩
  | .hbm, ⟨2, _⟩ => ⟨S4x64x2048, .i1⟩
  | .hbm, ⟨3, _⟩ => ⟨S4x64x2048, .f32⟩
  | .hbm, ⟨4, _⟩ => ⟨S_, .i32⟩
  | .hbm, ⟨5, _⟩ => ⟨S_, .f32⟩
  | .hbm, ⟨6, _⟩ => ⟨S4x3x68x2052, .f32⟩
  | .hbm, ⟨7, _⟩ => ⟨S_, .i32⟩
  | .hbm, ⟨8, _⟩ => ⟨S_, .f32⟩
  | .hbm, ⟨9, _⟩ => ⟨S4x20x68x2052, .f32⟩
  | .hbm, ⟨10, _⟩ => ⟨S_, .i32⟩
  | .hbm, ⟨11, _⟩ => ⟨S_, .f32⟩
  | .hbm, ⟨12, _⟩ => ⟨S4x68x2052, .f32⟩
  | .hbm, ⟨13, _⟩ => ⟨S4x20x64x2048, .f32⟩
  | .local _ .vmem, ⟨0, _⟩ => ⟨S1x3x68x2052, .f32⟩
  | .local _ .vmem, ⟨1, _⟩ => ⟨S1x3x68x2052, .f32⟩
  | .local _ .vmem, ⟨2, _⟩ => ⟨S1x5x68x2052, .f32⟩
  | .local _ .vmem, ⟨3, _⟩ => ⟨S1x5x68x2052, .f32⟩
  | .local _ .vmem, ⟨4, _⟩ => ⟨S1x68x2052, .f32⟩
  | .local _ .vmem, ⟨5, _⟩ => ⟨S1x68x2052, .f32⟩
  | .local _ .vmem, ⟨6, _⟩ => ⟨S1x5x64x2048, .f32⟩
  | .local _ .vmem, ⟨7, _⟩ => ⟨S1x5x64x2048, .f32⟩
  | _, _ => ⟨S4x3x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_c_1 : Ref sig .tc := ⟨.hbm, 10, rfl⟩
abbrev main_call2_v0 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x68x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5x68x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x68x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x5x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S4x3x64x2048_S4x3x68x2052_000_000_220_220 : S4x3x64x2048.Pads (![0, 0, 2, 2] : Fin 4 → Nat) ![0, 0, 2, 2] ![0, 0, 0, 0] S4x3x68x2052
  h_S_ : 0 < S_.numel
  pads_S4x20x64x2048_S4x20x68x2052_000_000_220_220 : S4x20x64x2048.Pads (![0, 0, 2, 2] : Fin 4 → Nat) ![0, 0, 2, 2] ![0, 0, 0, 0] S4x20x68x2052
  pads_S4x64x2048_S4x68x2052_000_220_220 : S4x64x2048.Pads (![0, 2, 2] : Fin 3 → Nat) ![0, 2, 2] ![0, 0, 0] S4x68x2052
  inb_S1x5x68x2052_S1x5x68x2052_0_0_0_0 : ∀ a, (![0, 0, 0, 0] : Fin 4 → Nat) a + S1x5x68x2052.size a ≤ S1x5x68x2052.size a
  h_S1x5x68x2052 : 0 < S1x5x68x2052.numel
  shapeCasts_S1x5x68x2052_S5x68x2052 : S1x5x68x2052.ShapeCasts S5x68x2052
  inb_S1x68x2052_S1x68x2052_0_0_0 : ∀ a, (![0, 0, 0] : Fin 3 → Nat) a + S1x68x2052.size a ≤ S1x68x2052.size a
  h_S1x68x2052 : 0 < S1x68x2052.numel
  shapeCasts_S1x68x2052_S68x2052 : S1x68x2052.ShapeCasts S68x2052
  shapeCasts_S68x2052_S1x68x2052 : S68x2052.ShapeCasts S1x68x2052
  broadcasts_S1x68x2052_S5x68x2052 : S1x68x2052.Broadcasts S5x68x2052
  inb_S1x3x68x2052_S1x3x64x2048_0_0_2_2 : ∀ a, (![0, 0, 2, 2] : Fin 4 → Nat) a + S1x3x64x2048.size a ≤ S1x3x68x2052.size a
  h_S1x3x64x2048 : 0 < S1x3x64x2048.numel
  shapeCasts_S1x3x64x2048_S3x64x2048 : S1x3x64x2048.ShapeCasts S3x64x2048
  inb_S1x3x68x2052_S1x3x64x2048_0_0_0_0 : ∀ a, (![0, 0, 0, 0] : Fin 4 → Nat) a + S1x3x64x2048.size a ≤ S1x3x68x2052.size a
  reduces_S3x64x2048_S64x2048 : S3x64x2048.Reduces [0] S64x2048
  slices_S5x68x2052_o0_0_0_S5x64x2048 : S5x68x2052.Slices ![0, 0, 0] S5x64x2048
  shapeCasts_S64x2048_S1x64x2048 : S64x2048.ShapeCasts S1x64x2048
  broadcasts_S1x64x2048_S5x64x2048 : S1x64x2048.Broadcasts S5x64x2048
  inb_S1x3x68x2052_S1x3x64x2048_0_0_0_1 : ∀ a, (![0, 0, 0, 1] : Fin 4 → Nat) a + S1x3x64x2048.size a ≤ S1x3x68x2052.size a
  slices_S5x68x2052_o0_0_1_S5x64x2048 : S5x68x2052.Slices ![0, 0, 1] S5x64x2048
  inb_S1x3x68x2052_S1x3x64x2048_0_0_0_2 : ∀ a, (![0, 0, 0, 2] : Fin 4 → Nat) a + S1x3x64x2048.size a ≤ S1x3x68x2052.size a
  slices_S5x68x2052_o0_0_2_S5x64x2048 : S5x68x2052.Slices ![0, 0, 2] S5x64x2048
  inb_S1x3x68x2052_S1x3x64x2048_0_0_0_3 : ∀ a, (![0, 0, 0, 3] : Fin 4 → Nat) a + S1x3x64x2048.size a ≤ S1x3x68x2052.size a
  slices_S5x68x2052_o0_0_3_S5x64x2048 : S5x68x2052.Slices ![0, 0, 3] S5x64x2048
  inb_S1x3x68x2052_S1x3x64x2048_0_0_0_4 : ∀ a, (![0, 0, 0, 4] : Fin 4 → Nat) a + S1x3x64x2048.size a ≤ S1x3x68x2052.size a
  slices_S5x68x2052_o0_0_4_S5x64x2048 : S5x68x2052.Slices ![0, 0, 4] S5x64x2048
  inb_S1x3x68x2052_S1x3x64x2048_0_0_1_0 : ∀ a, (![0, 0, 1, 0] : Fin 4 → Nat) a + S1x3x64x2048.size a ≤ S1x3x68x2052.size a
  slices_S5x68x2052_o0_1_0_S5x64x2048 : S5x68x2052.Slices ![0, 1, 0] S5x64x2048
  inb_S1x3x68x2052_S1x3x64x2048_0_0_1_1 : ∀ a, (![0, 0, 1, 1] : Fin 4 → Nat) a + S1x3x64x2048.size a ≤ S1x3x68x2052.size a
  slices_S5x68x2052_o0_1_1_S5x64x2048 : S5x68x2052.Slices ![0, 1, 1] S5x64x2048
  inb_S1x3x68x2052_S1x3x64x2048_0_0_1_2 : ∀ a, (![0, 0, 1, 2] : Fin 4 → Nat) a + S1x3x64x2048.size a ≤ S1x3x68x2052.size a
  slices_S5x68x2052_o0_1_2_S5x64x2048 : S5x68x2052.Slices ![0, 1, 2] S5x64x2048
  inb_S1x3x68x2052_S1x3x64x2048_0_0_1_3 : ∀ a, (![0, 0, 1, 3] : Fin 4 → Nat) a + S1x3x64x2048.size a ≤ S1x3x68x2052.size a
  slices_S5x68x2052_o0_1_3_S5x64x2048 : S5x68x2052.Slices ![0, 1, 3] S5x64x2048
  inb_S1x3x68x2052_S1x3x64x2048_0_0_1_4 : ∀ a, (![0, 0, 1, 4] : Fin 4 → Nat) a + S1x3x64x2048.size a ≤ S1x3x68x2052.size a
  slices_S5x68x2052_o0_1_4_S5x64x2048 : S5x68x2052.Slices ![0, 1, 4] S5x64x2048
  inb_S1x3x68x2052_S1x3x64x2048_0_0_2_0 : ∀ a, (![0, 0, 2, 0] : Fin 4 → Nat) a + S1x3x64x2048.size a ≤ S1x3x68x2052.size a
  slices_S5x68x2052_o0_2_0_S5x64x2048 : S5x68x2052.Slices ![0, 2, 0] S5x64x2048
  inb_S1x3x68x2052_S1x3x64x2048_0_0_2_1 : ∀ a, (![0, 0, 2, 1] : Fin 4 → Nat) a + S1x3x64x2048.size a ≤ S1x3x68x2052.size a
  slices_S5x68x2052_o0_2_1_S5x64x2048 : S5x68x2052.Slices ![0, 2, 1] S5x64x2048
  slices_S5x68x2052_o0_2_2_S5x64x2048 : S5x68x2052.Slices ![0, 2, 2] S5x64x2048
  inb_S1x3x68x2052_S1x3x64x2048_0_0_2_3 : ∀ a, (![0, 0, 2, 3] : Fin 4 → Nat) a + S1x3x64x2048.size a ≤ S1x3x68x2052.size a
  slices_S5x68x2052_o0_2_3_S5x64x2048 : S5x68x2052.Slices ![0, 2, 3] S5x64x2048
  inb_S1x3x68x2052_S1x3x64x2048_0_0_2_4 : ∀ a, (![0, 0, 2, 4] : Fin 4 → Nat) a + S1x3x64x2048.size a ≤ S1x3x68x2052.size a
  slices_S5x68x2052_o0_2_4_S5x64x2048 : S5x68x2052.Slices ![0, 2, 4] S5x64x2048
  inb_S1x3x68x2052_S1x3x64x2048_0_0_3_0 : ∀ a, (![0, 0, 3, 0] : Fin 4 → Nat) a + S1x3x64x2048.size a ≤ S1x3x68x2052.size a
  slices_S5x68x2052_o0_3_0_S5x64x2048 : S5x68x2052.Slices ![0, 3, 0] S5x64x2048
  inb_S1x3x68x2052_S1x3x64x2048_0_0_3_1 : ∀ a, (![0, 0, 3, 1] : Fin 4 → Nat) a + S1x3x64x2048.size a ≤ S1x3x68x2052.size a
  slices_S5x68x2052_o0_3_1_S5x64x2048 : S5x68x2052.Slices ![0, 3, 1] S5x64x2048
  inb_S1x3x68x2052_S1x3x64x2048_0_0_3_2 : ∀ a, (![0, 0, 3, 2] : Fin 4 → Nat) a + S1x3x64x2048.size a ≤ S1x3x68x2052.size a
  slices_S5x68x2052_o0_3_2_S5x64x2048 : S5x68x2052.Slices ![0, 3, 2] S5x64x2048
  inb_S1x3x68x2052_S1x3x64x2048_0_0_3_3 : ∀ a, (![0, 0, 3, 3] : Fin 4 → Nat) a + S1x3x64x2048.size a ≤ S1x3x68x2052.size a
  slices_S5x68x2052_o0_3_3_S5x64x2048 : S5x68x2052.Slices ![0, 3, 3] S5x64x2048
  inb_S1x3x68x2052_S1x3x64x2048_0_0_3_4 : ∀ a, (![0, 0, 3, 4] : Fin 4 → Nat) a + S1x3x64x2048.size a ≤ S1x3x68x2052.size a
  slices_S5x68x2052_o0_3_4_S5x64x2048 : S5x68x2052.Slices ![0, 3, 4] S5x64x2048
  inb_S1x3x68x2052_S1x3x64x2048_0_0_4_0 : ∀ a, (![0, 0, 4, 0] : Fin 4 → Nat) a + S1x3x64x2048.size a ≤ S1x3x68x2052.size a
  slices_S5x68x2052_o0_4_0_S5x64x2048 : S5x68x2052.Slices ![0, 4, 0] S5x64x2048
  inb_S1x3x68x2052_S1x3x64x2048_0_0_4_1 : ∀ a, (![0, 0, 4, 1] : Fin 4 → Nat) a + S1x3x64x2048.size a ≤ S1x3x68x2052.size a
  slices_S5x68x2052_o0_4_1_S5x64x2048 : S5x68x2052.Slices ![0, 4, 1] S5x64x2048
  inb_S1x3x68x2052_S1x3x64x2048_0_0_4_2 : ∀ a, (![0, 0, 4, 2] : Fin 4 → Nat) a + S1x3x64x2048.size a ≤ S1x3x68x2052.size a
  slices_S5x68x2052_o0_4_2_S5x64x2048 : S5x68x2052.Slices ![0, 4, 2] S5x64x2048
  inb_S1x3x68x2052_S1x3x64x2048_0_0_4_3 : ∀ a, (![0, 0, 4, 3] : Fin 4 → Nat) a + S1x3x64x2048.size a ≤ S1x3x68x2052.size a
  slices_S5x68x2052_o0_4_3_S5x64x2048 : S5x68x2052.Slices ![0, 4, 3] S5x64x2048
  inb_S1x3x68x2052_S1x3x64x2048_0_0_4_4 : ∀ a, (![0, 0, 4, 4] : Fin 4 → Nat) a + S1x3x64x2048.size a ≤ S1x3x68x2052.size a
  slices_S5x68x2052_o0_4_4_S5x64x2048 : S5x68x2052.Slices ![0, 4, 4] S5x64x2048
  inb_S1x5x64x2048_S1x5x64x2048_0_0_0_0 : ∀ a, (![0, 0, 0, 0] : Fin 4 → Nat) a + S1x5x64x2048.size a ≤ S1x5x64x2048.size a
  h_S1x5x64x2048 : 0 < S1x5x64x2048.numel
  shapeCasts_S1x5x64x2048_S5x64x2048 : S1x5x64x2048.ShapeCasts S5x64x2048
  shapeCasts_S5x64x2048_S1x5x64x2048 : S5x64x2048.ShapeCasts S1x5x64x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x68x2052.size a ≤ S4x3x68x2052.size a
  hwx0_0 : ∀ i : grid0.Coords, EltTy.bits .f32 = 32 ∨ (Rect.block (s := S4x3x68x2052) S1x3x68x2052.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x68x2052.size a ≤ S4x20x68x2052.size a
  hwx0_1 : ∀ i : grid0.Coords, EltTy.bits .f32 = 32 ∨ (Rect.block (s := S4x20x68x2052) S1x5x68x2052.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x68x2052.size a ≤ S4x68x2052.size a
  hwx0_2 : ∀ i : grid0.Coords, EltTy.bits .f32 = 32 ∨ (Rect.block (s := S4x68x2052) S1x68x2052.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5x64x2048.size a ≤ S4x20x64x2048.size a
  hwx0_3 : ∀ i : grid0.Coords, EltTy.bits .f32 = 32 ∨ (Rect.block (s := S4x20x64x2048) S1x5x64x2048.size (cc0_transform_3 i) (hinb0_3 i)).WholeWords (EltTy.packing .f32)

variable [Facts₀]

abbrev win0_0 : Pipeline.Window sig grid0 :=
  Pipeline.Window.ofSpec (Memref.whole main_v1) S1x3x68x2052.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x5x68x2052.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x68x2052.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x5x64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x3x64x2048 : Shape := ⟨4, ![4, 3, 64, 2048]⟩
abbrev S4x20x64x2048 : Shape := ⟨4, ![4, 20, 64, 2048]⟩
abbrev S4x64x2048 : Shape := ⟨3, ![4, 64, 2048]⟩
abbrev S4x1x64x2048 : Shape := ⟨4, ![4, 1, 64, 2048]⟩
abbrev S_ : Shape := ⟨0, ![]⟩
abbrev S4x3x68x2052 : Shape := ⟨4, ![4, 3, 68, 2052]⟩
abbrev S4x20x68x2052 : Shape := ⟨4, ![4, 20, 68, 2052]⟩

abbrev nBuf : Space → Nat
  | .hbm => 390
  | .vmem => 0
  | .smem => 0
  | _ => 0

abbrev hbmTy0_0 (i : Nat) : BufTy := match i % 128 with
  | 0 => ⟨S4x3x64x2048, .f32⟩
  | 1 => ⟨S4x20x64x2048, .f32⟩
  | 2 => ⟨S4x64x2048, .i1⟩
  | 3 => ⟨S4x1x64x2048, .i1⟩
  | 4 => ⟨S4x1x64x2048, .f32⟩
  | 5 => ⟨S4x20x64x2048, .f32⟩
  | 6 => ⟨S4x20x64x2048, .f32⟩
  | 7 => ⟨S_, .i32⟩
  | 8 => ⟨S_, .f32⟩
  | 9 => ⟨S4x3x68x2052, .f32⟩
  | 10 => ⟨S_, .i32⟩
  | 11 => ⟨S_, .f32⟩
  | 12 => ⟨S4x20x68x2052, .f32⟩
  | 13 => ⟨S_, .f32⟩
  | 14 => ⟨S4x20x64x2048, .f32⟩
  | 15 => ⟨S4x3x64x2048, .f32⟩
  | 16 => ⟨S4x3x64x2048, .f32⟩
  | 17 => ⟨S4x3x64x2048, .f32⟩
  | 18 => ⟨S_, .f32⟩
  | 19 => ⟨S4x64x2048, .f32⟩
  | 20 => ⟨S4x64x2048, .f32⟩
  | 21 => ⟨S_, .f32⟩
  | 22 => ⟨S4x64x2048, .f32⟩
  | 23 => ⟨S4x64x2048, .f32⟩
  | 24 => ⟨S4x64x2048, .f32⟩
  | 25 => ⟨S4x1x64x2048, .f32⟩
  | 26 => ⟨S4x20x64x2048, .f32⟩
  | 27 => ⟨S4x20x64x2048, .f32⟩
  | 28 => ⟨S4x20x64x2048, .f32⟩
  | 29 => ⟨S4x20x64x2048, .f32⟩
  | 30 => ⟨S4x3x64x2048, .f32⟩
  | 31 => ⟨S4x3x64x2048, .f32⟩
  | 32 => ⟨S4x3x64x2048, .f32⟩
  | 33 => ⟨S_, .f32⟩
  | 34 => ⟨S4x64x2048, .f32⟩
  | 35 => ⟨S4x64x2048, .f32⟩
  | 36 => ⟨S_, .f32⟩
  | 37 => ⟨S4x64x2048, .f32⟩
  | 38 => ⟨S4x64x2048, .f32⟩
  | 39 => ⟨S4x64x2048, .f32⟩
  | 40 => ⟨S4x1x64x2048, .f32⟩
  | 41 => ⟨S4x20x64x2048, .f32⟩
  | 42 => ⟨S4x20x64x2048, .f32⟩
  | 43 => ⟨S4x20x64x2048, .f32⟩
  | 44 => ⟨S4x20x64x2048, .f32⟩
  | 45 => ⟨S4x3x64x2048, .f32⟩
  | 46 => ⟨S4x3x64x2048, .f32⟩
  | 47 => ⟨S4x3x64x2048, .f32⟩
  | 48 => ⟨S_, .f32⟩
  | 49 => ⟨S4x64x2048, .f32⟩
  | 50 => ⟨S4x64x2048, .f32⟩
  | 51 => ⟨S_, .f32⟩
  | 52 => ⟨S4x64x2048, .f32⟩
  | 53 => ⟨S4x64x2048, .f32⟩
  | 54 => ⟨S4x64x2048, .f32⟩
  | 55 => ⟨S4x1x64x2048, .f32⟩
  | 56 => ⟨S4x20x64x2048, .f32⟩
  | 57 => ⟨S4x20x64x2048, .f32⟩
  | 58 => ⟨S4x20x64x2048, .f32⟩
  | 59 => ⟨S4x20x64x2048, .f32⟩
  | 60 => ⟨S4x3x64x2048, .f32⟩
  | 61 => ⟨S4x3x64x2048, .f32⟩
  | 62 => ⟨S4x3x64x2048, .f32⟩
  | 63 => ⟨S_, .f32⟩
  | 64 => ⟨S4x64x2048, .f32⟩
  | 65 => ⟨S4x64x2048, .f32⟩
  | 66 => ⟨S_, .f32⟩
  | 67 => ⟨S4x64x2048, .f32⟩
  | 68 => ⟨S4x64x2048, .f32⟩
  | 69 => ⟨S4x64x2048, .f32⟩
  | 70 => ⟨S4x1x64x2048, .f32⟩
  | 71 => ⟨S4x20x64x2048, .f32⟩
  | 72 => ⟨S4x20x64x2048, .f32⟩
  | 73 => ⟨S4x20x64x2048, .f32⟩
  | 74 => ⟨S4x20x64x2048, .f32⟩
  | 75 => ⟨S4x3x64x2048, .f32⟩
  | 76 => ⟨S4x3x64x2048, .f32⟩
  | 77 => ⟨S4x3x64x2048, .f32⟩
  | 78 => ⟨S_, .f32⟩
  | 79 => ⟨S4x64x2048, .f32⟩
  | 80 => ⟨S4x64x2048, .f32⟩
  | 81 => ⟨S_, .f32⟩
  | 82 => ⟨S4x64x2048, .f32⟩
  | 83 => ⟨S4x64x2048, .f32⟩
  | 84 => ⟨S4x64x2048, .f32⟩
  | 85 => ⟨S4x1x64x2048, .f32⟩
  | 86 => ⟨S4x20x64x2048, .f32⟩
  | 87 => ⟨S4x20x64x2048, .f32⟩
  | 88 => ⟨S4x20x64x2048, .f32⟩
  | 89 => ⟨S4x20x64x2048, .f32⟩
  | 90 => ⟨S4x3x64x2048, .f32⟩
  | 91 => ⟨S4x3x64x2048, .f32⟩
  | 92 => ⟨S4x3x64x2048, .f32⟩
  | 93 => ⟨S_, .f32⟩
  | 94 => ⟨S4x64x2048, .f32⟩
  | 95 => ⟨S4x64x2048, .f32⟩
  | 96 => ⟨S_, .f32⟩
  | 97 => ⟨S4x64x2048, .f32⟩
  | 98 => ⟨S4x64x2048, .f32⟩
  | 99 => ⟨S4x64x2048, .f32⟩
  | 100 => ⟨S4x1x64x2048, .f32⟩
  | 101 => ⟨S4x20x64x2048, .f32⟩
  | 102 => ⟨S4x20x64x2048, .f32⟩
  | 103 => ⟨S4x20x64x2048, .f32⟩
  | 104 => ⟨S4x20x64x2048, .f32⟩
  | 105 => ⟨S4x3x64x2048, .f32⟩
  | 106 => ⟨S4x3x64x2048, .f32⟩
  | 107 => ⟨S4x3x64x2048, .f32⟩
  | 108 => ⟨S_, .f32⟩
  | 109 => ⟨S4x64x2048, .f32⟩
  | 110 => ⟨S4x64x2048, .f32⟩
  | 111 => ⟨S_, .f32⟩
  | 112 => ⟨S4x64x2048, .f32⟩
  | 113 => ⟨S4x64x2048, .f32⟩
  | 114 => ⟨S4x64x2048, .f32⟩
  | 115 => ⟨S4x1x64x2048, .f32⟩
  | 116 => ⟨S4x20x64x2048, .f32⟩
  | 117 => ⟨S4x20x64x2048, .f32⟩
  | 118 => ⟨S4x20x64x2048, .f32⟩
  | 119 => ⟨S4x20x64x2048, .f32⟩
  | 120 => ⟨S4x3x64x2048, .f32⟩
  | 121 => ⟨S4x3x64x2048, .f32⟩
  | 122 => ⟨S4x3x64x2048, .f32⟩
  | 123 => ⟨S_, .f32⟩
  | 124 => ⟨S4x64x2048, .f32⟩
  | 125 => ⟨S4x64x2048, .f32⟩
  | 126 => ⟨S_, .f32⟩
  | 127 => ⟨S4x64x2048, .f32⟩
  | _ => ⟨S4x3x64x2048, .f32⟩

abbrev hbmTy0_1 (i : Nat) : BufTy := match i % 128 with
  | 0 => ⟨S4x64x2048, .f32⟩
  | 1 => ⟨S4x64x2048, .f32⟩
  | 2 => ⟨S4x1x64x2048, .f32⟩
  | 3 => ⟨S4x20x64x2048, .f32⟩
  | 4 => ⟨S4x20x64x2048, .f32⟩
  | 5 => ⟨S4x20x64x2048, .f32⟩
  | 6 => ⟨S4x20x64x2048, .f32⟩
  | 7 => ⟨S4x3x64x2048, .f32⟩
  | 8 => ⟨S4x3x64x2048, .f32⟩
  | 9 => ⟨S4x3x64x2048, .f32⟩
  | 10 => ⟨S_, .f32⟩
  | 11 => ⟨S4x64x2048, .f32⟩
  | 12 => ⟨S4x64x2048, .f32⟩
  | 13 => ⟨S_, .f32⟩
  | 14 => ⟨S4x64x2048, .f32⟩
  | 15 => ⟨S4x64x2048, .f32⟩
  | 16 => ⟨S4x64x2048, .f32⟩
  | 17 => ⟨S4x1x64x2048, .f32⟩
  | 18 => ⟨S4x20x64x2048, .f32⟩
  | 19 => ⟨S4x20x64x2048, .f32⟩
  | 20 => ⟨S4x20x64x2048, .f32⟩
  | 21 => ⟨S4x20x64x2048, .f32⟩
  | 22 => ⟨S4x3x64x2048, .f32⟩
  | 23 => ⟨S4x3x64x2048, .f32⟩
  | 24 => ⟨S4x3x64x2048, .f32⟩
  | 25 => ⟨S_, .f32⟩
  | 26 => ⟨S4x64x2048, .f32⟩
  | 27 => ⟨S4x64x2048, .f32⟩
  | 28 => ⟨S_, .f32⟩
  | 29 => ⟨S4x64x2048, .f32⟩
  | 30 => ⟨S4x64x2048, .f32⟩
  | 31 => ⟨S4x64x2048, .f32⟩
  | 32 => ⟨S4x1x64x2048, .f32⟩
  | 33 => ⟨S4x20x64x2048, .f32⟩
  | 34 => ⟨S4x20x64x2048, .f32⟩
  | 35 => ⟨S4x20x64x2048, .f32⟩
  | 36 => ⟨S4x20x64x2048, .f32⟩
  | 37 => ⟨S4x3x64x2048, .f32⟩
  | 38 => ⟨S4x3x64x2048, .f32⟩
  | 39 => ⟨S4x3x64x2048, .f32⟩
  | 40 => ⟨S_, .f32⟩
  | 41 => ⟨S4x64x2048, .f32⟩
  | 42 => ⟨S4x64x2048, .f32⟩
  | 43 => ⟨S_, .f32⟩
  | 44 => ⟨S4x64x2048, .f32⟩
  | 45 => ⟨S4x64x2048, .f32⟩
  | 46 => ⟨S4x64x2048, .f32⟩
  | 47 => ⟨S4x1x64x2048, .f32⟩
  | 48 => ⟨S4x20x64x2048, .f32⟩
  | 49 => ⟨S4x20x64x2048, .f32⟩
  | 50 => ⟨S4x20x64x2048, .f32⟩
  | 51 => ⟨S4x20x64x2048, .f32⟩
  | 52 => ⟨S4x3x64x2048, .f32⟩
  | 53 => ⟨S4x3x64x2048, .f32⟩
  | 54 => ⟨S4x3x64x2048, .f32⟩
  | 55 => ⟨S_, .f32⟩
  | 56 => ⟨S4x64x2048, .f32⟩
  | 57 => ⟨S4x64x2048, .f32⟩
  | 58 => ⟨S_, .f32⟩
  | 59 => ⟨S4x64x2048, .f32⟩
  | 60 => ⟨S4x64x2048, .f32⟩
  | 61 => ⟨S4x64x2048, .f32⟩
  | 62 => ⟨S4x1x64x2048, .f32⟩
  | 63 => ⟨S4x20x64x2048, .f32⟩
  | 64 => ⟨S4x20x64x2048, .f32⟩
  | 65 => ⟨S4x20x64x2048, .f32⟩
  | 66 => ⟨S4x20x64x2048, .f32⟩
  | 67 => ⟨S4x3x64x2048, .f32⟩
  | 68 => ⟨S4x3x64x2048, .f32⟩
  | 69 => ⟨S4x3x64x2048, .f32⟩
  | 70 => ⟨S_, .f32⟩
  | 71 => ⟨S4x64x2048, .f32⟩
  | 72 => ⟨S4x64x2048, .f32⟩
  | 73 => ⟨S_, .f32⟩
  | 74 => ⟨S4x64x2048, .f32⟩
  | 75 => ⟨S4x64x2048, .f32⟩
  | 76 => ⟨S4x64x2048, .f32⟩
  | 77 => ⟨S4x1x64x2048, .f32⟩
  | 78 => ⟨S4x20x64x2048, .f32⟩
  | 79 => ⟨S4x20x64x2048, .f32⟩
  | 80 => ⟨S4x20x64x2048, .f32⟩
  | 81 => ⟨S4x20x64x2048, .f32⟩
  | 82 => ⟨S4x3x64x2048, .f32⟩
  | 83 => ⟨S4x3x64x2048, .f32⟩
  | 84 => ⟨S4x3x64x2048, .f32⟩
  | 85 => ⟨S_, .f32⟩
  | 86 => ⟨S4x64x2048, .f32⟩
  | 87 => ⟨S4x64x2048, .f32⟩
  | 88 => ⟨S_, .f32⟩
  | 89 => ⟨S4x64x2048, .f32⟩
  | 90 => ⟨S4x64x2048, .f32⟩
  | 91 => ⟨S4x64x2048, .f32⟩
  | 92 => ⟨S4x1x64x2048, .f32⟩
  | 93 => ⟨S4x20x64x2048, .f32⟩
  | 94 => ⟨S4x20x64x2048, .f32⟩
  | 95 => ⟨S4x20x64x2048, .f32⟩
  | 96 => ⟨S4x20x64x2048, .f32⟩
  | 97 => ⟨S4x3x64x2048, .f32⟩
  | 98 => ⟨S4x3x64x2048, .f32⟩
  | 99 => ⟨S4x3x64x2048, .f32⟩
  | 100 => ⟨S_, .f32⟩
  | 101 => ⟨S4x64x2048, .f32⟩
  | 102 => ⟨S4x64x2048, .f32⟩
  | 103 => ⟨S_, .f32⟩
  | 104 => ⟨S4x64x2048, .f32⟩
  | 105 => ⟨S4x64x2048, .f32⟩
  | 106 => ⟨S4x64x2048, .f32⟩
  | 107 => ⟨S4x1x64x2048, .f32⟩
  | 108 => ⟨S4x20x64x2048, .f32⟩
  | 109 => ⟨S4x20x64x2048, .f32⟩
  | 110 => ⟨S4x20x64x2048, .f32⟩
  | 111 => ⟨S4x20x64x2048, .f32⟩
  | 112 => ⟨S4x3x64x2048, .f32⟩
  | 113 => ⟨S4x3x64x2048, .f32⟩
  | 114 => ⟨S4x3x64x2048, .f32⟩
  | 115 => ⟨S_, .f32⟩
  | 116 => ⟨S4x64x2048, .f32⟩
  | 117 => ⟨S4x64x2048, .f32⟩
  | 118 => ⟨S_, .f32⟩
  | 119 => ⟨S4x64x2048, .f32⟩
  | 120 => ⟨S4x64x2048, .f32⟩
  | 121 => ⟨S4x64x2048, .f32⟩
  | 122 => ⟨S4x1x64x2048, .f32⟩
  | 123 => ⟨S4x20x64x2048, .f32⟩
  | 124 => ⟨S4x20x64x2048, .f32⟩
  | 125 => ⟨S4x20x64x2048, .f32⟩
  | 126 => ⟨S4x20x64x2048, .f32⟩
  | 127 => ⟨S4x3x64x2048, .f32⟩
  | _ => ⟨S4x3x64x2048, .f32⟩

abbrev hbmTy0_2 (i : Nat) : BufTy := match i % 128 with
  | 0 => ⟨S4x3x64x2048, .f32⟩
  | 1 => ⟨S4x3x64x2048, .f32⟩
  | 2 => ⟨S_, .f32⟩
  | 3 => ⟨S4x64x2048, .f32⟩
  | 4 => ⟨S4x64x2048, .f32⟩
  | 5 => ⟨S_, .f32⟩
  | 6 => ⟨S4x64x2048, .f32⟩
  | 7 => ⟨S4x64x2048, .f32⟩
  | 8 => ⟨S4x64x2048, .f32⟩
  | 9 => ⟨S4x1x64x2048, .f32⟩
  | 10 => ⟨S4x20x64x2048, .f32⟩
  | 11 => ⟨S4x20x64x2048, .f32⟩
  | 12 => ⟨S4x20x64x2048, .f32⟩
  | 13 => ⟨S4x20x64x2048, .f32⟩
  | 14 => ⟨S4x3x64x2048, .f32⟩
  | 15 => ⟨S4x3x64x2048, .f32⟩
  | 16 => ⟨S4x3x64x2048, .f32⟩
  | 17 => ⟨S_, .f32⟩
  | 18 => ⟨S4x64x2048, .f32⟩
  | 19 => ⟨S4x64x2048, .f32⟩
  | 20 => ⟨S_, .f32⟩
  | 21 => ⟨S4x64x2048, .f32⟩
  | 22 => ⟨S4x64x2048, .f32⟩
  | 23 => ⟨S4x64x2048, .f32⟩
  | 24 => ⟨S4x1x64x2048, .f32⟩
  | 25 => ⟨S4x20x64x2048, .f32⟩
  | 26 => ⟨S4x20x64x2048, .f32⟩
  | 27 => ⟨S4x20x64x2048, .f32⟩
  | 28 => ⟨S4x20x64x2048, .f32⟩
  | 29 => ⟨S4x3x64x2048, .f32⟩
  | 30 => ⟨S4x3x64x2048, .f32⟩
  | 31 => ⟨S4x3x64x2048, .f32⟩
  | 32 => ⟨S_, .f32⟩
  | 33 => ⟨S4x64x2048, .f32⟩
  | 34 => ⟨S4x64x2048, .f32⟩
  | 35 => ⟨S_, .f32⟩
  | 36 => ⟨S4x64x2048, .f32⟩
  | 37 => ⟨S4x64x2048, .f32⟩
  | 38 => ⟨S4x64x2048, .f32⟩
  | 39 => ⟨S4x1x64x2048, .f32⟩
  | 40 => ⟨S4x20x64x2048, .f32⟩
  | 41 => ⟨S4x20x64x2048, .f32⟩
  | 42 => ⟨S4x20x64x2048, .f32⟩
  | 43 => ⟨S4x20x64x2048, .f32⟩
  | 44 => ⟨S4x3x64x2048, .f32⟩
  | 45 => ⟨S4x3x64x2048, .f32⟩
  | 46 => ⟨S4x3x64x2048, .f32⟩
  | 47 => ⟨S_, .f32⟩
  | 48 => ⟨S4x64x2048, .f32⟩
  | 49 => ⟨S4x64x2048, .f32⟩
  | 50 => ⟨S_, .f32⟩
  | 51 => ⟨S4x64x2048, .f32⟩
  | 52 => ⟨S4x64x2048, .f32⟩
  | 53 => ⟨S4x64x2048, .f32⟩
  | 54 => ⟨S4x1x64x2048, .f32⟩
  | 55 => ⟨S4x20x64x2048, .f32⟩
  | 56 => ⟨S4x20x64x2048, .f32⟩
  | 57 => ⟨S4x20x64x2048, .f32⟩
  | 58 => ⟨S4x20x64x2048, .f32⟩
  | 59 => ⟨S4x3x64x2048, .f32⟩
  | 60 => ⟨S4x3x64x2048, .f32⟩
  | 61 => ⟨S4x3x64x2048, .f32⟩
  | 62 => ⟨S_, .f32⟩
  | 63 => ⟨S4x64x2048, .f32⟩
  | 64 => ⟨S4x64x2048, .f32⟩
  | 65 => ⟨S_, .f32⟩
  | 66 => ⟨S4x64x2048, .f32⟩
  | 67 => ⟨S4x64x2048, .f32⟩
  | 68 => ⟨S4x64x2048, .f32⟩
  | 69 => ⟨S4x1x64x2048, .f32⟩
  | 70 => ⟨S4x20x64x2048, .f32⟩
  | 71 => ⟨S4x20x64x2048, .f32⟩
  | 72 => ⟨S4x20x64x2048, .f32⟩
  | 73 => ⟨S4x20x64x2048, .f32⟩
  | 74 => ⟨S4x3x64x2048, .f32⟩
  | 75 => ⟨S4x3x64x2048, .f32⟩
  | 76 => ⟨S4x3x64x2048, .f32⟩
  | 77 => ⟨S_, .f32⟩
  | 78 => ⟨S4x64x2048, .f32⟩
  | 79 => ⟨S4x64x2048, .f32⟩
  | 80 => ⟨S_, .f32⟩
  | 81 => ⟨S4x64x2048, .f32⟩
  | 82 => ⟨S4x64x2048, .f32⟩
  | 83 => ⟨S4x64x2048, .f32⟩
  | 84 => ⟨S4x1x64x2048, .f32⟩
  | 85 => ⟨S4x20x64x2048, .f32⟩
  | 86 => ⟨S4x20x64x2048, .f32⟩
  | 87 => ⟨S4x20x64x2048, .f32⟩
  | 88 => ⟨S4x20x64x2048, .f32⟩
  | 89 => ⟨S4x3x64x2048, .f32⟩
  | 90 => ⟨S4x3x64x2048, .f32⟩
  | 91 => ⟨S4x3x64x2048, .f32⟩
  | 92 => ⟨S_, .f32⟩
  | 93 => ⟨S4x64x2048, .f32⟩
  | 94 => ⟨S4x64x2048, .f32⟩
  | 95 => ⟨S_, .f32⟩
  | 96 => ⟨S4x64x2048, .f32⟩
  | 97 => ⟨S4x64x2048, .f32⟩
  | 98 => ⟨S4x64x2048, .f32⟩
  | 99 => ⟨S4x1x64x2048, .f32⟩
  | 100 => ⟨S4x20x64x2048, .f32⟩
  | 101 => ⟨S4x20x64x2048, .f32⟩
  | 102 => ⟨S4x20x64x2048, .f32⟩
  | 103 => ⟨S4x20x64x2048, .f32⟩
  | 104 => ⟨S4x3x64x2048, .f32⟩
  | 105 => ⟨S4x3x64x2048, .f32⟩
  | 106 => ⟨S4x3x64x2048, .f32⟩
  | 107 => ⟨S_, .f32⟩
  | 108 => ⟨S4x64x2048, .f32⟩
  | 109 => ⟨S4x64x2048, .f32⟩
  | 110 => ⟨S_, .f32⟩
  | 111 => ⟨S4x64x2048, .f32⟩
  | 112 => ⟨S4x64x2048, .f32⟩
  | 113 => ⟨S4x64x2048, .f32⟩
  | 114 => ⟨S4x1x64x2048, .f32⟩
  | 115 => ⟨S4x20x64x2048, .f32⟩
  | 116 => ⟨S4x20x64x2048, .f32⟩
  | 117 => ⟨S4x20x64x2048, .f32⟩
  | 118 => ⟨S4x20x64x2048, .f32⟩
  | 119 => ⟨S4x3x64x2048, .f32⟩
  | 120 => ⟨S4x3x64x2048, .f32⟩
  | 121 => ⟨S4x3x64x2048, .f32⟩
  | 122 => ⟨S_, .f32⟩
  | 123 => ⟨S4x64x2048, .f32⟩
  | 124 => ⟨S4x64x2048, .f32⟩
  | 125 => ⟨S_, .f32⟩
  | 126 => ⟨S4x64x2048, .f32⟩
  | 127 => ⟨S4x64x2048, .f32⟩
  | _ => ⟨S4x3x64x2048, .f32⟩

abbrev hbmTy0_3 (i : Nat) : BufTy := match i % 128 with
  | 0 => ⟨S4x64x2048, .f32⟩
  | 1 => ⟨S4x1x64x2048, .f32⟩
  | 2 => ⟨S4x20x64x2048, .f32⟩
  | 3 => ⟨S4x20x64x2048, .f32⟩
  | 4 => ⟨S4x20x64x2048, .f32⟩
  | 5 => ⟨S4x20x64x2048, .f32⟩
  | _ => ⟨S4x3x64x2048, .f32⟩

abbrev hbmTy (i : Nat) : BufTy := match i / 128 with
  | 0 => hbmTy0_0 i
  | 1 => hbmTy0_1 i
  | 2 => hbmTy0_2 i
  | 3 => hbmTy0_3 i
  | _ => ⟨S4x3x64x2048, .f32⟩

abbrev bufTy : (tb : Table) → Fin (tcTables nBuf tb) → BufTy
  | .hbm, ⟨i, _⟩ => hbmTy i
  | _, _ => ⟨S4x3x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_13 : Ref sig .tc := ⟨.hbm, 108, rfl⟩
abbrev main_v88 : Ref sig .tc := ⟨.hbm, 109, rfl⟩
abbrev main_v89 : Ref sig .tc := ⟨.hbm, 110, rfl⟩
abbrev main_cst_14 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_15 : Ref sig .tc := ⟨.hbm, 123, rfl⟩
abbrev main_v101 : Ref sig .tc := ⟨.hbm, 124, rfl⟩
abbrev main_v102 : Ref sig .tc := ⟨.hbm, 125, rfl⟩
abbrev main_cst_16 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_17 : Ref sig .tc := ⟨.hbm, 138, rfl⟩
abbrev main_v114 : Ref sig .tc := ⟨.hbm, 139, rfl⟩
abbrev main_v115 : Ref sig .tc := ⟨.hbm, 140, rfl⟩
abbrev main_cst_18 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_19 : Ref sig .tc := ⟨.hbm, 153, rfl⟩
abbrev main_v127 : Ref sig .tc := ⟨.hbm, 154, rfl⟩
abbrev main_v128 : Ref sig .tc := ⟨.hbm, 155, rfl⟩
abbrev main_cst_20 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_21 : Ref sig .tc := ⟨.hbm, 168, rfl⟩
abbrev main_v140 : Ref sig .tc := ⟨.hbm, 169, rfl⟩
abbrev main_v141 : Ref sig .tc := ⟨.hbm, 170, rfl⟩
abbrev main_cst_22 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_cst_23 : Ref sig .tc := ⟨.hbm, 183, rfl⟩
abbrev main_v153 : Ref sig .tc := ⟨.hbm, 184, rfl⟩
abbrev main_v154 : Ref sig .tc := ⟨.hbm, 185, rfl⟩
abbrev main_cst_24 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_cst_25 : Ref sig .tc := ⟨.hbm, 198, rfl⟩
abbrev main_v166 : Ref sig .tc := ⟨.hbm, 199, rfl⟩
abbrev main_v167 : Ref sig .tc := ⟨.hbm, 200, rfl⟩
abbrev main_cst_26 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_cst_27 : Ref sig .tc := ⟨.hbm, 213, rfl⟩
abbrev main_v179 : Ref sig .tc := ⟨.hbm, 214, rfl⟩
abbrev main_v180 : Ref sig .tc := ⟨.hbm, 215, rfl⟩
abbrev main_cst_28 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_cst_29 : Ref sig .tc := ⟨.hbm, 228, rfl⟩
abbrev main_v192 : Ref sig .tc := ⟨.hbm, 229, rfl⟩
abbrev main_v193 : Ref sig .tc := ⟨.hbm, 230, rfl⟩
abbrev main_cst_30 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_cst_31 : Ref sig .tc := ⟨.hbm, 243, rfl⟩
abbrev main_v205 : Ref sig .tc := ⟨.hbm, 244, rfl⟩
abbrev main_v206 : Ref sig .tc := ⟨.hbm, 245, rfl⟩
abbrev main_cst_32 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_cst_33 : Ref sig .tc := ⟨.hbm, 258, rfl⟩
abbrev main_v218 : Ref sig .tc := ⟨.hbm, 259, rfl⟩
abbrev main_v219 : Ref sig .tc := ⟨.hbm, 260, rfl⟩
abbrev main_cst_34 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_cst_35 : Ref sig .tc := ⟨.hbm, 273, rfl⟩
abbrev main_v231 : Ref sig .tc := ⟨.hbm, 274, rfl⟩
abbrev main_v232 : Ref sig .tc := ⟨.hbm, 275, rfl⟩
abbrev main_cst_36 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_cst_37 : Ref sig .tc := ⟨.hbm, 288, rfl⟩
abbrev main_v244 : Ref sig .tc := ⟨.hbm, 289, rfl⟩
abbrev main_v245 : Ref sig .tc := ⟨.hbm, 290, rfl⟩
abbrev main_cst_38 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_cst_39 : Ref sig .tc := ⟨.hbm, 303, rfl⟩
abbrev main_v257 : Ref sig .tc := ⟨.hbm, 304, rfl⟩
abbrev main_v258 : Ref sig .tc := ⟨.hbm, 305, rfl⟩
abbrev main_cst_40 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_cst_41 : Ref sig .tc := ⟨.hbm, 318, rfl⟩
abbrev main_v270 : Ref sig .tc := ⟨.hbm, 319, rfl⟩
abbrev main_v271 : Ref sig .tc := ⟨.hbm, 320, rfl⟩
abbrev main_cst_42 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_cst_43 : Ref sig .tc := ⟨.hbm, 333, rfl⟩
abbrev main_v283 : Ref sig .tc := ⟨.hbm, 334, rfl⟩
abbrev main_v284 : Ref sig .tc := ⟨.hbm, 335, rfl⟩
abbrev main_cst_44 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_cst_45 : Ref sig .tc := ⟨.hbm, 348, rfl⟩
abbrev main_v296 : Ref sig .tc := ⟨.hbm, 349, rfl⟩
abbrev main_v297 : Ref sig .tc := ⟨.hbm, 350, rfl⟩
abbrev main_cst_46 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_cst_47 : Ref sig .tc := ⟨.hbm, 363, rfl⟩
abbrev main_v309 : Ref sig .tc := ⟨.hbm, 364, rfl⟩
abbrev main_v310 : Ref sig .tc := ⟨.hbm, 365, rfl⟩
abbrev main_cst_48 : Ref sig .tc := ⟨.hbm, 366, rfl⟩
abbrev main_v311 : Ref sig .tc := ⟨.hbm, 367, rfl⟩
abbrev main_v312 : Ref sig .tc := ⟨.hbm, 368, rfl⟩
abbrev main_v313 : Ref sig .tc := ⟨.hbm, 369, rfl⟩
abbrev main_v314 : Ref sig .tc := ⟨.hbm, 370, rfl⟩
abbrev main_v315 : Ref sig .tc := ⟨.hbm, 371, rfl⟩
abbrev main_v316 : Ref sig .tc := ⟨.hbm, 372, rfl⟩
abbrev main_v317 : Ref sig .tc := ⟨.hbm, 373, rfl⟩
abbrev main_v318 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_cst_49 : Ref sig .tc := ⟨.hbm, 378, rfl⟩
abbrev main_v322 : Ref sig .tc := ⟨.hbm, 379, rfl⟩
abbrev main_v323 : Ref sig .tc := ⟨.hbm, 380, rfl⟩
abbrev main_cst_50 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_v327 : Ref sig .tc := ⟨.hbm, 385, rfl⟩
abbrev main_v328 : Ref sig .tc := ⟨.hbm, 386, rfl⟩
abbrev main_v329 : Ref sig .tc := ⟨.hbm, 387, rfl⟩
abbrev main_v330 : Ref sig .tc := ⟨.hbm, 388, rfl⟩
abbrev main_v331 : Ref sig .tc := ⟨.hbm, 389, rfl⟩

abbrev nD : Nat := 1
abbrev τ : Topo := Topo.v7x

variable {F : FTy → Type} [FloatOps F]

class Facts₀ : Prop where
  bcast_S4x64x2048_S4x1x64x2048_0_2_3 : S4x64x2048.BroadcastsInDim S4x1x64x2048 (![0, 2, 3] : Fin 3 → Fin S4x1x64x2048.rank)
  bcast_S4x1x64x2048_S4x20x64x2048_0_1_2_3 : S4x1x64x2048.BroadcastsInDim S4x20x64x2048 (![0, 1, 2, 3] : Fin 4 → Fin S4x20x64x2048.rank)
  pads_S4x3x64x2048_S4x3x68x2052_000_000_220_220 : S4x3x64x2048.Pads (![0, 0, 2, 2] : Fin 4 → Nat) ![0, 0, 2, 2] ![0, 0, 0, 0] S4x3x68x2052
  h_S_ : 0 < S_.numel
  pads_S4x20x64x2048_S4x20x68x2052_000_000_220_220 : S4x20x64x2048.Pads (![0, 0, 2, 2] : Fin 4 → Nat) ![0, 0, 2, 2] ![0, 0, 0, 0] S4x20x68x2052
  bcast_S_S4x20x64x2048 : S_.BroadcastsInDim S4x20x64x2048 (![] : Fin 0 → Fin S4x20x64x2048.rank)
  slices_S4x3x68x2052_S4x3x64x2048_0_0_0_0 : S4x3x68x2052.Slices ![0, 0, 0, 0] S4x3x64x2048
  reducesTo_S4x3x64x2048_S4x64x2048_d1 : S4x3x64x2048.ReducesTo [1] S4x64x2048
  bcast_S_S4x64x2048 : S_.BroadcastsInDim S4x64x2048 (![] : Fin 0 → Fin S4x64x2048.rank)
  slices_S4x20x68x2052_S4x20x64x2048_0_0_0_0 : S4x20x68x2052.Slices ![0, 0, 0, 0] S4x20x64x2048
  slices_S4x3x68x2052_S4x3x64x2048_0_0_0_1 : S4x3x68x2052.Slices ![0, 0, 0, 1] S4x3x64x2048
  slices_S4x20x68x2052_S4x20x64x2048_0_0_0_1 : S4x20x68x2052.Slices ![0, 0, 0, 1] S4x20x64x2048
  slices_S4x3x68x2052_S4x3x64x2048_0_0_0_2 : S4x3x68x2052.Slices ![0, 0, 0, 2] S4x3x64x2048
  slices_S4x20x68x2052_S4x20x64x2048_0_0_0_2 : S4x20x68x2052.Slices ![0, 0, 0, 2] S4x20x64x2048
  slices_S4x3x68x2052_S4x3x64x2048_0_0_0_3 : S4x3x68x2052.Slices ![0, 0, 0, 3] S4x3x64x2048
  slices_S4x20x68x2052_S4x20x64x2048_0_0_0_3 : S4x20x68x2052.Slices ![0, 0, 0, 3] S4x20x64x2048
  slices_S4x3x68x2052_S4x3x64x2048_0_0_0_4 : S4x3x68x2052.Slices ![0, 0, 0, 4] S4x3x64x2048
  slices_S4x20x68x2052_S4x20x64x2048_0_0_0_4 : S4x20x68x2052.Slices ![0, 0, 0, 4] S4x20x64x2048
  slices_S4x3x68x2052_S4x3x64x2048_0_0_1_0 : S4x3x68x2052.Slices ![0, 0, 1, 0] S4x3x64x2048
  slices_S4x20x68x2052_S4x20x64x2048_0_0_1_0 : S4x20x68x2052.Slices ![0, 0, 1, 0] S4x20x64x2048
  slices_S4x3x68x2052_S4x3x64x2048_0_0_1_1 : S4x3x68x2052.Slices ![0, 0, 1, 1] S4x3x64x2048
  slices_S4x20x68x2052_S4x20x64x2048_0_0_1_1 : S4x20x68x2052.Slices ![0, 0, 1, 1] S4x20x64x2048
  slices_S4x3x68x2052_S4x3x64x2048_0_0_1_2 : S4x3x68x2052.Slices ![0, 0, 1, 2] S4x3x64x2048
  slices_S4x20x68x2052_S4x20x64x2048_0_0_1_2 : S4x20x68x2052.Slices ![0, 0, 1, 2] S4x20x64x2048
  slices_S4x3x68x2052_S4x3x64x2048_0_0_1_3 : S4x3x68x2052.Slices ![0, 0, 1, 3] S4x3x64x2048
  slices_S4x20x68x2052_S4x20x64x2048_0_0_1_3 : S4x20x68x2052.Slices ![0, 0, 1, 3] S4x20x64x2048
  slices_S4x3x68x2052_S4x3x64x2048_0_0_1_4 : S4x3x68x2052.Slices ![0, 0, 1, 4] S4x3x64x2048
  slices_S4x20x68x2052_S4x20x64x2048_0_0_1_4 : S4x20x68x2052.Slices ![0, 0, 1, 4] S4x20x64x2048
  slices_S4x3x68x2052_S4x3x64x2048_0_0_2_0 : S4x3x68x2052.Slices ![0, 0, 2, 0] S4x3x64x2048
  slices_S4x20x68x2052_S4x20x64x2048_0_0_2_0 : S4x20x68x2052.Slices ![0, 0, 2, 0] S4x20x64x2048
  slices_S4x3x68x2052_S4x3x64x2048_0_0_2_1 : S4x3x68x2052.Slices ![0, 0, 2, 1] S4x3x64x2048
  slices_S4x20x68x2052_S4x20x64x2048_0_0_2_1 : S4x20x68x2052.Slices ![0, 0, 2, 1] S4x20x64x2048
  slices_S4x3x68x2052_S4x3x64x2048_0_0_2_2 : S4x3x68x2052.Slices ![0, 0, 2, 2] S4x3x64x2048
  slices_S4x20x68x2052_S4x20x64x2048_0_0_2_2 : S4x20x68x2052.Slices ![0, 0, 2, 2] S4x20x64x2048
  slices_S4x3x68x2052_S4x3x64x2048_0_0_2_3 : S4x3x68x2052.Slices ![0, 0, 2, 3] S4x3x64x2048
  slices_S4x20x68x2052_S4x20x64x2048_0_0_2_3 : S4x20x68x2052.Slices ![0, 0, 2, 3] S4x20x64x2048
  slices_S4x3x68x2052_S4x3x64x2048_0_0_2_4 : S4x3x68x2052.Slices ![0, 0, 2, 4] S4x3x64x2048
  slices_S4x20x68x2052_S4x20x64x2048_0_0_2_4 : S4x20x68x2052.Slices ![0, 0, 2, 4] S4x20x64x2048
  slices_S4x3x68x2052_S4x3x64x2048_0_0_3_0 : S4x3x68x2052.Slices ![0, 0, 3, 0] S4x3x64x2048
  slices_S4x20x68x2052_S4x20x64x2048_0_0_3_0 : S4x20x68x2052.Slices ![0, 0, 3, 0] S4x20x64x2048
  slices_S4x3x68x2052_S4x3x64x2048_0_0_3_1 : S4x3x68x2052.Slices ![0, 0, 3, 1] S4x3x64x2048
  slices_S4x20x68x2052_S4x20x64x2048_0_0_3_1 : S4x20x68x2052.Slices ![0, 0, 3, 1] S4x20x64x2048
  slices_S4x3x68x2052_S4x3x64x2048_0_0_3_2 : S4x3x68x2052.Slices ![0, 0, 3, 2] S4x3x64x2048
  slices_S4x20x68x2052_S4x20x64x2048_0_0_3_2 : S4x20x68x2052.Slices ![0, 0, 3, 2] S4x20x64x2048
  slices_S4x3x68x2052_S4x3x64x2048_0_0_3_3 : S4x3x68x2052.Slices ![0, 0, 3, 3] S4x3x64x2048
  slices_S4x20x68x2052_S4x20x64x2048_0_0_3_3 : S4x20x68x2052.Slices ![0, 0, 3, 3] S4x20x64x2048
  slices_S4x3x68x2052_S4x3x64x2048_0_0_3_4 : S4x3x68x2052.Slices ![0, 0, 3, 4] S4x3x64x2048
  slices_S4x20x68x2052_S4x20x64x2048_0_0_3_4 : S4x20x68x2052.Slices ![0, 0, 3, 4] S4x20x64x2048
  slices_S4x3x68x2052_S4x3x64x2048_0_0_4_0 : S4x3x68x2052.Slices ![0, 0, 4, 0] S4x3x64x2048
  slices_S4x20x68x2052_S4x20x64x2048_0_0_4_0 : S4x20x68x2052.Slices ![0, 0, 4, 0] S4x20x64x2048
  slices_S4x3x68x2052_S4x3x64x2048_0_0_4_1 : S4x3x68x2052.Slices ![0, 0, 4, 1] S4x3x64x2048
  slices_S4x20x68x2052_S4x20x64x2048_0_0_4_1 : S4x20x68x2052.Slices ![0, 0, 4, 1] S4x20x64x2048
  slices_S4x3x68x2052_S4x3x64x2048_0_0_4_2 : S4x3x68x2052.Slices ![0, 0, 4, 2] S4x3x64x2048
  slices_S4x20x68x2052_S4x20x64x2048_0_0_4_2 : S4x20x68x2052.Slices ![0, 0, 4, 2] S4x20x64x2048
  slices_S4x3x68x2052_S4x3x64x2048_0_0_4_3 : S4x3x68x2052.Slices ![0, 0, 4, 3] S4x3x64x2048
  slices_S4x20x68x2052_S4x20x64x2048_0_0_4_3 : S4x20x68x2052.Slices ![0, 0, 4, 3] S4x20x64x2048
  slices_S4x3x68x2052_S4x3x64x2048_0_0_4_4 : S4x3x68x2052.Slices ![0, 0, 4, 4] S4x3x64x2048
  slices_S4x20x68x2052_S4x20x64x2048_0_0_4_4 : S4x20x68x2052.Slices ![0, 0, 4, 4] S4x20x64x2048

variable [Facts₀]

class Facts : Prop extends Facts₀ where

variable [Facts]
-- ==== Proof.RefOps.lean ====
/-
  The reference program as a list of its host operations.

  The program's body is seven consecutive stretches of operations; each stretch, run in order, is the stretch
  of the list below, so the whole body is the concatenation run in order.  Every operation touches only
  buffers of the one device.  Nothing here says what the operations compute: that is read in the modules
  that import this one.
-/
import proofs.«120163_j10179072491794_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the body's stretch 0, in order (a called function's operations stand in its call's place). -/
abbrev ops_part0 : List (HloOp τ sig (Elt F)) :=
  [ unary main_arg2 main_v0 (broadcastInDim S4x1x64x2048 ![0, 2, 3] bcast_S4x64x2048_S4x1x64x2048_0_2_3 : (⟨S4x64x2048, .i1⟩ : BufTy).Contents (Elt F) → (⟨S4x1x64x2048, .i1⟩ : BufTy).Contents (Elt F)),
    unary main_v0 main_v1 (uitofp .f32 : (⟨S4x1x64x2048, .i1⟩ : BufTy).Contents (Elt F) → (⟨S4x1x64x2048, .f32⟩ : BufTy).Contents (Elt F)),
    unary main_v1 main_v2 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_arg1 main_v2 main_v3 (mulf : (⟨S4x20x64x2048, .f32⟩ : BufTy).Contents (Elt F) → (⟨S4x20x64x2048, .f32⟩ : BufTy).Contents (Elt F) → (⟨S4x20x64x2048, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S4x3x64x2048, .f32⟩) main_arg0) (TRef.of (T := ⟨S_, .f32⟩) main_call0_v0) (TRef.of (T := ⟨S4x3x68x2052, .f32⟩) main_v4) (fun x v => pad S4x3x68x2052 ![0, 0, 2, 2] ![0, 0, 2, 2] ![0, 0, 0, 0] x v pads_S4x3x64x2048_S4x3x68x2052_000_000_220_220 h_S_),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S4x20x64x2048, .f32⟩) main_v3) (TRef.of (T := ⟨S_, .f32⟩) main_call1_v0) (TRef.of (T := ⟨S4x20x68x2052, .f32⟩) main_v5) (fun x v => pad S4x20x68x2052 ![0, 0, 2, 2] ![0, 0, 2, 2] ![0, 0, 0, 0] x v pads_S4x20x64x2048_S4x20x68x2052_000_000_220_220 h_S_),
    nullary main_cst (constant S_ .f32 0x00000000#32),
    unary main_cst main_v6 (broadcastInDim S4x20x64x2048 ![] bcast_S_S4x20x64x2048 : (⟨S_, .f32⟩ : BufTy).Contents (Elt F) → (⟨S4x20x64x2048, .f32⟩ : BufTy).Contents (Elt F)),
    unary main_v4 main_v7 ((extractStridedSlice S4x3x64x2048 ![0, 0, 0, 0] · slices_S4x3x68x2052_S4x3x64x2048_0_0_0_0) : (⟨S4x3x68x2052, .f32⟩ : BufTy).Contents (Elt F) → (⟨S4x3x64x2048, .f32⟩ : BufTy).Contents (Elt F)),
    binary main_v7 main_arg0 main_v8 (subf : (⟨S4x3x64x2048, .f32⟩ : BufTy).Contents (Elt F) → (⟨S4x3x64x2048, .f32⟩ : BufTy).Contents (Elt F) → (⟨S4x3x64x2048, .f32⟩ : BufTy).Contents (Elt F)),
    binary main_v8 main_v8 main_v9 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_1 (constant S_ .f32 0x00000000#32),
    binary main_v9 main_cst_1 main_v10 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v10 main_v11 (Host.negf : (⟨S4x64x2048, .f32⟩ : BufTy).Contents (Elt F) → (⟨S4x64x2048, .f32⟩ : BufTy).Contents (Elt F)),
    nullary main_cst_2 (constant S_ .f32 0x40000000#32),
    unary main_cst_2 main_v12 (broadcastInDim S4x64x2048 ![] bcast_S_S4x64x2048 : (⟨S_, .f32⟩ : BufTy).Contents (Elt F) → (⟨S4x64x2048, .f32⟩ : BufTy).Contents (Elt F)),
    binary main_v11 main_v12 main_v13 (Host.divf : (⟨S4x64x2048, .f32⟩ : BufTy).Contents (Elt F) → (⟨S4x64x2048, .f32⟩ : BufTy).Contents (Elt F) → (⟨S4x64x2048, .f32⟩ : BufTy).Contents (Elt F)),
    unary main_v13 main_v14 (Host.exp : (⟨S4x64x2048, .f32⟩ : BufTy).Contents (Elt F) → (⟨S4x64x2048, .f32⟩ : BufTy).Contents (Elt F)),
    unary main_v14 main_v15 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v16 ((extractStridedSlice S4x20x64x2048 ![0, 0, 0, 0] · slices_S4x20x68x2052_S4x20x64x2048_0_0_0_0) : (⟨S4x20x68x2052, .f32⟩ : BufTy).Contents (Elt F) → (⟨S4x20x64x2048, .f32⟩ : BufTy).Contents (Elt F)),
    unary main_v15 main_v17 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v17 main_v16 main_v18 (mulf : (⟨S4x20x64x2048, .f32⟩ : BufTy).Contents (Elt F) → (⟨S4x20x64x2048, .f32⟩ : BufTy).Contents (Elt F) → (⟨S4x20x64x2048, .f32⟩ : BufTy).Contents (Elt F)),
    binary main_v6 main_v18 main_v19 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v20 ((extractStridedSlice S4x3x64x2048 ![0, 0, 0, 1] · slices_S4x3x68x2052_S4x3x64x2048_0_0_0_1) : (⟨S4x3x68x2052, .f32⟩ : BufTy).Contents (Elt F) → (⟨S4x3x64x2048, .f32⟩ : BufTy).Contents (Elt F)),
    binary main_v20 main_arg0 main_v21 (subf : (⟨S4x3x64x2048, .f32⟩ : BufTy).Contents (Elt F) → (⟨S4x3x64x2048, .f32⟩ : BufTy).Contents (Elt F) → (⟨S4x3x64x2048, .f32⟩ : BufTy).Contents (Elt F)),
    binary main_v21 main_v21 main_v22 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_3 (constant S_ .f32 0x00000000#32),
    binary main_v22 main_cst_3 main_v23 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v23 main_v24 (Host.negf : (⟨S4x64x2048, .f32⟩ : BufTy).Contents (Elt F) → (⟨S4x64x2048, .f32⟩ : BufTy).Contents (Elt F)),
    nullary main_cst_4 (constant S_ .f32 0x40000000#32),
    unary main_cst_4 main_v25 (broadcastInDim S4x64x2048 ![] bcast_S_S4x64x2048 : (⟨S_, .f32⟩ : BufTy).Contents (Elt F) → (⟨S4x64x2048, .f32⟩ : BufTy).Contents (Elt F)),
    binary main_v24 main_v25 main_v26 (Host.divf : (⟨S4x64x2048, .f32⟩ : BufTy).Contents (Elt F) → (⟨S4x64x2048, .f32⟩ : BufTy).Contents (Elt F) → (⟨S4x64x2048, .f32⟩ : BufTy).Contents (Elt F)),
    unary main_v26 main_v27 (Host.exp : (⟨S4x64x2048, .f32⟩ : BufTy).Contents (Elt F) → (⟨S4x64x2048, .f32⟩ : BufTy).Contents (Elt F)),
    unary main_v27 main_v28 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v29 ((extractStridedSlice S4x20x64x2048 ![0, 0, 0, 1] · slices_S4x20x68x2052_S4x20x64x2048_0_0_0_1) : (⟨S4x20x68x2052, .f32⟩ : BufTy).Contents (Elt F) → (⟨S4x20x64x2048, .f32⟩ : BufTy).Contents (Elt F)),
    unary main_v28 main_v30 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v30 main_v29 main_v31 (mulf : (⟨S4x20x64x2048, .f32⟩ : BufTy).Contents (Elt F) → (⟨S4x20x64x2048, .f32⟩ : BufTy).Contents (Elt F) → (⟨S4x20x64x2048, .f32⟩ : BufTy).Contents (Elt F)),
    binary main_v19 main_v31 main_v32 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v33 ((extractStridedSlice S4x3x64x2048 ![0, 0, 0, 2] · slices_S4x3x68x2052_S4x3x64x2048_0_0_0_2) : (⟨S4x3x68x2052, .f32⟩ : BufTy).Contents (Elt F) → (⟨S4x3x64x2048, .f32⟩ : BufTy).Contents (Elt F)),
    binary main_v33 main_arg0 main_v34 (subf : (⟨S4x3x64x2048, .f32⟩ : BufTy).Contents (Elt F) → (⟨S4x3x64x2048, .f32⟩ : BufTy).Contents (Elt F) → (⟨S4x3x64x2048, .f32⟩ : BufTy).Contents (Elt F)),
    binary main_v34 main_v34 main_v35 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_5 (constant S_ .f32 0x00000000#32),
    binary main_v35 main_cst_5 main_v36 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v36 main_v37 (Host.negf : (⟨S4x64x2048, .f32⟩ : BufTy).Contents (Elt F) → (⟨S4x64x2048, .f32⟩ : BufTy).Contents (Elt F)),
    nullary main_cst_6 (constant S_ .f32 0x40000000#32),
    unary main_cst_6 main_v38 (broadcastInDim S4x64x2048 ![] bcast_S_S4x64x2048 : (⟨S_, .f32⟩ : BufTy).Contents (Elt F) → (⟨S4x64x2048, .f32⟩ : BufTy).Contents (Elt F)),
    binary main_v37 main_v38 main_v39 (Host.divf : (⟨S4x64x2048, .f32⟩ : BufTy).Contents (Elt F) → (⟨S4x64x2048, .f32⟩ : BufTy).Contents (Elt F) → (⟨S4x64x2048, .f32⟩ : BufTy).Contents (Elt F)),
    unary main_v39 main_v40 (Host.exp : (⟨S4x64x2048, .f32⟩ : BufTy).Contents (Elt F) → (⟨S4x64x2048, .f32⟩ : BufTy).Contents (Elt F)),
    unary main_v40 main_v41 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v42 ((extractStridedSlice S4x20x64x2048 ![0, 0, 0, 2] · slices_S4x20x68x2052_S4x20x64x2048_0_0_0_2) : (⟨S4x20x68x2052, .f32⟩ : BufTy).Contents (Elt F) → (⟨S4x20x64x2048, .f32⟩ : BufTy).Contents (Elt F)),
    unary main_v41 main_v43 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v43 main_v42 main_v44 (mulf : (⟨S4x20x64x2048, .f32⟩ : BufTy).Contents (Elt F) → (⟨S4x20x64x2048, .f32⟩ : BufTy).Contents (Elt F) → (⟨S4x20x64x2048, .f32⟩ : BufTy).Contents (Elt F)),
    binary main_v32 main_v44 main_v45 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v46 ((extractStridedSlice S4x3x64x2048 ![0, 0, 0, 3] · slices_S4x3x68x2052_S4x3x64x2048_0_0_0_3) : (⟨S4x3x68x2052, .f32⟩ : BufTy).Contents (Elt F) → (⟨S4x3x64x2048, .f32⟩ : BufTy).Contents (Elt F)),
    binary main_v46 main_arg0 main_v47 (subf : (⟨S4x3x64x2048, .f32⟩ : BufTy).Contents (Elt F) → (⟨S4x3x64x2048, .f32⟩ : BufTy).Contents (Elt F) → (⟨S4x3x64x2048, .f32⟩ : BufTy).Contents (Elt F)),
    binary main_v47 main_v47 main_v48 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_7 (constant S_ .f32 0x00000000#32),
    binary main_v48 main_cst_7 main_v49 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)) ]

/-- The operations of the body's stretch 1, in order (a called function's operations stand in its call's place). -/
abbrev ops_part1 : List (HloOp τ sig (Elt F)) :=
  [ unary main_v49 main_v50 (Host.negf : (⟨S4x64x2048, .f32⟩ : BufTy).Contents (Elt F) → (⟨S4x64x2048, .f32⟩ : BufTy).Contents (Elt F)),
    nullary main_cst_8 (constant S_ .f32 0x40000000#32),
    unary main_cst_8 main_v51 (broadcastInDim S4x64x2048 ![] bcast_S_S4x64x2048 : (⟨S_, .f32⟩ : BufTy).Contents (Elt F) → (⟨S4x64x2048, .f32⟩ : BufTy).Contents (Elt F)),
    binary main_v50 main_v51 main_v52 (Host.divf : (⟨S4x64x2048, .f32⟩ : BufTy).Contents (Elt F) → (⟨S4x64x2048, .f32⟩ : BufTy).Contents (Elt F) → (⟨S4x64x2048, .f32⟩ : BufTy).Contents (Elt F)),
    unary main_v52 main_v53 (Host.exp : (⟨S4x64x2048, .f32⟩ : BufTy).Contents (Elt F) → (⟨S4x64x2048, .f32⟩ : BufTy).Contents (Elt F)),
    unary main_v53 main_v54 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v55 ((extractStridedSlice S4x20x64x2048 ![0, 0, 0, 3] · slices_S4x20x68x2052_S4x20x64x2048_0_0_0_3) : (⟨S4x20x68x2052, .f32⟩ : BufTy).Contents (Elt F) → (⟨S4x20x64x2048, .f32⟩ : BufTy).Contents (Elt F)),
    unary main_v54 main_v56 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v56 main_v55 main_v57 (mulf : (⟨S4x20x64x2048, .f32⟩ : BufTy).Contents (Elt F) → (⟨S4x20x64x2048, .f32⟩ : BufTy).Contents (Elt F) → (⟨S4x20x64x2048, .f32⟩ : BufTy).Contents (Elt F)),
    binary main_v45 main_v57 main_v58 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v59 ((extractStridedSlice S4x3x64x2048 ![0, 0, 0, 4] · slices_S4x3x68x2052_S4x3x64x2048_0_0_0_4) : (⟨S4x3x68x2052, .f32⟩ : BufTy).Contents (Elt F) → (⟨S4x3x64x2048, .f32⟩ : BufTy).Contents (Elt F)),
    binary main_v59 main_arg0 main_v60 (subf : (⟨S4x3x64x2048, .f32⟩ : BufTy).Contents (Elt F) → (⟨S4x3x64x2048, .f32⟩ : BufTy).Contents (Elt F) → (⟨S4x3x64x2048, .f32⟩ : BufTy).Contents (Elt F)),
    binary main_v60 main_v60 main_v61 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_9 (constant S_ .f32 0x00000000#32),
    binary main_v61 main_cst_9 main_v62 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v62 main_v63 (Host.negf : (⟨S4x64x2048, .f32⟩ : BufTy).Contents (Elt F) → (⟨S4x64x2048, .f32⟩ : BufTy).Contents (Elt F)),
    nullary main_cst_10 (constant S_ .f32 0x40000000#32),
    unary main_cst_10 main_v64 (broadcastInDim S4x64x2048 ![] bcast_S_S4x64x2048 : (⟨S_, .f32⟩ : BufTy).Contents (Elt F) → (⟨S4x64x2048, .f32⟩ : BufTy).Contents (Elt F)),
    binary main_v63 main_v64 main_v65 (Host.divf : (⟨S4x64x2048, .f32⟩ : BufTy).Contents (Elt F) → (⟨S4x64x2048, .f32⟩ : BufTy).Contents (Elt F) → (⟨S4x64x2048, .f32⟩ : BufTy).Contents (Elt F)),
    unary main_v65 main_v66 (Host.exp : (⟨S4x64x2048, .f32⟩ : BufTy).Contents (Elt F) → (⟨S4x64x2048, .f32⟩ : BufTy).Contents (Elt F)),
    unary main_v66 main_v67 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v68 ((extractStridedSlice S4x20x64x2048 ![0, 0, 0, 4] · slices_S4x20x68x2052_S4x20x64x2048_0_0_0_4) : (⟨S4x20x68x2052, .f32⟩ : BufTy).Contents (Elt F) → (⟨S4x20x64x2048, .f32⟩ : BufTy).Contents (Elt F)),
    unary main_v67 main_v69 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v69 main_v68 main_v70 (mulf : (⟨S4x20x64x2048, .f32⟩ : BufTy).Contents (Elt F) → (⟨S4x20x64x2048, .f32⟩ : BufTy).Contents (Elt F) → (⟨S4x20x64x2048, .f32⟩ : BufTy).Contents (Elt F)),
    binary main_v58 main_v70 main_v71 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v72 ((extractStridedSlice S4x3x64x2048 ![0, 0, 1, 0] · slices_S4x3x68x2052_S4x3x64x2048_0_0_1_0) : (⟨S4x3x68x2052, .f32⟩ : BufTy).Contents (Elt F) → (⟨S4x3x64x2048, .f32⟩ : BufTy).Contents (Elt F)),
    binary main_v72 main_arg0 main_v73 (subf : (⟨S4x3x64x2048, .f32⟩ : BufTy).Contents (Elt F) → (⟨S4x3x64x2048, .f32⟩ : BufTy).Contents (Elt F) → (⟨S4x3x64x2048, .f32⟩ : BufTy).Contents (Elt F)),
    binary main_v73 main_v73 main_v74 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_11 (constant S_ .f32 0x00000000#32),
    binary main_v74 main_cst_11 main_v75 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v75 main_v76 (Host.negf : (⟨S4x64x2048, .f32⟩ : BufTy).Contents (Elt F) → (⟨S4x64x2048, .f32⟩ : BufTy).Contents (Elt F)),
    nullary main_cst_12 (constant S_ .f32 0x40000000#32),
    unary main_cst_12 main_v77 (broadcastInDim S4x64x2048 ![] bcast_S_S4x64x2048 : (⟨S_, .f32⟩ : BufTy).Contents (Elt F) → (⟨S4x64x2048, .f32⟩ : BufTy).Contents (Elt F)),
    binary main_v76 main_v77 main_v78 (Host.divf : (⟨S4x64x2048, .f32⟩ : BufTy).Contents (Elt F) → (⟨S4x64x2048, .f32⟩ : BufTy).Contents (Elt F) → (⟨S4x64x2048, .f32⟩ : BufTy).Contents (Elt F)),
    unary main_v78 main_v79 (Host.exp : (⟨S4x64x2048, .f32⟩ : BufTy).Contents (Elt F) → (⟨S4x64x2048, .f32⟩ : BufTy).Contents (Elt F)),
    unary main_v79 main_v80 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v81 ((extractStridedSlice S4x20x64x2048 ![0, 0, 1, 0] · slices_S4x20x68x2052_S4x20x64x2048_0_0_1_0) : (⟨S4x20x68x2052, .f32⟩ : BufTy).Contents (Elt F) → (⟨S4x20x64x2048, .f32⟩ : BufTy).Contents (Elt F)),
    unary main_v80 main_v82 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v82 main_v81 main_v83 (mulf : (⟨S4x20x64x2048, .f32⟩ : BufTy).Contents (Elt F) → (⟨S4x20x64x2048, .f32⟩ : BufTy).Contents (Elt F) → (⟨S4x20x64x2048, .f32⟩ : BufTy).Contents (Elt F)),
    binary main_v71 main_v83 main_v84 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v85 ((extractStridedSlice S4x3x64x2048 ![0, 0, 1, 1] · slices_S4x3x68x2052_S4x3x64x2048_0_0_1_1) : (⟨S4x3x68x2052, .f32⟩ : BufTy).Contents (Elt F) → (⟨S4x3x64x2048, .f32⟩ : BufTy).Contents (Elt F)),
    binary main_v85 main_arg0 main_v86 (subf : (⟨S4x3x64x2048, .f32⟩ : BufTy).Contents (Elt F) → (⟨S4x3x64x2048, .f32⟩ : BufTy).Contents (Elt F) → (⟨S4x3x64x2048, .f32⟩ : BufTy).Contents (Elt F)),
    binary main_v86 main_v86 main_v87 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_13 (constant S_ .f32 0x00000000#32),
    binary main_v87 main_cst_13 main_v88 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v88 main_v89 (Host.negf : (⟨S4x64x2048, .f32⟩ : BufTy).Contents (Elt F) → (⟨S4x64x2048, .f32⟩ : BufTy).Contents (Elt F)),
    nullary main_cst_14 (constant S_ .f32 0x40000000#32),
    unary main_cst_14 main_v90 (broadcastInDim S4x64x2048 ![] bcast_S_S4x64x2048 : (⟨S_, .f32⟩ : BufTy).Contents (Elt F) → (⟨S4x64x2048, .f32⟩ : BufTy).Contents (Elt F)),
    binary main_v89 main_v90 main_v91 (Host.divf : (⟨S4x64x2048, .f32⟩ : BufTy).Contents (Elt F) → (⟨S4x64x2048, .f32⟩ : BufTy).Contents (Elt F) → (⟨S4x64x2048, .f32⟩ : BufTy).Contents (Elt F)),
    unary main_v91 main_v92 (Host.exp : (⟨S4x64x2048, .f32⟩ : BufTy).Contents (Elt F) → (⟨S4x64x2048, .f32⟩ : BufTy).Contents (Elt F)),
    unary main_v92 main_v93 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v94 ((extractStridedSlice S4x20x64x2048 ![0, 0, 1, 1] · slices_S4x20x68x2052_S4x20x64x2048_0_0_1_1) : (⟨S4x20x68x2052, .f32⟩ : BufTy).Contents (Elt F) → (⟨S4x20x64x2048, .f32⟩ : BufTy).Contents (Elt F)),
    unary main_v93 main_v95 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v95 main_v94 main_v96 (mulf : (⟨S4x20x64x2048, .f32⟩ : BufTy).Contents (Elt F) → (⟨S4x20x64x2048, .f32⟩ : BufTy).Contents (Elt F) → (⟨S4x20x64x2048, .f32⟩ : BufTy).Contents (Elt F)),
    binary main_v84 main_v96 main_v97 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v98 ((extractStridedSlice S4x3x64x2048 ![0, 0, 1, 2] · slices_S4x3x68x2052_S4x3x64x2048_0_0_1_2) : (⟨S4x3x68x2052, .f32⟩ : BufTy).Contents (Elt F) → (⟨S4x3x64x2048, .f32⟩ : BufTy).Contents (Elt F)),
    binary main_v98 main_arg0 main_v99 (subf : (⟨S4x3x64x2048, .f32⟩ : BufTy).Contents (Elt F) → (⟨S4x3x64x2048, .f32⟩ : BufTy).Contents (Elt F) → (⟨S4x3x64x2048, .f32⟩ : BufTy).Contents (Elt F)),
    binary main_v99 main_v99 main_v100 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_15 (constant S_ .f32 0x00000000#32),
    binary main_v100 main_cst_15 main_v101 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)) ]

/-- The operations of the body's stretch 2, in order (a called function's operations stand in its call's place). -/
abbrev ops_part2 : List (HloOp τ sig (Elt F)) :=
  [ unary main_v101 main_v102 (Host.negf : (⟨S4x64x2048, .f32⟩ : BufTy).Contents (Elt F) → (⟨S4x64x2048, .f32⟩ : BufTy).Contents (Elt F)),
    nullary main_cst_16 (constant S_ .f32 0x40000000#32),
    unary main_cst_16 main_v103 (broadcastInDim S4x64x2048 ![] bcast_S_S4x64x2048 : (⟨S_, .f32⟩ : BufTy).Contents (Elt F) → (⟨S4x64x2048, .f32⟩ : BufTy).Contents (Elt F)),
    binary main_v102 main_v103 main_v104 (Host.divf : (⟨S4x64x2048, .f32⟩ : BufTy).Contents (Elt F) → (⟨S4x64x2048, .f32⟩ : BufTy).Contents (Elt F) → (⟨S4x64x2048, .f32⟩ : BufTy).Contents (Elt F)),
    unary main_v104 main_v105 (Host.exp : (⟨S4x64x2048, .f32⟩ : BufTy).Contents (Elt F) → (⟨S4x64x2048, .f32⟩ : BufTy).Contents (Elt F)),
    unary main_v105 main_v106 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v107 ((extractStridedSlice S4x20x64x2048 ![0, 0, 1, 2] · slices_S4x20x68x2052_S4x20x64x2048_0_0_1_2) : (⟨S4x20x68x2052, .f32⟩ : BufTy).Contents (Elt F) → (⟨S4x20x64x2048, .f32⟩ : BufTy).Contents (Elt F)),
    unary main_v106 main_v108 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v108 main_v107 main_v109 (mulf : (⟨S4x20x64x2048, .f32⟩ : BufTy).Contents (Elt F) → (⟨S4x20x64x2048, .f32⟩ : BufTy).Contents (Elt F) → (⟨S4x20x64x2048, .f32⟩ : BufTy).Contents (Elt F)),
    binary main_v97 main_v109 main_v110 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v111 ((extractStridedSlice S4x3x64x2048 ![0, 0, 1, 3] · slices_S4x3x68x2052_S4x3x64x2048_0_0_1_3) : (⟨S4x3x68x2052, .f32⟩ : BufTy).Contents (Elt F) → (⟨S4x3x64x2048, .f32⟩ : BufTy).Contents (Elt F)),
    binary main_v111 main_arg0 main_v112 (subf : (⟨S4x3x64x2048, .f32⟩ : BufTy).Contents (Elt F) → (⟨S4x3x64x2048, .f32⟩ : BufTy).Contents (Elt F) → (⟨S4x3x64x2048, .f32⟩ : BufTy).Contents (Elt F)),
    binary main_v112 main_v112 main_v113 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_17 (constant S_ .f32 0x00000000#32),
    binary main_v113 main_cst_17 main_v114 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v114 main_v115 (Host.negf : (⟨S4x64x2048, .f32⟩ : BufTy).Contents (Elt F) → (⟨S4x64x2048, .f32⟩ : BufTy).Contents (Elt F)),
    nullary main_cst_18 (constant S_ .f32 0x40000000#32),
    unary main_cst_18 main_v116 (broadcastInDim S4x64x2048 ![] bcast_S_S4x64x2048 : (⟨S_, .f32⟩ : BufTy).Contents (Elt F) → (⟨S4x64x2048, .f32⟩ : BufTy).Contents (Elt F)),
    binary main_v115 main_v116 main_v117 (Host.divf : (⟨S4x64x2048, .f32⟩ : BufTy).Contents (Elt F) → (⟨S4x64x2048, .f32⟩ : BufTy).Contents (Elt F) → (⟨S4x64x2048, .f32⟩ : BufTy).Contents (Elt F)),
    unary main_v117 main_v118 (Host.exp : (⟨S4x64x2048, .f32⟩ : BufTy).Contents (Elt F) → (⟨S4x64x2048, .f32⟩ : BufTy).Contents (Elt F)),
    unary main_v118 main_v119 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v120 ((extractStridedSlice S4x20x64x2048 ![0, 0, 1, 3] · slices_S4x20x68x2052_S4x20x64x2048_0_0_1_3) : (⟨S4x20x68x2052, .f32⟩ : BufTy).Contents (Elt F) → (⟨S4x20x64x2048, .f32⟩ : BufTy).Contents (Elt F)),
    unary main_v119 main_v121 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v121 main_v120 main_v122 (mulf : (⟨S4x20x64x2048, .f32⟩ : BufTy).Contents (Elt F) → (⟨S4x20x64x2048, .f32⟩ : BufTy).Contents (Elt F) → (⟨S4x20x64x2048, .f32⟩ : BufTy).Contents (Elt F)),
    binary main_v110 main_v122 main_v123 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v124 ((extractStridedSlice S4x3x64x2048 ![0, 0, 1, 4] · slices_S4x3x68x2052_S4x3x64x2048_0_0_1_4) : (⟨S4x3x68x2052, .f32⟩ : BufTy).Contents (Elt F) → (⟨S4x3x64x2048, .f32⟩ : BufTy).Contents (Elt F)),
    binary main_v124 main_arg0 main_v125 (subf : (⟨S4x3x64x2048, .f32⟩ : BufTy).Contents (Elt F) → (⟨S4x3x64x2048, .f32⟩ : BufTy).Contents (Elt F) → (⟨S4x3x64x2048, .f32⟩ : BufTy).Contents (Elt F)),
    binary main_v125 main_v125 main_v126 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_19 (constant S_ .f32 0x00000000#32),
    binary main_v126 main_cst_19 main_v127 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v127 main_v128 (Host.negf : (⟨S4x64x2048, .f32⟩ : BufTy).Contents (Elt F) → (⟨S4x64x2048, .f32⟩ : BufTy).Contents (Elt F)),
    nullary main_cst_20 (constant S_ .f32 0x40000000#32),
    unary main_cst_20 main_v129 (broadcastInDim S4x64x2048 ![] bcast_S_S4x64x2048 : (⟨S_, .f32⟩ : BufTy).Contents (Elt F) → (⟨S4x64x2048, .f32⟩ : BufTy).Contents (Elt F)),
    binary main_v128 main_v129 main_v130 (Host.divf : (⟨S4x64x2048, .f32⟩ : BufTy).Contents (Elt F) → (⟨S4x64x2048, .f32⟩ : BufTy).Contents (Elt F) → (⟨S4x64x2048, .f32⟩ : BufTy).Contents (Elt F)),
    unary main_v130 main_v131 (Host.exp : (⟨S4x64x2048, .f32⟩ : BufTy).Contents (Elt F) → (⟨S4x64x2048, .f32⟩ : BufTy).Contents (Elt F)),
    unary main_v131 main_v132 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v133 ((extractStridedSlice S4x20x64x2048 ![0, 0, 1, 4] · slices_S4x20x68x2052_S4x20x64x2048_0_0_1_4) : (⟨S4x20x68x2052, .f32⟩ : BufTy).Contents (Elt F) → (⟨S4x20x64x2048, .f32⟩ : BufTy).Contents (Elt F)),
    unary main_v132 main_v134 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v134 main_v133 main_v135 (mulf : (⟨S4x20x64x2048, .f32⟩ : BufTy).Contents (Elt F) → (⟨S4x20x64x2048, .f32⟩ : BufTy).Contents (Elt F) → (⟨S4x20x64x2048, .f32⟩ : BufTy).Contents (Elt F)),
    binary main_v123 main_v135 main_v136 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v137 ((extractStridedSlice S4x3x64x2048 ![0, 0, 2, 0] · slices_S4x3x68x2052_S4x3x64x2048_0_0_2_0) : (⟨S4x3x68x2052, .f32⟩ : BufTy).Contents (Elt F) → (⟨S4x3x64x2048, .f32⟩ : BufTy).Contents (Elt F)),
    binary main_v137 main_arg0 main_v138 (subf : (⟨S4x3x64x2048, .f32⟩ : BufTy).Contents (Elt F) → (⟨S4x3x64x2048, .f32⟩ : BufTy).Contents (Elt F) → (⟨S4x3x64x2048, .f32⟩ : BufTy).Contents (Elt F)),
    binary main_v138 main_v138 main_v139 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_21 (constant S_ .f32 0x00000000#32),
    binary main_v139 main_cst_21 main_v140 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v140 main_v141 (Host.negf : (⟨S4x64x2048, .f32⟩ : BufTy).Contents (Elt F) → (⟨S4x64x2048, .f32⟩ : BufTy).Contents (Elt F)),
    nullary main_cst_22 (constant S_ .f32 0x40000000#32),
    unary main_cst_22 main_v142 (broadcastInDim S4x64x2048 ![] bcast_S_S4x64x2048 : (⟨S_, .f32⟩ : BufTy).Contents (Elt F) → (⟨S4x64x2048, .f32⟩ : BufTy).Contents (Elt F)),
    binary main_v141 main_v142 main_v143 (Host.divf : (⟨S4x64x2048, .f32⟩ : BufTy).Contents (Elt F) → (⟨S4x64x2048, .f32⟩ : BufTy).Contents (Elt F) → (⟨S4x64x2048, .f32⟩ : BufTy).Contents (Elt F)),
    unary main_v143 main_v144 (Host.exp : (⟨S4x64x2048, .f32⟩ : BufTy).Contents (Elt F) → (⟨S4x64x2048, .f32⟩ : BufTy).Contents (Elt F)),
    unary main_v144 main_v145 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v146 ((extractStridedSlice S4x20x64x2048 ![0, 0, 2, 0] · slices_S4x20x68x2052_S4x20x64x2048_0_0_2_0) : (⟨S4x20x68x2052, .f32⟩ : BufTy).Contents (Elt F) → (⟨S4x20x64x2048, .f32⟩ : BufTy).Contents (Elt F)),
    unary main_v145 main_v147 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v147 main_v146 main_v148 (mulf : (⟨S4x20x64x2048, .f32⟩ : BufTy).Contents (Elt F) → (⟨S4x20x64x2048, .f32⟩ : BufTy).Contents (Elt F) → (⟨S4x20x64x2048, .f32⟩ : BufTy).Contents (Elt F)),
    binary main_v136 main_v148 main_v149 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v150 ((extractStridedSlice S4x3x64x2048 ![0, 0, 2, 1] · slices_S4x3x68x2052_S4x3x64x2048_0_0_2_1) : (⟨S4x3x68x2052, .f32⟩ : BufTy).Contents (Elt F) → (⟨S4x3x64x2048, .f32⟩ : BufTy).Contents (Elt F)),
    binary main_v150 main_arg0 main_v151 (subf : (⟨S4x3x64x2048, .f32⟩ : BufTy).Contents (Elt F) → (⟨S4x3x64x2048, .f32⟩ : BufTy).Contents (Elt F) → (⟨S4x3x64x2048, .f32⟩ : BufTy).Contents (Elt F)),
    binary main_v151 main_v151 main_v152 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_23 (constant S_ .f32 0x00000000#32),
    binary main_v152 main_cst_23 main_v153 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)) ]

/-- The operations of the body's stretch 3, in order (a called function's operations stand in its call's place). -/
abbrev ops_part3 : List (HloOp τ sig (Elt F)) :=
  [ unary main_v153 main_v154 (Host.negf : (⟨S4x64x2048, .f32⟩ : BufTy).Contents (Elt F) → (⟨S4x64x2048, .f32⟩ : BufTy).Contents (Elt F)),
    nullary main_cst_24 (constant S_ .f32 0x40000000#32),
    unary main_cst_24 main_v155 (broadcastInDim S4x64x2048 ![] bcast_S_S4x64x2048 : (⟨S_, .f32⟩ : BufTy).Contents (Elt F) → (⟨S4x64x2048, .f32⟩ : BufTy).Contents (Elt F)),
    binary main_v154 main_v155 main_v156 (Host.divf : (⟨S4x64x2048, .f32⟩ : BufTy).Contents (Elt F) → (⟨S4x64x2048, .f32⟩ : BufTy).Contents (Elt F) → (⟨S4x64x2048, .f32⟩ : BufTy).Contents (Elt F)),
    unary main_v156 main_v157 (Host.exp : (⟨S4x64x2048, .f32⟩ : BufTy).Contents (Elt F) → (⟨S4x64x2048, .f32⟩ : BufTy).Contents (Elt F)),
    unary main_v157 main_v158 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v159 ((extractStridedSlice S4x20x64x2048 ![0, 0, 2, 1] · slices_S4x20x68x2052_S4x20x64x2048_0_0_2_1) : (⟨S4x20x68x2052, .f32⟩ : BufTy).Contents (Elt F) → (⟨S4x20x64x2048, .f32⟩ : BufTy).Contents (Elt F)),
    unary main_v158 main_v160 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v160 main_v159 main_v161 (mulf : (⟨S4x20x64x2048, .f32⟩ : BufTy).Contents (Elt F) → (⟨S4x20x64x2048, .f32⟩ : BufTy).Contents (Elt F) → (⟨S4x20x64x2048, .f32⟩ : BufTy).Contents (Elt F)),
    binary main_v149 main_v161 main_v162 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v163 ((extractStridedSlice S4x3x64x2048 ![0, 0, 2, 2] · slices_S4x3x68x2052_S4x3x64x2048_0_0_2_2) : (⟨S4x3x68x2052, .f32⟩ : BufTy).Contents (Elt F) → (⟨S4x3x64x2048, .f32⟩ : BufTy).Contents (Elt F)),
    binary main_v163 main_arg0 main_v164 (subf : (⟨S4x3x64x2048, .f32⟩ : BufTy).Contents (Elt F) → (⟨S4x3x64x2048, .f32⟩ : BufTy).Contents (Elt F) → (⟨S4x3x64x2048, .f32⟩ : BufTy).Contents (Elt F)),
    binary main_v164 main_v164 main_v165 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_25 (constant S_ .f32 0x00000000#32),
    binary main_v165 main_cst_25 main_v166 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v166 main_v167 (Host.negf : (⟨S4x64x2048, .f32⟩ : BufTy).Contents (Elt F) → (⟨S4x64x2048, .f32⟩ : BufTy).Contents (Elt F)),
    nullary main_cst_26 (constant S_ .f32 0x40000000#32),
    unary main_cst_26 main_v168 (broadcastInDim S4x64x2048 ![] bcast_S_S4x64x2048 : (⟨S_, .f32⟩ : BufTy).Contents (Elt F) → (⟨S4x64x2048, .f32⟩ : BufTy).Contents (Elt F)),
    binary main_v167 main_v168 main_v169 (Host.divf : (⟨S4x64x2048, .f32⟩ : BufTy).Contents (Elt F) → (⟨S4x64x2048, .f32⟩ : BufTy).Contents (Elt F) → (⟨S4x64x2048, .f32⟩ : BufTy).Contents (Elt F)),
    unary main_v169 main_v170 (Host.exp : (⟨S4x64x2048, .f32⟩ : BufTy).Contents (Elt F) → (⟨S4x64x2048, .f32⟩ : BufTy).Contents (Elt F)),
    unary main_v170 main_v171 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v172 ((extractStridedSlice S4x20x64x2048 ![0, 0, 2, 2] · slices_S4x20x68x2052_S4x20x64x2048_0_0_2_2) : (⟨S4x20x68x2052, .f32⟩ : BufTy).Contents (Elt F) → (⟨S4x20x64x2048, .f32⟩ : BufTy).Contents (Elt F)),
    unary main_v171 main_v173 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v173 main_v172 main_v174 (mulf : (⟨S4x20x64x2048, .f32⟩ : BufTy).Contents (Elt F) → (⟨S4x20x64x2048, .f32⟩ : BufTy).Contents (Elt F) → (⟨S4x20x64x2048, .f32⟩ : BufTy).Contents (Elt F)),
    binary main_v162 main_v174 main_v175 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v176 ((extractStridedSlice S4x3x64x2048 ![0, 0, 2, 3] · slices_S4x3x68x2052_S4x3x64x2048_0_0_2_3) : (⟨S4x3x68x2052, .f32⟩ : BufTy).Contents (Elt F) → (⟨S4x3x64x2048, .f32⟩ : BufTy).Contents (Elt F)),
    binary main_v176 main_arg0 main_v177 (subf : (⟨S4x3x64x2048, .f32⟩ : BufTy).Contents (Elt F) → (⟨S4x3x64x2048, .f32⟩ : BufTy).Contents (Elt F) → (⟨S4x3x64x2048, .f32⟩ : BufTy).Contents (Elt F)),
    binary main_v177 main_v177 main_v178 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_27 (constant S_ .f32 0x00000000#32),
    binary main_v178 main_cst_27 main_v179 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v179 main_v180 (Host.negf : (⟨S4x64x2048, .f32⟩ : BufTy).Contents (Elt F) → (⟨S4x64x2048, .f32⟩ : BufTy).Contents (Elt F)),
    nullary main_cst_28 (constant S_ .f32 0x40000000#32),
    unary main_cst_28 main_v181 (broadcastInDim S4x64x2048 ![] bcast_S_S4x64x2048 : (⟨S_, .f32⟩ : BufTy).Contents (Elt F) → (⟨S4x64x2048, .f32⟩ : BufTy).Contents (Elt F)),
    binary main_v180 main_v181 main_v182 (Host.divf : (⟨S4x64x2048, .f32⟩ : BufTy).Contents (Elt F) → (⟨S4x64x2048, .f32⟩ : BufTy).Contents (Elt F) → (⟨S4x64x2048, .f32⟩ : BufTy).Contents (Elt F)),
    unary main_v182 main_v183 (Host.exp : (⟨S4x64x2048, .f32⟩ : BufTy).Contents (Elt F) → (⟨S4x64x2048, .f32⟩ : BufTy).Contents (Elt F)),
    unary main_v183 main_v184 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v185 ((extractStridedSlice S4x20x64x2048 ![0, 0, 2, 3] · slices_S4x20x68x2052_S4x20x64x2048_0_0_2_3) : (⟨S4x20x68x2052, .f32⟩ : BufTy).Contents (Elt F) → (⟨S4x20x64x2048, .f32⟩ : BufTy).Contents (Elt F)),
    unary main_v184 main_v186 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v186 main_v185 main_v187 (mulf : (⟨S4x20x64x2048, .f32⟩ : BufTy).Contents (Elt F) → (⟨S4x20x64x2048, .f32⟩ : BufTy).Contents (Elt F) → (⟨S4x20x64x2048, .f32⟩ : BufTy).Contents (Elt F)),
    binary main_v175 main_v187 main_v188 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v189 ((extractStridedSlice S4x3x64x2048 ![0, 0, 2, 4] · slices_S4x3x68x2052_S4x3x64x2048_0_0_2_4) : (⟨S4x3x68x2052, .f32⟩ : BufTy).Contents (Elt F) → (⟨S4x3x64x2048, .f32⟩ : BufTy).Contents (Elt F)),
    binary main_v189 main_arg0 main_v190 (subf : (⟨S4x3x64x2048, .f32⟩ : BufTy).Contents (Elt F) → (⟨S4x3x64x2048, .f32⟩ : BufTy).Contents (Elt F) → (⟨S4x3x64x2048, .f32⟩ : BufTy).Contents (Elt F)),
    binary main_v190 main_v190 main_v191 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_29 (constant S_ .f32 0x00000000#32),
    binary main_v191 main_cst_29 main_v192 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v192 main_v193 (Host.negf : (⟨S4x64x2048, .f32⟩ : BufTy).Contents (Elt F) → (⟨S4x64x2048, .f32⟩ : BufTy).Contents (Elt F)),
    nullary main_cst_30 (constant S_ .f32 0x40000000#32),
    unary main_cst_30 main_v194 (broadcastInDim S4x64x2048 ![] bcast_S_S4x64x2048 : (⟨S_, .f32⟩ : BufTy).Contents (Elt F) → (⟨S4x64x2048, .f32⟩ : BufTy).Contents (Elt F)),
    binary main_v193 main_v194 main_v195 (Host.divf : (⟨S4x64x2048, .f32⟩ : BufTy).Contents (Elt F) → (⟨S4x64x2048, .f32⟩ : BufTy).Contents (Elt F) → (⟨S4x64x2048, .f32⟩ : BufTy).Contents (Elt F)),
    unary main_v195 main_v196 (Host.exp : (⟨S4x64x2048, .f32⟩ : BufTy).Contents (Elt F) → (⟨S4x64x2048, .f32⟩ : BufTy).Contents (Elt F)),
    unary main_v196 main_v197 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v198 ((extractStridedSlice S4x20x64x2048 ![0, 0, 2, 4] · slices_S4x20x68x2052_S4x20x64x2048_0_0_2_4) : (⟨S4x20x68x2052, .f32⟩ : BufTy).Contents (Elt F) → (⟨S4x20x64x2048, .f32⟩ : BufTy).Contents (Elt F)),
    unary main_v197 main_v199 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v199 main_v198 main_v200 (mulf : (⟨S4x20x64x2048, .f32⟩ : BufTy).Contents (Elt F) → (⟨S4x20x64x2048, .f32⟩ : BufTy).Contents (Elt F) → (⟨S4x20x64x2048, .f32⟩ : BufTy).Contents (Elt F)),
    binary main_v188 main_v200 main_v201 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v202 ((extractStridedSlice S4x3x64x2048 ![0, 0, 3, 0] · slices_S4x3x68x2052_S4x3x64x2048_0_0_3_0) : (⟨S4x3x68x2052, .f32⟩ : BufTy).Contents (Elt F) → (⟨S4x3x64x2048, .f32⟩ : BufTy).Contents (Elt F)),
    binary main_v202 main_arg0 main_v203 (subf : (⟨S4x3x64x2048, .f32⟩ : BufTy).Contents (Elt F) → (⟨S4x3x64x2048, .f32⟩ : BufTy).Contents (Elt F) → (⟨S4x3x64x2048, .f32⟩ : BufTy).Contents (Elt F)),
    binary main_v203 main_v203 main_v204 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_31 (constant S_ .f32 0x00000000#32),
    binary main_v204 main_cst_31 main_v205 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)) ]

/-- The operations of the body's stretch 4, in order (a called function's operations stand in its call's place). -/
abbrev ops_part4 : List (HloOp τ sig (Elt F)) :=
  [ unary main_v205 main_v206 (Host.negf : (⟨S4x64x2048, .f32⟩ : BufTy).Contents (Elt F) → (⟨S4x64x2048, .f32⟩ : BufTy).Contents (Elt F)),
    nullary main_cst_32 (constant S_ .f32 0x40000000#32),
    unary main_cst_32 main_v207 (broadcastInDim S4x64x2048 ![] bcast_S_S4x64x2048 : (⟨S_, .f32⟩ : BufTy).Contents (Elt F) → (⟨S4x64x2048, .f32⟩ : BufTy).Contents (Elt F)),
    binary main_v206 main_v207 main_v208 (Host.divf : (⟨S4x64x2048, .f32⟩ : BufTy).Contents (Elt F) → (⟨S4x64x2048, .f32⟩ : BufTy).Contents (Elt F) → (⟨S4x64x2048, .f32⟩ : BufTy).Contents (Elt F)),
    unary main_v208 main_v209 (Host.exp : (⟨S4x64x2048, .f32⟩ : BufTy).Contents (Elt F) → (⟨S4x64x2048, .f32⟩ : BufTy).Contents (Elt F)),
    unary main_v209 main_v210 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v211 ((extractStridedSlice S4x20x64x2048 ![0, 0, 3, 0] · slices_S4x20x68x2052_S4x20x64x2048_0_0_3_0) : (⟨S4x20x68x2052, .f32⟩ : BufTy).Contents (Elt F) → (⟨S4x20x64x2048, .f32⟩ : BufTy).Contents (Elt F)),
    unary main_v210 main_v212 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v212 main_v211 main_v213 (mulf : (⟨S4x20x64x2048, .f32⟩ : BufTy).Contents (Elt F) → (⟨S4x20x64x2048, .f32⟩ : BufTy).Contents (Elt F) → (⟨S4x20x64x2048, .f32⟩ : BufTy).Contents (Elt F)),
    binary main_v201 main_v213 main_v214 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v215 ((extractStridedSlice S4x3x64x2048 ![0, 0, 3, 1] · slices_S4x3x68x2052_S4x3x64x2048_0_0_3_1) : (⟨S4x3x68x2052, .f32⟩ : BufTy).Contents (Elt F) → (⟨S4x3x64x2048, .f32⟩ : BufTy).Contents (Elt F)),
    binary main_v215 main_arg0 main_v216 (subf : (⟨S4x3x64x2048, .f32⟩ : BufTy).Contents (Elt F) → (⟨S4x3x64x2048, .f32⟩ : BufTy).Contents (Elt F) → (⟨S4x3x64x2048, .f32⟩ : BufTy).Contents (Elt F)),
    binary main_v216 main_v216 main_v217 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_33 (constant S_ .f32 0x00000000#32),
    binary main_v217 main_cst_33 main_v218 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v218 main_v219 (Host.negf : (⟨S4x64x2048, .f32⟩ : BufTy).Contents (Elt F) → (⟨S4x64x2048, .f32⟩ : BufTy).Contents (Elt F)),
    nullary main_cst_34 (constant S_ .f32 0x40000000#32),
    unary main_cst_34 main_v220 (broadcastInDim S4x64x2048 ![] bcast_S_S4x64x2048 : (⟨S_, .f32⟩ : BufTy).Contents (Elt F) → (⟨S4x64x2048, .f32⟩ : BufTy).Contents (Elt F)),
    binary main_v219 main_v220 main_v221 (Host.divf : (⟨S4x64x2048, .f32⟩ : BufTy).Contents (Elt F) → (⟨S4x64x2048, .f32⟩ : BufTy).Contents (Elt F) → (⟨S4x64x2048, .f32⟩ : BufTy).Contents (Elt F)),
    unary main_v221 main_v222 (Host.exp : (⟨S4x64x2048, .f32⟩ : BufTy).Contents (Elt F) → (⟨S4x64x2048, .f32⟩ : BufTy).Contents (Elt F)),
    unary main_v222 main_v223 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v224 ((extractStridedSlice S4x20x64x2048 ![0, 0, 3, 1] · slices_S4x20x68x2052_S4x20x64x2048_0_0_3_1) : (⟨S4x20x68x2052, .f32⟩ : BufTy).Contents (Elt F) → (⟨S4x20x64x2048, .f32⟩ : BufTy).Contents (Elt F)),
    unary main_v223 main_v225 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v225 main_v224 main_v226 (mulf : (⟨S4x20x64x2048, .f32⟩ : BufTy).Contents (Elt F) → (⟨S4x20x64x2048, .f32⟩ : BufTy).Contents (Elt F) → (⟨S4x20x64x2048, .f32⟩ : BufTy).Contents (Elt F)),
    binary main_v214 main_v226 main_v227 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v228 ((extractStridedSlice S4x3x64x2048 ![0, 0, 3, 2] · slices_S4x3x68x2052_S4x3x64x2048_0_0_3_2) : (⟨S4x3x68x2052, .f32⟩ : BufTy).Contents (Elt F) → (⟨S4x3x64x2048, .f32⟩ : BufTy).Contents (Elt F)),
    binary main_v228 main_arg0 main_v229 (subf : (⟨S4x3x64x2048, .f32⟩ : BufTy).Contents (Elt F) → (⟨S4x3x64x2048, .f32⟩ : BufTy).Contents (Elt F) → (⟨S4x3x64x2048, .f32⟩ : BufTy).Contents (Elt F)),
    binary main_v229 main_v229 main_v230 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_35 (constant S_ .f32 0x00000000#32),
    binary main_v230 main_cst_35 main_v231 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v231 main_v232 (Host.negf : (⟨S4x64x2048, .f32⟩ : BufTy).Contents (Elt F) → (⟨S4x64x2048, .f32⟩ : BufTy).Contents (Elt F)),
    nullary main_cst_36 (constant S_ .f32 0x40000000#32),
    unary main_cst_36 main_v233 (broadcastInDim S4x64x2048 ![] bcast_S_S4x64x2048 : (⟨S_, .f32⟩ : BufTy).Contents (Elt F) → (⟨S4x64x2048, .f32⟩ : BufTy).Contents (Elt F)),
    binary main_v232 main_v233 main_v234 (Host.divf : (⟨S4x64x2048, .f32⟩ : BufTy).Contents (Elt F) → (⟨S4x64x2048, .f32⟩ : BufTy).Contents (Elt F) → (⟨S4x64x2048, .f32⟩ : BufTy).Contents (Elt F)),
    unary main_v234 main_v235 (Host.exp : (⟨S4x64x2048, .f32⟩ : BufTy).Contents (Elt F) → (⟨S4x64x2048, .f32⟩ : BufTy).Contents (Elt F)),
    unary main_v235 main_v236 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v237 ((extractStridedSlice S4x20x64x2048 ![0, 0, 3, 2] · slices_S4x20x68x2052_S4x20x64x2048_0_0_3_2) : (⟨S4x20x68x2052, .f32⟩ : BufTy).Contents (Elt F) → (⟨S4x20x64x2048, .f32⟩ : BufTy).Contents (Elt F)),
    unary main_v236 main_v238 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v238 main_v237 main_v239 (mulf : (⟨S4x20x64x2048, .f32⟩ : BufTy).Contents (Elt F) → (⟨S4x20x64x2048, .f32⟩ : BufTy).Contents (Elt F) → (⟨S4x20x64x2048, .f32⟩ : BufTy).Contents (Elt F)),
    binary main_v227 main_v239 main_v240 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v241 ((extractStridedSlice S4x3x64x2048 ![0, 0, 3, 3] · slices_S4x3x68x2052_S4x3x64x2048_0_0_3_3) : (⟨S4x3x68x2052, .f32⟩ : BufTy).Contents (Elt F) → (⟨S4x3x64x2048, .f32⟩ : BufTy).Contents (Elt F)),
    binary main_v241 main_arg0 main_v242 (subf : (⟨S4x3x64x2048, .f32⟩ : BufTy).Contents (Elt F) → (⟨S4x3x64x2048, .f32⟩ : BufTy).Contents (Elt F) → (⟨S4x3x64x2048, .f32⟩ : BufTy).Contents (Elt F)),
    binary main_v242 main_v242 main_v243 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_37 (constant S_ .f32 0x00000000#32),
    binary main_v243 main_cst_37 main_v244 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v244 main_v245 (Host.negf : (⟨S4x64x2048, .f32⟩ : BufTy).Contents (Elt F) → (⟨S4x64x2048, .f32⟩ : BufTy).Contents (Elt F)),
    nullary main_cst_38 (constant S_ .f32 0x40000000#32),
    unary main_cst_38 main_v246 (broadcastInDim S4x64x2048 ![] bcast_S_S4x64x2048 : (⟨S_, .f32⟩ : BufTy).Contents (Elt F) → (⟨S4x64x2048, .f32⟩ : BufTy).Contents (Elt F)),
    binary main_v245 main_v246 main_v247 (Host.divf : (⟨S4x64x2048, .f32⟩ : BufTy).Contents (Elt F) → (⟨S4x64x2048, .f32⟩ : BufTy).Contents (Elt F) → (⟨S4x64x2048, .f32⟩ : BufTy).Contents (Elt F)),
    unary main_v247 main_v248 (Host.exp : (⟨S4x64x2048, .f32⟩ : BufTy).Contents (Elt F) → (⟨S4x64x2048, .f32⟩ : BufTy).Contents (Elt F)),
    unary main_v248 main_v249 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v250 ((extractStridedSlice S4x20x64x2048 ![0, 0, 3, 3] · slices_S4x20x68x2052_S4x20x64x2048_0_0_3_3) : (⟨S4x20x68x2052, .f32⟩ : BufTy).Contents (Elt F) → (⟨S4x20x64x2048, .f32⟩ : BufTy).Contents (Elt F)),
    unary main_v249 main_v251 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v251 main_v250 main_v252 (mulf : (⟨S4x20x64x2048, .f32⟩ : BufTy).Contents (Elt F) → (⟨S4x20x64x2048, .f32⟩ : BufTy).Contents (Elt F) → (⟨S4x20x64x2048, .f32⟩ : BufTy).Contents (Elt F)),
    binary main_v240 main_v252 main_v253 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v254 ((extractStridedSlice S4x3x64x2048 ![0, 0, 3, 4] · slices_S4x3x68x2052_S4x3x64x2048_0_0_3_4) : (⟨S4x3x68x2052, .f32⟩ : BufTy).Contents (Elt F) → (⟨S4x3x64x2048, .f32⟩ : BufTy).Contents (Elt F)),
    binary main_v254 main_arg0 main_v255 (subf : (⟨S4x3x64x2048, .f32⟩ : BufTy).Contents (Elt F) → (⟨S4x3x64x2048, .f32⟩ : BufTy).Contents (Elt F) → (⟨S4x3x64x2048, .f32⟩ : BufTy).Contents (Elt F)),
    binary main_v255 main_v255 main_v256 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_39 (constant S_ .f32 0x00000000#32),
    binary main_v256 main_cst_39 main_v257 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)) ]

/-- The operations of the body's stretch 5, in order (a called function's operations stand in its call's place). -/
abbrev ops_part5 : List (HloOp τ sig (Elt F)) :=
  [ unary main_v257 main_v258 (Host.negf : (⟨S4x64x2048, .f32⟩ : BufTy).Contents (Elt F) → (⟨S4x64x2048, .f32⟩ : BufTy).Contents (Elt F)),
    nullary main_cst_40 (constant S_ .f32 0x40000000#32),
    unary main_cst_40 main_v259 (broadcastInDim S4x64x2048 ![] bcast_S_S4x64x2048 : (⟨S_, .f32⟩ : BufTy).Contents (Elt F) → (⟨S4x64x2048, .f32⟩ : BufTy).Contents (Elt F)),
    binary main_v258 main_v259 main_v260 (Host.divf : (⟨S4x64x2048, .f32⟩ : BufTy).Contents (Elt F) → (⟨S4x64x2048, .f32⟩ : BufTy).Contents (Elt F) → (⟨S4x64x2048, .f32⟩ : BufTy).Contents (Elt F)),
    unary main_v260 main_v261 (Host.exp : (⟨S4x64x2048, .f32⟩ : BufTy).Contents (Elt F) → (⟨S4x64x2048, .f32⟩ : BufTy).Contents (Elt F)),
    unary main_v261 main_v262 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v263 ((extractStridedSlice S4x20x64x2048 ![0, 0, 3, 4] · slices_S4x20x68x2052_S4x20x64x2048_0_0_3_4) : (⟨S4x20x68x2052, .f32⟩ : BufTy).Contents (Elt F) → (⟨S4x20x64x2048, .f32⟩ : BufTy).Contents (Elt F)),
    unary main_v262 main_v264 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v264 main_v263 main_v265 (mulf : (⟨S4x20x64x2048, .f32⟩ : BufTy).Contents (Elt F) → (⟨S4x20x64x2048, .f32⟩ : BufTy).Contents (Elt F) → (⟨S4x20x64x2048, .f32⟩ : BufTy).Contents (Elt F)),
    binary main_v253 main_v265 main_v266 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v267 ((extractStridedSlice S4x3x64x2048 ![0, 0, 4, 0] · slices_S4x3x68x2052_S4x3x64x2048_0_0_4_0) : (⟨S4x3x68x2052, .f32⟩ : BufTy).Contents (Elt F) → (⟨S4x3x64x2048, .f32⟩ : BufTy).Contents (Elt F)),
    binary main_v267 main_arg0 main_v268 (subf : (⟨S4x3x64x2048, .f32⟩ : BufTy).Contents (Elt F) → (⟨S4x3x64x2048, .f32⟩ : BufTy).Contents (Elt F) → (⟨S4x3x64x2048, .f32⟩ : BufTy).Contents (Elt F)),
    binary main_v268 main_v268 main_v269 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_41 (constant S_ .f32 0x00000000#32),
    binary main_v269 main_cst_41 main_v270 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v270 main_v271 (Host.negf : (⟨S4x64x2048, .f32⟩ : BufTy).Contents (Elt F) → (⟨S4x64x2048, .f32⟩ : BufTy).Contents (Elt F)),
    nullary main_cst_42 (constant S_ .f32 0x40000000#32),
    unary main_cst_42 main_v272 (broadcastInDim S4x64x2048 ![] bcast_S_S4x64x2048 : (⟨S_, .f32⟩ : BufTy).Contents (Elt F) → (⟨S4x64x2048, .f32⟩ : BufTy).Contents (Elt F)),
    binary main_v271 main_v272 main_v273 (Host.divf : (⟨S4x64x2048, .f32⟩ : BufTy).Contents (Elt F) → (⟨S4x64x2048, .f32⟩ : BufTy).Contents (Elt F) → (⟨S4x64x2048, .f32⟩ : BufTy).Contents (Elt F)),
    unary main_v273 main_v274 (Host.exp : (⟨S4x64x2048, .f32⟩ : BufTy).Contents (Elt F) → (⟨S4x64x2048, .f32⟩ : BufTy).Contents (Elt F)),
    unary main_v274 main_v275 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v276 ((extractStridedSlice S4x20x64x2048 ![0, 0, 4, 0] · slices_S4x20x68x2052_S4x20x64x2048_0_0_4_0) : (⟨S4x20x68x2052, .f32⟩ : BufTy).Contents (Elt F) → (⟨S4x20x64x2048, .f32⟩ : BufTy).Contents (Elt F)),
    unary main_v275 main_v277 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v277 main_v276 main_v278 (mulf : (⟨S4x20x64x2048, .f32⟩ : BufTy).Contents (Elt F) → (⟨S4x20x64x2048, .f32⟩ : BufTy).Contents (Elt F) → (⟨S4x20x64x2048, .f32⟩ : BufTy).Contents (Elt F)),
    binary main_v266 main_v278 main_v279 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v280 ((extractStridedSlice S4x3x64x2048 ![0, 0, 4, 1] · slices_S4x3x68x2052_S4x3x64x2048_0_0_4_1) : (⟨S4x3x68x2052, .f32⟩ : BufTy).Contents (Elt F) → (⟨S4x3x64x2048, .f32⟩ : BufTy).Contents (Elt F)),
    binary main_v280 main_arg0 main_v281 (subf : (⟨S4x3x64x2048, .f32⟩ : BufTy).Contents (Elt F) → (⟨S4x3x64x2048, .f32⟩ : BufTy).Contents (Elt F) → (⟨S4x3x64x2048, .f32⟩ : BufTy).Contents (Elt F)),
    binary main_v281 main_v281 main_v282 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_43 (constant S_ .f32 0x00000000#32),
    binary main_v282 main_cst_43 main_v283 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v283 main_v284 (Host.negf : (⟨S4x64x2048, .f32⟩ : BufTy).Contents (Elt F) → (⟨S4x64x2048, .f32⟩ : BufTy).Contents (Elt F)),
    nullary main_cst_44 (constant S_ .f32 0x40000000#32),
    unary main_cst_44 main_v285 (broadcastInDim S4x64x2048 ![] bcast_S_S4x64x2048 : (⟨S_, .f32⟩ : BufTy).Contents (Elt F) → (⟨S4x64x2048, .f32⟩ : BufTy).Contents (Elt F)),
    binary main_v284 main_v285 main_v286 (Host.divf : (⟨S4x64x2048, .f32⟩ : BufTy).Contents (Elt F) → (⟨S4x64x2048, .f32⟩ : BufTy).Contents (Elt F) → (⟨S4x64x2048, .f32⟩ : BufTy).Contents (Elt F)),
    unary main_v286 main_v287 (Host.exp : (⟨S4x64x2048, .f32⟩ : BufTy).Contents (Elt F) → (⟨S4x64x2048, .f32⟩ : BufTy).Contents (Elt F)),
    unary main_v287 main_v288 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v289 ((extractStridedSlice S4x20x64x2048 ![0, 0, 4, 1] · slices_S4x20x68x2052_S4x20x64x2048_0_0_4_1) : (⟨S4x20x68x2052, .f32⟩ : BufTy).Contents (Elt F) → (⟨S4x20x64x2048, .f32⟩ : BufTy).Contents (Elt F)),
    unary main_v288 main_v290 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v290 main_v289 main_v291 (mulf : (⟨S4x20x64x2048, .f32⟩ : BufTy).Contents (Elt F) → (⟨S4x20x64x2048, .f32⟩ : BufTy).Contents (Elt F) → (⟨S4x20x64x2048, .f32⟩ : BufTy).Contents (Elt F)),
    binary main_v279 main_v291 main_v292 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v293 ((extractStridedSlice S4x3x64x2048 ![0, 0, 4, 2] · slices_S4x3x68x2052_S4x3x64x2048_0_0_4_2) : (⟨S4x3x68x2052, .f32⟩ : BufTy).Contents (Elt F) → (⟨S4x3x64x2048, .f32⟩ : BufTy).Contents (Elt F)),
    binary main_v293 main_arg0 main_v294 (subf : (⟨S4x3x64x2048, .f32⟩ : BufTy).Contents (Elt F) → (⟨S4x3x64x2048, .f32⟩ : BufTy).Contents (Elt F) → (⟨S4x3x64x2048, .f32⟩ : BufTy).Contents (Elt F)),
    binary main_v294 main_v294 main_v295 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_45 (constant S_ .f32 0x00000000#32),
    binary main_v295 main_cst_45 main_v296 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v296 main_v297 (Host.negf : (⟨S4x64x2048, .f32⟩ : BufTy).Contents (Elt F) → (⟨S4x64x2048, .f32⟩ : BufTy).Contents (Elt F)),
    nullary main_cst_46 (constant S_ .f32 0x40000000#32),
    unary main_cst_46 main_v298 (broadcastInDim S4x64x2048 ![] bcast_S_S4x64x2048 : (⟨S_, .f32⟩ : BufTy).Contents (Elt F) → (⟨S4x64x2048, .f32⟩ : BufTy).Contents (Elt F)),
    binary main_v297 main_v298 main_v299 (Host.divf : (⟨S4x64x2048, .f32⟩ : BufTy).Contents (Elt F) → (⟨S4x64x2048, .f32⟩ : BufTy).Contents (Elt F) → (⟨S4x64x2048, .f32⟩ : BufTy).Contents (Elt F)),
    unary main_v299 main_v300 (Host.exp : (⟨S4x64x2048, .f32⟩ : BufTy).Contents (Elt F) → (⟨S4x64x2048, .f32⟩ : BufTy).Contents (Elt F)),
    unary main_v300 main_v301 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v302 ((extractStridedSlice S4x20x64x2048 ![0, 0, 4, 2] · slices_S4x20x68x2052_S4x20x64x2048_0_0_4_2) : (⟨S4x20x68x2052, .f32⟩ : BufTy).Contents (Elt F) → (⟨S4x20x64x2048, .f32⟩ : BufTy).Contents (Elt F)),
    unary main_v301 main_v303 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v303 main_v302 main_v304 (mulf : (⟨S4x20x64x2048, .f32⟩ : BufTy).Contents (Elt F) → (⟨S4x20x64x2048, .f32⟩ : BufTy).Contents (Elt F) → (⟨S4x20x64x2048, .f32⟩ : BufTy).Contents (Elt F)),
    binary main_v292 main_v304 main_v305 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v306 ((extractStridedSlice S4x3x64x2048 ![0, 0, 4, 3] · slices_S4x3x68x2052_S4x3x64x2048_0_0_4_3) : (⟨S4x3x68x2052, .f32⟩ : BufTy).Contents (Elt F) → (⟨S4x3x64x2048, .f32⟩ : BufTy).Contents (Elt F)),
    binary main_v306 main_arg0 main_v307 (subf : (⟨S4x3x64x2048, .f32⟩ : BufTy).Contents (Elt F) → (⟨S4x3x64x2048, .f32⟩ : BufTy).Contents (Elt F) → (⟨S4x3x64x2048, .f32⟩ : BufTy).Contents (Elt F)),
    binary main_v307 main_v307 main_v308 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_47 (constant S_ .f32 0x00000000#32),
    binary main_v308 main_cst_47 main_v309 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)) ]

/-- The operations of the body's stretch 6, in order (a called function's operations stand in its call's place). -/
abbrev ops_part6 : List (HloOp τ sig (Elt F)) :=
  [ unary main_v309 main_v310 (Host.negf : (⟨S4x64x2048, .f32⟩ : BufTy).Contents (Elt F) → (⟨S4x64x2048, .f32⟩ : BufTy).Contents (Elt F)),
    nullary main_cst_48 (constant S_ .f32 0x40000000#32),
    unary main_cst_48 main_v311 (broadcastInDim S4x64x2048 ![] bcast_S_S4x64x2048 : (⟨S_, .f32⟩ : BufTy).Contents (Elt F) → (⟨S4x64x2048, .f32⟩ : BufTy).Contents (Elt F)),
    binary main_v310 main_v311 main_v312 (Host.divf : (⟨S4x64x2048, .f32⟩ : BufTy).Contents (Elt F) → (⟨S4x64x2048, .f32⟩ : BufTy).Contents (Elt F) → (⟨S4x64x2048, .f32⟩ : BufTy).Contents (Elt F)),
    unary main_v312 main_v313 (Host.exp : (⟨S4x64x2048, .f32⟩ : BufTy).Contents (Elt F) → (⟨S4x64x2048, .f32⟩ : BufTy).Contents (Elt F)),
    unary main_v313 main_v314 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v315 ((extractStridedSlice S4x20x64x2048 ![0, 0, 4, 3] · slices_S4x20x68x2052_S4x20x64x2048_0_0_4_3) : (⟨S4x20x68x2052, .f32⟩ : BufTy).Contents (Elt F) → (⟨S4x20x64x2048, .f32⟩ : BufTy).Contents (Elt F)),
    unary main_v314 main_v316 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v316 main_v315 main_v317 (mulf : (⟨S4x20x64x2048, .f32⟩ : BufTy).Contents (Elt F) → (⟨S4x20x64x2048, .f32⟩ : BufTy).Contents (Elt F) → (⟨S4x20x64x2048, .f32⟩ : BufTy).Contents (Elt F)),
    binary main_v305 main_v317 main_v318 (addf : (⟨S4x20x64x2048, .f32⟩ : BufTy).Contents (Elt F) → (⟨S4x20x64x2048, .f32⟩ : BufTy).Contents (Elt F) → (⟨S4x20x64x2048, .f32⟩ : BufTy).Contents (Elt F)),
    unary main_v4 main_v319 ((extractStridedSlice S4x3x64x2048 ![0, 0, 4, 4] · slices_S4x3x68x2052_S4x3x64x2048_0_0_4_4) : (⟨S4x3x68x2052, .f32⟩ : BufTy).Contents (Elt F) → (⟨S4x3x64x2048, .f32⟩ : BufTy).Contents (Elt F)),
    binary main_v319 main_arg0 main_v320 (subf : (⟨S4x3x64x2048, .f32⟩ : BufTy).Contents (Elt F) → (⟨S4x3x64x2048, .f32⟩ : BufTy).Contents (Elt F) → (⟨S4x3x64x2048, .f32⟩ : BufTy).Contents (Elt F)),
    binary main_v320 main_v320 main_v321 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_49 (constant S_ .f32 0x00000000#32),
    binary main_v321 main_cst_49 main_v322 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v322 main_v323 (Host.negf : (⟨S4x64x2048, .f32⟩ : BufTy).Contents (Elt F) → (⟨S4x64x2048, .f32⟩ : BufTy).Contents (Elt F)),
    nullary main_cst_50 (constant S_ .f32 0x40000000#32),
    unary main_cst_50 main_v324 (broadcastInDim S4x64x2048 ![] bcast_S_S4x64x2048 : (⟨S_, .f32⟩ : BufTy).Contents (Elt F) → (⟨S4x64x2048, .f32⟩ : BufTy).Contents (Elt F)),
    binary main_v323 main_v324 main_v325 (Host.divf : (⟨S4x64x2048, .f32⟩ : BufTy).Contents (Elt F) → (⟨S4x64x2048, .f32⟩ : BufTy).Contents (Elt F) → (⟨S4x64x2048, .f32⟩ : BufTy).Contents (Elt F)),
    unary main_v325 main_v326 (Host.exp : (⟨S4x64x2048, .f32⟩ : BufTy).Contents (Elt F) → (⟨S4x64x2048, .f32⟩ : BufTy).Contents (Elt F)),
    unary main_v326 main_v327 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v328 ((extractStridedSlice S4x20x64x2048 ![0, 0, 4, 4] · slices_S4x20x68x2052_S4x20x64x2048_0_0_4_4) : (⟨S4x20x68x2052, .f32⟩ : BufTy).Contents (Elt F) → (⟨S4x20x64x2048, .f32⟩ : BufTy).Contents (Elt F)),
    unary main_v327 main_v329 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v329 main_v328 main_v330 (mulf : (⟨S4x20x64x2048, .f32⟩ : BufTy).Contents (Elt F) → (⟨S4x20x64x2048, .f32⟩ : BufTy).Contents (Elt F) → (⟨S4x20x64x2048, .f32⟩ : BufTy).Contents (Elt F)),
    binary main_v318 main_v330 main_v331 (addf : (⟨S4x20x64x2048, .f32⟩ : BufTy).Contents (Elt F) → (⟨S4x20x64x2048, .f32⟩ : BufTy).Contents (Elt F) → (⟨S4x20x64x2048, .f32⟩ : BufTy).Contents (Elt F)) ]

/-- All the operations, in order. -/
abbrev ops : List (HloOp τ sig (Elt F)) :=
  ops_part0 ++ (ops_part1 ++ (ops_part2 ++ (ops_part3 ++ (ops_part4 ++ (ops_part5 ++ (ops_part6))))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
set_option maxHeartbeats 4000000 in
theorem main_part5_eq (c : Dev nD) : main_part5 (F := F) c = seq ops_part5 := rfl
set_option maxRecDepth 8192 in
set_option maxHeartbeats 4000000 in
theorem main_part6_eq (c : Dev nD) : main_part6 (F := F) c = seq ops_part6 := rfl

/-- The body is the operations run in order. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub ..⟩
set_option maxRecDepth 8192 in
theorem ops_part1_sub : (ops_part1 : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub ..⟩
set_option maxRecDepth 8192 in
theorem ops_part2_sub : (ops_part2 : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub ..⟩
set_option maxRecDepth 8192 in
theorem ops_part3_sub : (ops_part3 : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub ..⟩
set_option maxRecDepth 8192 in
theorem ops_part4_sub : (ops_part4 : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub ..⟩
set_option maxRecDepth 8192 in
theorem ops_part5_sub : (ops_part5 : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub ..⟩
set_option maxRecDepth 8192 in
theorem ops_part6_sub : (ops_part6 : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., binary_bufs_sub ..⟩

/-- Every operation touches only the device's own buffers. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h]

end Cert.ReferenceIdeal.RefRun

end
-- ==== Proof.RefSteps.lean ====
/-
  The reference's computation as one term of its arguments.

  The reference pads the coordinate volume and the masked class volume (classes × mask, the mask made a float
  and repeated over the channels) with zeros, two rows and two columns on every side, and then, for each of
  the twenty-five window offsets in row-major order, slices both padded arrays at the offset, forms the
  squared coordinate distance to the centre pixel (a sum over the three coordinate channels), turns it into
  the Gaussian weight exp(−d²/2), and adds weight × class value onto a running sum that starts at zero.
  Each update is the same function of (offset, running sum); the result is its twenty-five-fold iterate.
-/
import proofs.«120163_j10179072491794_2_alg».proof.Proof.Gen.ReferenceIdeal

noncomputable section

namespace Cert.ReferenceIdeal.RefValue

open Cert.ReferenceIdeal Cert.ReferenceIdeal.Gen Idealize.ShloMosaic Idealize.ShloMosaic.TcCoe

variable {F : FTy → Type} [FloatOps F]

/-- The coordinates, zero-padded by two rows and two columns on every side. -/
def padX (x0 : (⟨S4x3x64x2048, .f32⟩ : BufTy).Contents (Elt F)) : (⟨S4x3x68x2052, .f32⟩ : BufTy).Contents (Elt F) :=
  pad S4x3x68x2052 ![0, 0, 2, 2] ![0, 0, 2, 2] ![0, 0, 0, 0] x0 (sitofp .f32 (constantI S_ 32 0#32))
    pads_S4x3x64x2048_S4x3x68x2052_000_000_220_220 h_S_

/-- The classes times the mask: the mask made a float and repeated over the twenty channels. -/
def masked (x1 : (⟨S4x20x64x2048, .f32⟩ : BufTy).Contents (Elt F)) (x2 : (⟨S4x64x2048, .i1⟩ : BufTy).Contents (Elt F)) :
    (⟨S4x20x64x2048, .f32⟩ : BufTy).Contents (Elt F) :=
  mulf x1 (broadcastInDim S4x20x64x2048 ![0, 1, 2, 3] bcast_S4x1x64x2048_S4x20x64x2048_0_1_2_3
    (uitofp .f32 (broadcastInDim S4x1x64x2048 ![0, 2, 3] bcast_S4x64x2048_S4x1x64x2048_0_2_3 x2)))

/-- The masked classes, zero-padded. -/
def padS (x1 : (⟨S4x20x64x2048, .f32⟩ : BufTy).Contents (Elt F)) (x2 : (⟨S4x64x2048, .i1⟩ : BufTy).Contents (Elt F)) :
    (⟨S4x20x68x2052, .f32⟩ : BufTy).Contents (Elt F) :=
  pad S4x20x68x2052 ![0, 0, 2, 2] ![0, 0, 2, 2] ![0, 0, 0, 0] (masked x1 x2) (sitofp .f32 (constantI S_ 32 0#32))
    pads_S4x20x64x2048_S4x20x68x2052_000_000_220_220 h_S_

/-- The running sum's start: the float zero everywhere. -/
def acc0 : (⟨S4x20x64x2048, .f32⟩ : BufTy).Contents (Elt F) :=
  broadcastInDim S4x20x64x2048 ![] bcast_S_S4x20x64x2048 (constant S_ .f32 0x00000000#32)

/-- One offset's update of the running sum, on whole arrays: slice the padded coordinates and the padded masked
    classes at the offset `o`, weigh by the Gaussian of the squared distance to the centre, add. -/
def refStep (o : Fin 4 → Nat) (hs1 : S4x3x68x2052.Slices o S4x3x64x2048) (hs2 : S4x20x68x2052.Slices o S4x20x64x2048)
    (xp : (⟨S4x3x68x2052, .f32⟩ : BufTy).Contents (Elt F)) (xc : (⟨S4x3x64x2048, .f32⟩ : BufTy).Contents (Elt F))
    (sp : (⟨S4x20x68x2052, .f32⟩ : BufTy).Contents (Elt F)) (acc : (⟨S4x20x64x2048, .f32⟩ : BufTy).Contents (Elt F)) :
    (⟨S4x20x64x2048, .f32⟩ : BufTy).Contents (Elt F) :=
  addf acc (mulf
    (broadcastInDim S4x20x64x2048 ![0, 1, 2, 3] bcast_S4x1x64x2048_S4x20x64x2048_0_1_2_3
      (broadcastInDim S4x1x64x2048 ![0, 2, 3] bcast_S4x64x2048_S4x1x64x2048_0_2_3
        (Host.exp (Host.divf
          (Host.negf (Host.reduceAdd
            (mulf (subf (extractStridedSlice S4x3x64x2048 o xp hs1) xc) (subf (extractStridedSlice S4x3x64x2048 o xp hs1) xc))
            (constant S_ .f32 0x00000000#32) reducesTo_S4x3x64x2048_S4x64x2048_d1 h_S_))
          (broadcastInDim S4x64x2048 ![] bcast_S_S4x64x2048 (constant S_ .f32 0x40000000#32))))))
    (extractStridedSlice S4x20x64x2048 o sp hs2))

/-- The reference's result as a term of its three arguments: the twenty-five updates, in the order of the offsets,
    from zero. -/
def refResult (x0 : (⟨S4x3x64x2048, .f32⟩ : BufTy).Contents (Elt F)) (x1 : (⟨S4x20x64x2048, .f32⟩ : BufTy).Contents (Elt F))
    (x2 : (⟨S4x64x2048, .i1⟩ : BufTy).Contents (Elt F)) : (⟨S4x20x64x2048, .f32⟩ : BufTy).Contents (Elt F) :=
  (refStep ![0, 0, 4, 4] slices_S4x3x68x2052_S4x3x64x2048_0_0_4_4 slices_S4x20x68x2052_S4x20x64x2048_0_0_4_4 (padX x0) x0 (padS x1 x2)
      (refStep ![0, 0, 4, 3] slices_S4x3x68x2052_S4x3x64x2048_0_0_4_3 slices_S4x20x68x2052_S4x20x64x2048_0_0_4_3 (padX x0) x0 (padS x1 x2)
      (refStep ![0, 0, 4, 2] slices_S4x3x68x2052_S4x3x64x2048_0_0_4_2 slices_S4x20x68x2052_S4x20x64x2048_0_0_4_2 (padX x0) x0 (padS x1 x2)
      (refStep ![0, 0, 4, 1] slices_S4x3x68x2052_S4x3x64x2048_0_0_4_1 slices_S4x20x68x2052_S4x20x64x2048_0_0_4_1 (padX x0) x0 (padS x1 x2)
      (refStep ![0, 0, 4, 0] slices_S4x3x68x2052_S4x3x64x2048_0_0_4_0 slices_S4x20x68x2052_S4x20x64x2048_0_0_4_0 (padX x0) x0 (padS x1 x2)
      (refStep ![0, 0, 3, 4] slices_S4x3x68x2052_S4x3x64x2048_0_0_3_4 slices_S4x20x68x2052_S4x20x64x2048_0_0_3_4 (padX x0) x0 (padS x1 x2)
      (refStep ![0, 0, 3, 3] slices_S4x3x68x2052_S4x3x64x2048_0_0_3_3 slices_S4x20x68x2052_S4x20x64x2048_0_0_3_3 (padX x0) x0 (padS x1 x2)
      (refStep ![0, 0, 3, 2] slices_S4x3x68x2052_S4x3x64x2048_0_0_3_2 slices_S4x20x68x2052_S4x20x64x2048_0_0_3_2 (padX x0) x0 (padS x1 x2)
      (refStep ![0, 0, 3, 1] slices_S4x3x68x2052_S4x3x64x2048_0_0_3_1 slices_S4x20x68x2052_S4x20x64x2048_0_0_3_1 (padX x0) x0 (padS x1 x2)
      (refStep ![0, 0, 3, 0] slices_S4x3x68x2052_S4x3x64x2048_0_0_3_0 slices_S4x20x68x2052_S4x20x64x2048_0_0_3_0 (padX x0) x0 (padS x1 x2)
      (refStep ![0, 0, 2, 4] slices_S4x3x68x2052_S4x3x64x2048_0_0_2_4 slices_S4x20x68x2052_S4x20x64x2048_0_0_2_4 (padX x0) x0 (padS x1 x2)
      (refStep ![0, 0, 2, 3] slices_S4x3x68x2052_S4x3x64x2048_0_0_2_3 slices_S4x20x68x2052_S4x20x64x2048_0_0_2_3 (padX x0) x0 (padS x1 x2)
      (refStep ![0, 0, 2, 2] slices_S4x3x68x2052_S4x3x64x2048_0_0_2_2 slices_S4x20x68x2052_S4x20x64x2048_0_0_2_2 (padX x0) x0 (padS x1 x2)
      (refStep ![0, 0, 2, 1] slices_S4x3x68x2052_S4x3x64x2048_0_0_2_1 slices_S4x20x68x2052_S4x20x64x2048_0_0_2_1 (padX x0) x0 (padS x1 x2)
      (refStep ![0, 0, 2, 0] slices_S4x3x68x2052_S4x3x64x2048_0_0_2_0 slices_S4x20x68x2052_S4x20x64x2048_0_0_2_0 (padX x0) x0 (padS x1 x2)
      (refStep ![0, 0, 1, 4] slices_S4x3x68x2052_S4x3x64x2048_0_0_1_4 slices_S4x20x68x2052_S4x20x64x2048_0_0_1_4 (padX x0) x0 (padS x1 x2)
      (refStep ![0, 0, 1, 3] slices_S4x3x68x2052_S4x3x64x2048_0_0_1_3 slices_S4x20x68x2052_S4x20x64x2048_0_0_1_3 (padX x0) x0 (padS x1 x2)
      (refStep ![0, 0, 1, 2] slices_S4x3x68x2052_S4x3x64x2048_0_0_1_2 slices_S4x20x68x2052_S4x20x64x2048_0_0_1_2 (padX x0) x0 (padS x1 x2)
      (refStep ![0, 0, 1, 1] slices_S4x3x68x2052_S4x3x64x2048_0_0_1_1 slices_S4x20x68x2052_S4x20x64x2048_0_0_1_1 (padX x0) x0 (padS x1 x2)
      (refStep ![0, 0, 1, 0] slices_S4x3x68x2052_S4x3x64x2048_0_0_1_0 slices_S4x20x68x2052_S4x20x64x2048_0_0_1_0 (padX x0) x0 (padS x1 x2)
      (refStep ![0, 0, 0, 4] slices_S4x3x68x2052_S4x3x64x2048_0_0_0_4 slices_S4x20x68x2052_S4x20x64x2048_0_0_0_4 (padX x0) x0 (padS x1 x2)
      (refStep ![0, 0, 0, 3] slices_S4x3x68x2052_S4x3x64x2048_0_0_0_3 slices_S4x20x68x2052_S4x20x64x2048_0_0_0_3 (padX x0) x0 (padS x1 x2)
      (refStep ![0, 0, 0, 2] slices_S4x3x68x2052_S4x3x64x2048_0_0_0_2 slices_S4x20x68x2052_S4x20x64x2048_0_0_0_2 (padX x0) x0 (padS x1 x2)
      (refStep ![0, 0, 0, 1] slices_S4x3x68x2052_S4x3x64x2048_0_0_0_1 slices_S4x20x68x2052_S4x20x64x2048_0_0_0_1 (padX x0) x0 (padS x1 x2)
      (refStep ![0, 0, 0, 0] slices_S4x3x68x2052_S4x3x64x2048_0_0_0_0 slices_S4x20x68x2052_S4x20x64x2048_0_0_0_0 (padX x0) x0 (padS x1 x2)
      (acc0 (F := F)))))))))))))))))))))))))))

end Cert.ReferenceIdeal.RefValue

end
-- ==== Proof.RefRun.lean ====
/-
  The reference's run.

  The operations are regrouped as a prologue (mask, padding, the zero array) followed by twenty-five groups of
  fifteen operations, one group per window offset.  A group reads the padded coordinates, the coordinates, the
  padded masked classes and the running sum, writes thirteen fresh buffers and two constants, and leaves the
  new running sum in the last of them: the update of Proof/RefSteps.lean.  It writes none of the arguments and
  neither padded array.  Composing the groups, the result buffer ends at the twenty-five-fold iterate and the
  arguments as launched; the run of a straight line of host operations then gives the claim about every
  weakly fair execution.
-/
import proofs.«120163_j10179072491794_2_alg».proof.Proof.RefOps
import proofs.«120163_j10179072491794_2_alg».proof.Proof.RefSteps

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

/-- The prologue: the mask as a float over the channels, the masked classes, both paddings, the zero array. -/
abbrev opsPre : List (HloOp τ sig (Elt F)) :=
  [ unary main_arg2 main_v0 (broadcastInDim S4x1x64x2048 ![0, 2, 3] bcast_S4x64x2048_S4x1x64x2048_0_2_3 : (⟨S4x64x2048, .i1⟩ : BufTy).Contents (Elt F) → (⟨S4x1x64x2048, .i1⟩ : BufTy).Contents (Elt F)),
    unary main_v0 main_v1 (uitofp .f32 : (⟨S4x1x64x2048, .i1⟩ : BufTy).Contents (Elt F) → (⟨S4x1x64x2048, .f32⟩ : BufTy).Contents (Elt F)),
    unary main_v1 main_v2 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_arg1 main_v2 main_v3 (mulf : (⟨S4x20x64x2048, .f32⟩ : BufTy).Contents (Elt F) → (⟨S4x20x64x2048, .f32⟩ : BufTy).Contents (Elt F) → (⟨S4x20x64x2048, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S4x3x64x2048, .f32⟩) main_arg0) (TRef.of (T := ⟨S_, .f32⟩) main_call0_v0) (TRef.of (T := ⟨S4x3x68x2052, .f32⟩) main_v4) (fun x v => pad S4x3x68x2052 ![0, 0, 2, 2] ![0, 0, 2, 2] ![0, 0, 0, 0] x v pads_S4x3x64x2048_S4x3x68x2052_000_000_220_220 h_S_),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S4x20x64x2048, .f32⟩) main_v3) (TRef.of (T := ⟨S_, .f32⟩) main_call1_v0) (TRef.of (T := ⟨S4x20x68x2052, .f32⟩) main_v5) (fun x v => pad S4x20x68x2052 ![0, 0, 2, 2] ![0, 0, 2, 2] ![0, 0, 0, 0] x v pads_S4x20x64x2048_S4x20x68x2052_000_000_220_220 h_S_),
    nullary main_cst (constant S_ .f32 0x00000000#32),
    unary main_cst main_v6 (broadcastInDim S4x20x64x2048 ![] bcast_S_S4x20x64x2048 : (⟨S_, .f32⟩ : BufTy).Contents (Elt F) → (⟨S4x20x64x2048, .f32⟩ : BufTy).Contents (Elt F)) ]

/-- The buffers it writes. -/
abbrev opsPre_W : List (Ref sig .tc) := [main_v0, main_v1, main_v2, main_v3, main_c, main_call0_v0, main_v4, main_c_0, main_call1_v0, main_v5, main_cst, main_v6]

theorem opsPre_writes : (opsPre : List (HloOp τ sig (Elt F))).Forall fun op => op.writes ⊆ (opsPre_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem opsPre_keep (W : Valuation τ sig (Elt F)) (r : Ref sig .tc) (h : r ∉ opsPre_W) :
    after opsPre W (Proc.devRef .tc r) = W (Proc.devRef .tc r) :=
  after_of_writes_sub opsPre _ opsPre_writes h

/-- The group of the offset (0, 0). -/
abbrev seg0 : List (HloOp τ sig (Elt F)) :=
  [ unary main_v4 main_v7 ((extractStridedSlice S4x3x64x2048 ![0, 0, 0, 0] · slices_S4x3x68x2052_S4x3x64x2048_0_0_0_0) : (⟨S4x3x68x2052, .f32⟩ : BufTy).Contents (Elt F) → (⟨S4x3x64x2048, .f32⟩ : BufTy).Contents (Elt F)),
    binary main_v7 main_arg0 main_v8 (subf : (⟨S4x3x64x2048, .f32⟩ : BufTy).Contents (Elt F) → (⟨S4x3x64x2048, .f32⟩ : BufTy).Contents (Elt F) → (⟨S4x3x64x2048, .f32⟩ : BufTy).Contents (Elt F)),
    binary main_v8 main_v8 main_v9 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_1 (constant S_ .f32 0x00000000#32),
    binary main_v9 main_cst_1 main_v10 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v10 main_v11 (Host.negf : (⟨S4x64x2048, .f32⟩ : BufTy).Contents (Elt F) → (⟨S4x64x2048, .f32⟩ : BufTy).Contents (Elt F)),
    nullary main_cst_2 (constant S_ .f32 0x40000000#32),
    unary main_cst_2 main_v12 (broadcastInDim S4x64x2048 ![] bcast_S_S4x64x2048 : (⟨S_, .f32⟩ : BufTy).Contents (Elt F) → (⟨S4x64x2048, .f32⟩ : BufTy).Contents (Elt F)),
    binary main_v11 main_v12 main_v13 (Host.divf : (⟨S4x64x2048, .f32⟩ : BufTy).Contents (Elt F) → (⟨S4x64x2048, .f32⟩ : BufTy).Contents (Elt F) → (⟨S4x64x2048, .f32⟩ : BufTy).Contents (Elt F)),
    unary main_v13 main_v14 (Host.exp : (⟨S4x64x2048, .f32⟩ : BufTy).Contents (Elt F) → (⟨S4x64x2048, .f32⟩ : BufTy).Contents (Elt F)),
    unary main_v14 main_v15 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v16 ((extractStridedSlice S4x20x64x2048 ![0, 0, 0, 0] · slices_S4x20x68x2052_S4x20x64x2048_0_0_0_0) : (⟨S4x20x68x2052, .f32⟩ : BufTy).Contents (Elt F) → (⟨S4x20x64x2048, .f32⟩ : BufTy).Contents (Elt F)),
    unary main_v15 main_v17 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v17 main_v16 main_v18 (mulf : (⟨S4x20x64x2048, .f32⟩ : BufTy).Contents (Elt F) → (⟨S4x20x64x2048, .f32⟩ : BufTy).Contents (Elt F) → (⟨S4x20x64x2048, .f32⟩ : BufTy).Contents (Elt F)),
    binary main_v6 main_v18 main_v19 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg0_W : List (Ref sig .tc) := [main_v7, main_v8, main_v9, main_cst_1, main_v10, main_v11, main_cst_2, main_v12, main_v13, main_v14, main_v15, main_v16, main_v17, main_v18, main_v19]

theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg0_keep (W : Valuation τ sig (Elt F)) (r : Ref sig .tc) (h : r ∉ seg0_W) :
    after seg0 W (Proc.devRef .tc r) = W (Proc.devRef .tc r) :=
  after_of_writes_sub seg0 _ seg0_writes h

/-- The group of the offset (0, 1). -/
abbrev seg1 : List (HloOp τ sig (Elt F)) :=
  [ unary main_v4 main_v20 ((extractStridedSlice S4x3x64x2048 ![0, 0, 0, 1] · slices_S4x3x68x2052_S4x3x64x2048_0_0_0_1) : (⟨S4x3x68x2052, .f32⟩ : BufTy).Contents (Elt F) → (⟨S4x3x64x2048, .f32⟩ : BufTy).Contents (Elt F)),
    binary main_v20 main_arg0 main_v21 (subf : (⟨S4x3x64x2048, .f32⟩ : BufTy).Contents (Elt F) → (⟨S4x3x64x2048, .f32⟩ : BufTy).Contents (Elt F) → (⟨S4x3x64x2048, .f32⟩ : BufTy).Contents (Elt F)),
    binary main_v21 main_v21 main_v22 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_3 (constant S_ .f32 0x00000000#32),
    binary main_v22 main_cst_3 main_v23 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v23 main_v24 (Host.negf : (⟨S4x64x2048, .f32⟩ : BufTy).Contents (Elt F) → (⟨S4x64x2048, .f32⟩ : BufTy).Contents (Elt F)),
    nullary main_cst_4 (constant S_ .f32 0x40000000#32),
    unary main_cst_4 main_v25 (broadcastInDim S4x64x2048 ![] bcast_S_S4x64x2048 : (⟨S_, .f32⟩ : BufTy).Contents (Elt F) → (⟨S4x64x2048, .f32⟩ : BufTy).Contents (Elt F)),
    binary main_v24 main_v25 main_v26 (Host.divf : (⟨S4x64x2048, .f32⟩ : BufTy).Contents (Elt F) → (⟨S4x64x2048, .f32⟩ : BufTy).Contents (Elt F) → (⟨S4x64x2048, .f32⟩ : BufTy).Contents (Elt F)),
    unary main_v26 main_v27 (Host.exp : (⟨S4x64x2048, .f32⟩ : BufTy).Contents (Elt F) → (⟨S4x64x2048, .f32⟩ : BufTy).Contents (Elt F)),
    unary main_v27 main_v28 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v29 ((extractStridedSlice S4x20x64x2048 ![0, 0, 0, 1] · slices_S4x20x68x2052_S4x20x64x2048_0_0_0_1) : (⟨S4x20x68x2052, .f32⟩ : BufTy).Contents (Elt F) → (⟨S4x20x64x2048, .f32⟩ : BufTy).Contents (Elt F)),
    unary main_v28 main_v30 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v30 main_v29 main_v31 (mulf : (⟨S4x20x64x2048, .f32⟩ : BufTy).Contents (Elt F) → (⟨S4x20x64x2048, .f32⟩ : BufTy).Contents (Elt F) → (⟨S4x20x64x2048, .f32⟩ : BufTy).Contents (Elt F)),
    binary main_v19 main_v31 main_v32 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg1_W : List (Ref sig .tc) := [main_v20, main_v21, main_v22, main_cst_3, main_v23, main_v24, main_cst_4, main_v25, main_v26, main_v27, main_v28, main_v29, main_v30, main_v31, main_v32]

theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg1_keep (W : Valuation τ sig (Elt F)) (r : Ref sig .tc) (h : r ∉ seg1_W) :
    after seg1 W (Proc.devRef .tc r) = W (Proc.devRef .tc r) :=
  after_of_writes_sub seg1 _ seg1_writes h

/-- The group of the offset (0, 2). -/
abbrev seg2 : List (HloOp τ sig (Elt F)) :=
  [ unary main_v4 main_v33 ((extractStridedSlice S4x3x64x2048 ![0, 0, 0, 2] · slices_S4x3x68x2052_S4x3x64x2048_0_0_0_2) : (⟨S4x3x68x2052, .f32⟩ : BufTy).Contents (Elt F) → (⟨S4x3x64x2048, .f32⟩ : BufTy).Contents (Elt F)),
    binary main_v33 main_arg0 main_v34 (subf : (⟨S4x3x64x2048, .f32⟩ : BufTy).Contents (Elt F) → (⟨S4x3x64x2048, .f32⟩ : BufTy).Contents (Elt F) → (⟨S4x3x64x2048, .f32⟩ : BufTy).Contents (Elt F)),
    binary main_v34 main_v34 main_v35 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_5 (constant S_ .f32 0x00000000#32),
    binary main_v35 main_cst_5 main_v36 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v36 main_v37 (Host.negf : (⟨S4x64x2048, .f32⟩ : BufTy).Contents (Elt F) → (⟨S4x64x2048, .f32⟩ : BufTy).Contents (Elt F)),
    nullary main_cst_6 (constant S_ .f32 0x40000000#32),
    unary main_cst_6 main_v38 (broadcastInDim S4x64x2048 ![] bcast_S_S4x64x2048 : (⟨S_, .f32⟩ : BufTy).Contents (Elt F) → (⟨S4x64x2048, .f32⟩ : BufTy).Contents (Elt F)),
    binary main_v37 main_v38 main_v39 (Host.divf : (⟨S4x64x2048, .f32⟩ : BufTy).Contents (Elt F) → (⟨S4x64x2048, .f32⟩ : BufTy).Contents (Elt F) → (⟨S4x64x2048, .f32⟩ : BufTy).Contents (Elt F)),
    unary main_v39 main_v40 (Host.exp : (⟨S4x64x2048, .f32⟩ : BufTy).Contents (Elt F) → (⟨S4x64x2048, .f32⟩ : BufTy).Contents (Elt F)),
    unary main_v40 main_v41 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v42 ((extractStridedSlice S4x20x64x2048 ![0, 0, 0, 2] · slices_S4x20x68x2052_S4x20x64x2048_0_0_0_2) : (⟨S4x20x68x2052, .f32⟩ : BufTy).Contents (Elt F) → (⟨S4x20x64x2048, .f32⟩ : BufTy).Contents (Elt F)),
    unary main_v41 main_v43 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v43 main_v42 main_v44 (mulf : (⟨S4x20x64x2048, .f32⟩ : BufTy).Contents (Elt F) → (⟨S4x20x64x2048, .f32⟩ : BufTy).Contents (Elt F) → (⟨S4x20x64x2048, .f32⟩ : BufTy).Contents (Elt F)),
    binary main_v32 main_v44 main_v45 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg2_W : List (Ref sig .tc) := [main_v33, main_v34, main_v35, main_cst_5, main_v36, main_v37, main_cst_6, main_v38, main_v39, main_v40, main_v41, main_v42, main_v43, main_v44, main_v45]

theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg2_keep (W : Valuation τ sig (Elt F)) (r : Ref sig .tc) (h : r ∉ seg2_W) :
    after seg2 W (Proc.devRef .tc r) = W (Proc.devRef .tc r) :=
  after_of_writes_sub seg2 _ seg2_writes h

/-- The group of the offset (0, 3). -/
abbrev seg3 : List (HloOp τ sig (Elt F)) :=
  [ unary main_v4 main_v46 ((extractStridedSlice S4x3x64x2048 ![0, 0, 0, 3] · slices_S4x3x68x2052_S4x3x64x2048_0_0_0_3) : (⟨S4x3x68x2052, .f32⟩ : BufTy).Contents (Elt F) → (⟨S4x3x64x2048, .f32⟩ : BufTy).Contents (Elt F)),
    binary main_v46 main_arg0 main_v47 (subf : (⟨S4x3x64x2048, .f32⟩ : BufTy).Contents (Elt F) → (⟨S4x3x64x2048, .f32⟩ : BufTy).Contents (Elt F) → (⟨S4x3x64x2048, .f32⟩ : BufTy).Contents (Elt F)),
    binary main_v47 main_v47 main_v48 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_7 (constant S_ .f32 0x00000000#32),
    binary main_v48 main_cst_7 main_v49 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v49 main_v50 (Host.negf : (⟨S4x64x2048, .f32⟩ : BufTy).Contents (Elt F) → (⟨S4x64x2048, .f32⟩ : BufTy).Contents (Elt F)),
    nullary main_cst_8 (constant S_ .f32 0x40000000#32),
    unary main_cst_8 main_v51 (broadcastInDim S4x64x2048 ![] bcast_S_S4x64x2048 : (⟨S_, .f32⟩ : BufTy).Contents (Elt F) → (⟨S4x64x2048, .f32⟩ : BufTy).Contents (Elt F)),
    binary main_v50 main_v51 main_v52 (Host.divf : (⟨S4x64x2048, .f32⟩ : BufTy).Contents (Elt F) → (⟨S4x64x2048, .f32⟩ : BufTy).Contents (Elt F) → (⟨S4x64x2048, .f32⟩ : BufTy).Contents (Elt F)),
    unary main_v52 main_v53 (Host.exp : (⟨S4x64x2048, .f32⟩ : BufTy).Contents (Elt F) → (⟨S4x64x2048, .f32⟩ : BufTy).Contents (Elt F)),
    unary main_v53 main_v54 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v55 ((extractStridedSlice S4x20x64x2048 ![0, 0, 0, 3] · slices_S4x20x68x2052_S4x20x64x2048_0_0_0_3) : (⟨S4x20x68x2052, .f32⟩ : BufTy).Contents (Elt F) → (⟨S4x20x64x2048, .f32⟩ : BufTy).Contents (Elt F)),
    unary main_v54 main_v56 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v56 main_v55 main_v57 (mulf : (⟨S4x20x64x2048, .f32⟩ : BufTy).Contents (Elt F) → (⟨S4x20x64x2048, .f32⟩ : BufTy).Contents (Elt F) → (⟨S4x20x64x2048, .f32⟩ : BufTy).Contents (Elt F)),
    binary main_v45 main_v57 main_v58 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg3_W : List (Ref sig .tc) := [main_v46, main_v47, main_v48, main_cst_7, main_v49, main_v50, main_cst_8, main_v51, main_v52, main_v53, main_v54, main_v55, main_v56, main_v57, main_v58]

theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg3_keep (W : Valuation τ sig (Elt F)) (r : Ref sig .tc) (h : r ∉ seg3_W) :
    after seg3 W (Proc.devRef .tc r) = W (Proc.devRef .tc r) :=
  after_of_writes_sub seg3 _ seg3_writes h

/-- The group of the offset (0, 4). -/
abbrev seg4 : List (HloOp τ sig (Elt F)) :=
  [ unary main_v4 main_v59 ((extractStridedSlice S4x3x64x2048 ![0, 0, 0, 4] · slices_S4x3x68x2052_S4x3x64x2048_0_0_0_4) : (⟨S4x3x68x2052, .f32⟩ : BufTy).Contents (Elt F) → (⟨S4x3x64x2048, .f32⟩ : BufTy).Contents (Elt F)),
    binary main_v59 main_arg0 main_v60 (subf : (⟨S4x3x64x2048, .f32⟩ : BufTy).Contents (Elt F) → (⟨S4x3x64x2048, .f32⟩ : BufTy).Contents (Elt F) → (⟨S4x3x64x2048, .f32⟩ : BufTy).Contents (Elt F)),
    binary main_v60 main_v60 main_v61 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_9 (constant S_ .f32 0x00000000#32),
    binary main_v61 main_cst_9 main_v62 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v62 main_v63 (Host.negf : (⟨S4x64x2048, .f32⟩ : BufTy).Contents (Elt F) → (⟨S4x64x2048, .f32⟩ : BufTy).Contents (Elt F)),
    nullary main_cst_10 (constant S_ .f32 0x40000000#32),
    unary main_cst_10 main_v64 (broadcastInDim S4x64x2048 ![] bcast_S_S4x64x2048 : (⟨S_, .f32⟩ : BufTy).Contents (Elt F) → (⟨S4x64x2048, .f32⟩ : BufTy).Contents (Elt F)),
    binary main_v63 main_v64 main_v65 (Host.divf : (⟨S4x64x2048, .f32⟩ : BufTy).Contents (Elt F) → (⟨S4x64x2048, .f32⟩ : BufTy).Contents (Elt F) → (⟨S4x64x2048, .f32⟩ : BufTy).Contents (Elt F)),
    unary main_v65 main_v66 (Host.exp : (⟨S4x64x2048, .f32⟩ : BufTy).Contents (Elt F) → (⟨S4x64x2048, .f32⟩ : BufTy).Contents (Elt F)),
    unary main_v66 main_v67 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v68 ((extractStridedSlice S4x20x64x2048 ![0, 0, 0, 4] · slices_S4x20x68x2052_S4x20x64x2048_0_0_0_4) : (⟨S4x20x68x2052, .f32⟩ : BufTy).Contents (Elt F) → (⟨S4x20x64x2048, .f32⟩ : BufTy).Contents (Elt F)),
    unary main_v67 main_v69 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v69 main_v68 main_v70 (mulf : (⟨S4x20x64x2048, .f32⟩ : BufTy).Contents (Elt F) → (⟨S4x20x64x2048, .f32⟩ : BufTy).Contents (Elt F) → (⟨S4x20x64x2048, .f32⟩ : BufTy).Contents (Elt F)),
    binary main_v58 main_v70 main_v71 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg4_W : List (Ref sig .tc) := [main_v59, main_v60, main_v61, main_cst_9, main_v62, main_v63, main_cst_10, main_v64, main_v65, main_v66, main_v67, main_v68, main_v69, main_v70, main_v71]

theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg4_keep (W : Valuation τ sig (Elt F)) (r : Ref sig .tc) (h : r ∉ seg4_W) :
    after seg4 W (Proc.devRef .tc r) = W (Proc.devRef .tc r) :=
  after_of_writes_sub seg4 _ seg4_writes h

/-- The group of the offset (1, 0). -/
abbrev seg5 : List (HloOp τ sig (Elt F)) :=
  [ unary main_v4 main_v72 ((extractStridedSlice S4x3x64x2048 ![0, 0, 1, 0] · slices_S4x3x68x2052_S4x3x64x2048_0_0_1_0) : (⟨S4x3x68x2052, .f32⟩ : BufTy).Contents (Elt F) → (⟨S4x3x64x2048, .f32⟩ : BufTy).Contents (Elt F)),
    binary main_v72 main_arg0 main_v73 (subf : (⟨S4x3x64x2048, .f32⟩ : BufTy).Contents (Elt F) → (⟨S4x3x64x2048, .f32⟩ : BufTy).Contents (Elt F) → (⟨S4x3x64x2048, .f32⟩ : BufTy).Contents (Elt F)),
    binary main_v73 main_v73 main_v74 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_11 (constant S_ .f32 0x00000000#32),
    binary main_v74 main_cst_11 main_v75 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v75 main_v76 (Host.negf : (⟨S4x64x2048, .f32⟩ : BufTy).Contents (Elt F) → (⟨S4x64x2048, .f32⟩ : BufTy).Contents (Elt F)),
    nullary main_cst_12 (constant S_ .f32 0x40000000#32),
    unary main_cst_12 main_v77 (broadcastInDim S4x64x2048 ![] bcast_S_S4x64x2048 : (⟨S_, .f32⟩ : BufTy).Contents (Elt F) → (⟨S4x64x2048, .f32⟩ : BufTy).Contents (Elt F)),
    binary main_v76 main_v77 main_v78 (Host.divf : (⟨S4x64x2048, .f32⟩ : BufTy).Contents (Elt F) → (⟨S4x64x2048, .f32⟩ : BufTy).Contents (Elt F) → (⟨S4x64x2048, .f32⟩ : BufTy).Contents (Elt F)),
    unary main_v78 main_v79 (Host.exp : (⟨S4x64x2048, .f32⟩ : BufTy).Contents (Elt F) → (⟨S4x64x2048, .f32⟩ : BufTy).Contents (Elt F)),
    unary main_v79 main_v80 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v81 ((extractStridedSlice S4x20x64x2048 ![0, 0, 1, 0] · slices_S4x20x68x2052_S4x20x64x2048_0_0_1_0) : (⟨S4x20x68x2052, .f32⟩ : BufTy).Contents (Elt F) → (⟨S4x20x64x2048, .f32⟩ : BufTy).Contents (Elt F)),
    unary main_v80 main_v82 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v82 main_v81 main_v83 (mulf : (⟨S4x20x64x2048, .f32⟩ : BufTy).Contents (Elt F) → (⟨S4x20x64x2048, .f32⟩ : BufTy).Contents (Elt F) → (⟨S4x20x64x2048, .f32⟩ : BufTy).Contents (Elt F)),
    binary main_v71 main_v83 main_v84 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg5_W : List (Ref sig .tc) := [main_v72, main_v73, main_v74, main_cst_11, main_v75, main_v76, main_cst_12, main_v77, main_v78, main_v79, main_v80, main_v81, main_v82, main_v83, main_v84]

theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg5_keep (W : Valuation τ sig (Elt F)) (r : Ref sig .tc) (h : r ∉ seg5_W) :
    after seg5 W (Proc.devRef .tc r) = W (Proc.devRef .tc r) :=
  after_of_writes_sub seg5 _ seg5_writes h

/-- The group of the offset (1, 1). -/
abbrev seg6 : List (HloOp τ sig (Elt F)) :=
  [ unary main_v4 main_v85 ((extractStridedSlice S4x3x64x2048 ![0, 0, 1, 1] · slices_S4x3x68x2052_S4x3x64x2048_0_0_1_1) : (⟨S4x3x68x2052, .f32⟩ : BufTy).Contents (Elt F) → (⟨S4x3x64x2048, .f32⟩ : BufTy).Contents (Elt F)),
    binary main_v85 main_arg0 main_v86 (subf : (⟨S4x3x64x2048, .f32⟩ : BufTy).Contents (Elt F) → (⟨S4x3x64x2048, .f32⟩ : BufTy).Contents (Elt F) → (⟨S4x3x64x2048, .f32⟩ : BufTy).Contents (Elt F)),
    binary main_v86 main_v86 main_v87 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_13 (constant S_ .f32 0x00000000#32),
    binary main_v87 main_cst_13 main_v88 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v88 main_v89 (Host.negf : (⟨S4x64x2048, .f32⟩ : BufTy).Contents (Elt F) → (⟨S4x64x2048, .f32⟩ : BufTy).Contents (Elt F)),
    nullary main_cst_14 (constant S_ .f32 0x40000000#32),
    unary main_cst_14 main_v90 (broadcastInDim S4x64x2048 ![] bcast_S_S4x64x2048 : (⟨S_, .f32⟩ : BufTy).Contents (Elt F) → (⟨S4x64x2048, .f32⟩ : BufTy).Contents (Elt F)),
    binary main_v89 main_v90 main_v91 (Host.divf : (⟨S4x64x2048, .f32⟩ : BufTy).Contents (Elt F) → (⟨S4x64x2048, .f32⟩ : BufTy).Contents (Elt F) → (⟨S4x64x2048, .f32⟩ : BufTy).Contents (Elt F)),
    unary main_v91 main_v92 (Host.exp : (⟨S4x64x2048, .f32⟩ : BufTy).Contents (Elt F) → (⟨S4x64x2048, .f32⟩ : BufTy).Contents (Elt F)),
    unary main_v92 main_v93 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v94 ((extractStridedSlice S4x20x64x2048 ![0, 0, 1, 1] · slices_S4x20x68x2052_S4x20x64x2048_0_0_1_1) : (⟨S4x20x68x2052, .f32⟩ : BufTy).Contents (Elt F) → (⟨S4x20x64x2048, .f32⟩ : BufTy).Contents (Elt F)),
    unary main_v93 main_v95 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v95 main_v94 main_v96 (mulf : (⟨S4x20x64x2048, .f32⟩ : BufTy).Contents (Elt F) → (⟨S4x20x64x2048, .f32⟩ : BufTy).Contents (Elt F) → (⟨S4x20x64x2048, .f32⟩ : BufTy).Contents (Elt F)),
    binary main_v84 main_v96 main_v97 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg6_W : List (Ref sig .tc) := [main_v85, main_v86, main_v87, main_cst_13, main_v88, main_v89, main_cst_14, main_v90, main_v91, main_v92, main_v93, main_v94, main_v95, main_v96, main_v97]

theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg6_keep (W : Valuation τ sig (Elt F)) (r : Ref sig .tc) (h : r ∉ seg6_W) :
    after seg6 W (Proc.devRef .tc r) = W (Proc.devRef .tc r) :=
  after_of_writes_sub seg6 _ seg6_writes h

/-- The group of the offset (1, 2). -/
abbrev seg7 : List (HloOp τ sig (Elt F)) :=
  [ unary main_v4 main_v98 ((extractStridedSlice S4x3x64x2048 ![0, 0, 1, 2] · slices_S4x3x68x2052_S4x3x64x2048_0_0_1_2) : (⟨S4x3x68x2052, .f32⟩ : BufTy).Contents (Elt F) → (⟨S4x3x64x2048, .f32⟩ : BufTy).Contents (Elt F)),
    binary main_v98 main_arg0 main_v99 (subf : (⟨S4x3x64x2048, .f32⟩ : BufTy).Contents (Elt F) → (⟨S4x3x64x2048, .f32⟩ : BufTy).Contents (Elt F) → (⟨S4x3x64x2048, .f32⟩ : BufTy).Contents (Elt F)),
    binary main_v99 main_v99 main_v100 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_15 (constant S_ .f32 0x00000000#32),
    binary main_v100 main_cst_15 main_v101 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v101 main_v102 (Host.negf : (⟨S4x64x2048, .f32⟩ : BufTy).Contents (Elt F) → (⟨S4x64x2048, .f32⟩ : BufTy).Contents (Elt F)),
    nullary main_cst_16 (constant S_ .f32 0x40000000#32),
    unary main_cst_16 main_v103 (broadcastInDim S4x64x2048 ![] bcast_S_S4x64x2048 : (⟨S_, .f32⟩ : BufTy).Contents (Elt F) → (⟨S4x64x2048, .f32⟩ : BufTy).Contents (Elt F)),
    binary main_v102 main_v103 main_v104 (Host.divf : (⟨S4x64x2048, .f32⟩ : BufTy).Contents (Elt F) → (⟨S4x64x2048, .f32⟩ : BufTy).Contents (Elt F) → (⟨S4x64x2048, .f32⟩ : BufTy).Contents (Elt F)),
    unary main_v104 main_v105 (Host.exp : (⟨S4x64x2048, .f32⟩ : BufTy).Contents (Elt F) → (⟨S4x64x2048, .f32⟩ : BufTy).Contents (Elt F)),
    unary main_v105 main_v106 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v107 ((extractStridedSlice S4x20x64x2048 ![0, 0, 1, 2] · slices_S4x20x68x2052_S4x20x64x2048_0_0_1_2) : (⟨S4x20x68x2052, .f32⟩ : BufTy).Contents (Elt F) → (⟨S4x20x64x2048, .f32⟩ : BufTy).Contents (Elt F)),
    unary main_v106 main_v108 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v108 main_v107 main_v109 (mulf : (⟨S4x20x64x2048, .f32⟩ : BufTy).Contents (Elt F) → (⟨S4x20x64x2048, .f32⟩ : BufTy).Contents (Elt F) → (⟨S4x20x64x2048, .f32⟩ : BufTy).Contents (Elt F)),
    binary main_v97 main_v109 main_v110 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg7_W : List (Ref sig .tc) := [main_v98, main_v99, main_v100, main_cst_15, main_v101, main_v102, main_cst_16, main_v103, main_v104, main_v105, main_v106, main_v107, main_v108, main_v109, main_v110]

theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg7_keep (W : Valuation τ sig (Elt F)) (r : Ref sig .tc) (h : r ∉ seg7_W) :
    after seg7 W (Proc.devRef .tc r) = W (Proc.devRef .tc r) :=
  after_of_writes_sub seg7 _ seg7_writes h

/-- The group of the offset (1, 3). -/
abbrev seg8 : List (HloOp τ sig (Elt F)) :=
  [ unary main_v4 main_v111 ((extractStridedSlice S4x3x64x2048 ![0, 0, 1, 3] · slices_S4x3x68x2052_S4x3x64x2048_0_0_1_3) : (⟨S4x3x68x2052, .f32⟩ : BufTy).Contents (Elt F) → (⟨S4x3x64x2048, .f32⟩ : BufTy).Contents (Elt F)),
    binary main_v111 main_arg0 main_v112 (subf : (⟨S4x3x64x2048, .f32⟩ : BufTy).Contents (Elt F) → (⟨S4x3x64x2048, .f32⟩ : BufTy).Contents (Elt F) → (⟨S4x3x64x2048, .f32⟩ : BufTy).Contents (Elt F)),
    binary main_v112 main_v112 main_v113 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_17 (constant S_ .f32 0x00000000#32),
    binary main_v113 main_cst_17 main_v114 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v114 main_v115 (Host.negf : (⟨S4x64x2048, .f32⟩ : BufTy).Contents (Elt F) → (⟨S4x64x2048, .f32⟩ : BufTy).Contents (Elt F)),
    nullary main_cst_18 (constant S_ .f32 0x40000000#32),
    unary main_cst_18 main_v116 (broadcastInDim S4x64x2048 ![] bcast_S_S4x64x2048 : (⟨S_, .f32⟩ : BufTy).Contents (Elt F) → (⟨S4x64x2048, .f32⟩ : BufTy).Contents (Elt F)),
    binary main_v115 main_v116 main_v117 (Host.divf : (⟨S4x64x2048, .f32⟩ : BufTy).Contents (Elt F) → (⟨S4x64x2048, .f32⟩ : BufTy).Contents (Elt F) → (⟨S4x64x2048, .f32⟩ : BufTy).Contents (Elt F)),
    unary main_v117 main_v118 (Host.exp : (⟨S4x64x2048, .f32⟩ : BufTy).Contents (Elt F) → (⟨S4x64x2048, .f32⟩ : BufTy).Contents (Elt F)),
    unary main_v118 main_v119 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v120 ((extractStridedSlice S4x20x64x2048 ![0, 0, 1, 3] · slices_S4x20x68x2052_S4x20x64x2048_0_0_1_3) : (⟨S4x20x68x2052, .f32⟩ : BufTy).Contents (Elt F) → (⟨S4x20x64x2048, .f32⟩ : BufTy).Contents (Elt F)),
    unary main_v119 main_v121 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v121 main_v120 main_v122 (mulf : (⟨S4x20x64x2048, .f32⟩ : BufTy).Contents (Elt F) → (⟨S4x20x64x2048, .f32⟩ : BufTy).Contents (Elt F) → (⟨S4x20x64x2048, .f32⟩ : BufTy).Contents (Elt F)),
    binary main_v110 main_v122 main_v123 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg8_W : List (Ref sig .tc) := [main_v111, main_v112, main_v113, main_cst_17, main_v114, main_v115, main_cst_18, main_v116, main_v117, main_v118, main_v119, main_v120, main_v121, main_v122, main_v123]

theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg8_keep (W : Valuation τ sig (Elt F)) (r : Ref sig .tc) (h : r ∉ seg8_W) :
    after seg8 W (Proc.devRef .tc r) = W (Proc.devRef .tc r) :=
  after_of_writes_sub seg8 _ seg8_writes h

/-- The group of the offset (1, 4). -/
abbrev seg9 : List (HloOp τ sig (Elt F)) :=
  [ unary main_v4 main_v124 ((extractStridedSlice S4x3x64x2048 ![0, 0, 1, 4] · slices_S4x3x68x2052_S4x3x64x2048_0_0_1_4) : (⟨S4x3x68x2052, .f32⟩ : BufTy).Contents (Elt F) → (⟨S4x3x64x2048, .f32⟩ : BufTy).Contents (Elt F)),
    binary main_v124 main_arg0 main_v125 (subf : (⟨S4x3x64x2048, .f32⟩ : BufTy).Contents (Elt F) → (⟨S4x3x64x2048, .f32⟩ : BufTy).Contents (Elt F) → (⟨S4x3x64x2048, .f32⟩ : BufTy).Contents (Elt F)),
    binary main_v125 main_v125 main_v126 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_19 (constant S_ .f32 0x00000000#32),
    binary main_v126 main_cst_19 main_v127 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v127 main_v128 (Host.negf : (⟨S4x64x2048, .f32⟩ : BufTy).Contents (Elt F) → (⟨S4x64x2048, .f32⟩ : BufTy).Contents (Elt F)),
    nullary main_cst_20 (constant S_ .f32 0x40000000#32),
    unary main_cst_20 main_v129 (broadcastInDim S4x64x2048 ![] bcast_S_S4x64x2048 : (⟨S_, .f32⟩ : BufTy).Contents (Elt F) → (⟨S4x64x2048, .f32⟩ : BufTy).Contents (Elt F)),
    binary main_v128 main_v129 main_v130 (Host.divf : (⟨S4x64x2048, .f32⟩ : BufTy).Contents (Elt F) → (⟨S4x64x2048, .f32⟩ : BufTy).Contents (Elt F) → (⟨S4x64x2048, .f32⟩ : BufTy).Contents (Elt F)),
    unary main_v130 main_v131 (Host.exp : (⟨S4x64x2048, .f32⟩ : BufTy).Contents (Elt F) → (⟨S4x64x2048, .f32⟩ : BufTy).Contents (Elt F)),
    unary main_v131 main_v132 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v133 ((extractStridedSlice S4x20x64x2048 ![0, 0, 1, 4] · slices_S4x20x68x2052_S4x20x64x2048_0_0_1_4) : (⟨S4x20x68x2052, .f32⟩ : BufTy).Contents (Elt F) → (⟨S4x20x64x2048, .f32⟩ : BufTy).Contents (Elt F)),
    unary main_v132 main_v134 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v134 main_v133 main_v135 (mulf : (⟨S4x20x64x2048, .f32⟩ : BufTy).Contents (Elt F) → (⟨S4x20x64x2048, .f32⟩ : BufTy).Contents (Elt F) → (⟨S4x20x64x2048, .f32⟩ : BufTy).Contents (Elt F)),
    binary main_v123 main_v135 main_v136 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg9_W : List (Ref sig .tc) := [main_v124, main_v125, main_v126, main_cst_19, main_v127, main_v128, main_cst_20, main_v129, main_v130, main_v131, main_v132, main_v133, main_v134, main_v135, main_v136]

theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg9_keep (W : Valuation τ sig (Elt F)) (r : Ref sig .tc) (h : r ∉ seg9_W) :
    after seg9 W (Proc.devRef .tc r) = W (Proc.devRef .tc r) :=
  after_of_writes_sub seg9 _ seg9_writes h

/-- The group of the offset (2, 0). -/
abbrev seg10 : List (HloOp τ sig (Elt F)) :=
  [ unary main_v4 main_v137 ((extractStridedSlice S4x3x64x2048 ![0, 0, 2, 0] · slices_S4x3x68x2052_S4x3x64x2048_0_0_2_0) : (⟨S4x3x68x2052, .f32⟩ : BufTy).Contents (Elt F) → (⟨S4x3x64x2048, .f32⟩ : BufTy).Contents (Elt F)),
    binary main_v137 main_arg0 main_v138 (subf : (⟨S4x3x64x2048, .f32⟩ : BufTy).Contents (Elt F) → (⟨S4x3x64x2048, .f32⟩ : BufTy).Contents (Elt F) → (⟨S4x3x64x2048, .f32⟩ : BufTy).Contents (Elt F)),
    binary main_v138 main_v138 main_v139 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_21 (constant S_ .f32 0x00000000#32),
    binary main_v139 main_cst_21 main_v140 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v140 main_v141 (Host.negf : (⟨S4x64x2048, .f32⟩ : BufTy).Contents (Elt F) → (⟨S4x64x2048, .f32⟩ : BufTy).Contents (Elt F)),
    nullary main_cst_22 (constant S_ .f32 0x40000000#32),
    unary main_cst_22 main_v142 (broadcastInDim S4x64x2048 ![] bcast_S_S4x64x2048 : (⟨S_, .f32⟩ : BufTy).Contents (Elt F) → (⟨S4x64x2048, .f32⟩ : BufTy).Contents (Elt F)),
    binary main_v141 main_v142 main_v143 (Host.divf : (⟨S4x64x2048, .f32⟩ : BufTy).Contents (Elt F) → (⟨S4x64x2048, .f32⟩ : BufTy).Contents (Elt F) → (⟨S4x64x2048, .f32⟩ : BufTy).Contents (Elt F)),
    unary main_v143 main_v144 (Host.exp : (⟨S4x64x2048, .f32⟩ : BufTy).Contents (Elt F) → (⟨S4x64x2048, .f32⟩ : BufTy).Contents (Elt F)),
    unary main_v144 main_v145 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v146 ((extractStridedSlice S4x20x64x2048 ![0, 0, 2, 0] · slices_S4x20x68x2052_S4x20x64x2048_0_0_2_0) : (⟨S4x20x68x2052, .f32⟩ : BufTy).Contents (Elt F) → (⟨S4x20x64x2048, .f32⟩ : BufTy).Contents (Elt F)),
    unary main_v145 main_v147 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v147 main_v146 main_v148 (mulf : (⟨S4x20x64x2048, .f32⟩ : BufTy).Contents (Elt F) → (⟨S4x20x64x2048, .f32⟩ : BufTy).Contents (Elt F) → (⟨S4x20x64x2048, .f32⟩ : BufTy).Contents (Elt F)),
    binary main_v136 main_v148 main_v149 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg10_W : List (Ref sig .tc) := [main_v137, main_v138, main_v139, main_cst_21, main_v140, main_v141, main_cst_22, main_v142, main_v143, main_v144, main_v145, main_v146, main_v147, main_v148, main_v149]

theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg10_keep (W : Valuation τ sig (Elt F)) (r : Ref sig .tc) (h : r ∉ seg10_W) :
    after seg10 W (Proc.devRef .tc r) = W (Proc.devRef .tc r) :=
  after_of_writes_sub seg10 _ seg10_writes h

/-- The group of the offset (2, 1). -/
abbrev seg11 : List (HloOp τ sig (Elt F)) :=
  [ unary main_v4 main_v150 ((extractStridedSlice S4x3x64x2048 ![0, 0, 2, 1] · slices_S4x3x68x2052_S4x3x64x2048_0_0_2_1) : (⟨S4x3x68x2052, .f32⟩ : BufTy).Contents (Elt F) → (⟨S4x3x64x2048, .f32⟩ : BufTy).Contents (Elt F)),
    binary main_v150 main_arg0 main_v151 (subf : (⟨S4x3x64x2048, .f32⟩ : BufTy).Contents (Elt F) → (⟨S4x3x64x2048, .f32⟩ : BufTy).Contents (Elt F) → (⟨S4x3x64x2048, .f32⟩ : BufTy).Contents (Elt F)),
    binary main_v151 main_v151 main_v152 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_23 (constant S_ .f32 0x00000000#32),
    binary main_v152 main_cst_23 main_v153 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v153 main_v154 (Host.negf : (⟨S4x64x2048, .f32⟩ : BufTy).Contents (Elt F) → (⟨S4x64x2048, .f32⟩ : BufTy).Contents (Elt F)),
    nullary main_cst_24 (constant S_ .f32 0x40000000#32),
    unary main_cst_24 main_v155 (broadcastInDim S4x64x2048 ![] bcast_S_S4x64x2048 : (⟨S_, .f32⟩ : BufTy).Contents (Elt F) → (⟨S4x64x2048, .f32⟩ : BufTy).Contents (Elt F)),
    binary main_v154 main_v155 main_v156 (Host.divf : (⟨S4x64x2048, .f32⟩ : BufTy).Contents (Elt F) → (⟨S4x64x2048, .f32⟩ : BufTy).Contents (Elt F) → (⟨S4x64x2048, .f32⟩ : BufTy).Contents (Elt F)),
    unary main_v156 main_v157 (Host.exp : (⟨S4x64x2048, .f32⟩ : BufTy).Contents (Elt F) → (⟨S4x64x2048, .f32⟩ : BufTy).Contents (Elt F)),
    unary main_v157 main_v158 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v159 ((extractStridedSlice S4x20x64x2048 ![0, 0, 2, 1] · slices_S4x20x68x2052_S4x20x64x2048_0_0_2_1) : (⟨S4x20x68x2052, .f32⟩ : BufTy).Contents (Elt F) → (⟨S4x20x64x2048, .f32⟩ : BufTy).Contents (Elt F)),
    unary main_v158 main_v160 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v160 main_v159 main_v161 (mulf : (⟨S4x20x64x2048, .f32⟩ : BufTy).Contents (Elt F) → (⟨S4x20x64x2048, .f32⟩ : BufTy).Contents (Elt F) → (⟨S4x20x64x2048, .f32⟩ : BufTy).Contents (Elt F)),
    binary main_v149 main_v161 main_v162 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg11_W : List (Ref sig .tc) := [main_v150, main_v151, main_v152, main_cst_23, main_v153, main_v154, main_cst_24, main_v155, main_v156, main_v157, main_v158, main_v159, main_v160, main_v161, main_v162]

theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg11_keep (W : Valuation τ sig (Elt F)) (r : Ref sig .tc) (h : r ∉ seg11_W) :
    after seg11 W (Proc.devRef .tc r) = W (Proc.devRef .tc r) :=
  after_of_writes_sub seg11 _ seg11_writes h

/-- The group of the offset (2, 2). -/
abbrev seg12 : List (HloOp τ sig (Elt F)) :=
  [ unary main_v4 main_v163 ((extractStridedSlice S4x3x64x2048 ![0, 0, 2, 2] · slices_S4x3x68x2052_S4x3x64x2048_0_0_2_2) : (⟨S4x3x68x2052, .f32⟩ : BufTy).Contents (Elt F) → (⟨S4x3x64x2048, .f32⟩ : BufTy).Contents (Elt F)),
    binary main_v163 main_arg0 main_v164 (subf : (⟨S4x3x64x2048, .f32⟩ : BufTy).Contents (Elt F) → (⟨S4x3x64x2048, .f32⟩ : BufTy).Contents (Elt F) → (⟨S4x3x64x2048, .f32⟩ : BufTy).Contents (Elt F)),
    binary main_v164 main_v164 main_v165 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_25 (constant S_ .f32 0x00000000#32),
    binary main_v165 main_cst_25 main_v166 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v166 main_v167 (Host.negf : (⟨S4x64x2048, .f32⟩ : BufTy).Contents (Elt F) → (⟨S4x64x2048, .f32⟩ : BufTy).Contents (Elt F)),
    nullary main_cst_26 (constant S_ .f32 0x40000000#32),
    unary main_cst_26 main_v168 (broadcastInDim S4x64x2048 ![] bcast_S_S4x64x2048 : (⟨S_, .f32⟩ : BufTy).Contents (Elt F) → (⟨S4x64x2048, .f32⟩ : BufTy).Contents (Elt F)),
    binary main_v167 main_v168 main_v169 (Host.divf : (⟨S4x64x2048, .f32⟩ : BufTy).Contents (Elt F) → (⟨S4x64x2048, .f32⟩ : BufTy).Contents (Elt F) → (⟨S4x64x2048, .f32⟩ : BufTy).Contents (Elt F)),
    unary main_v169 main_v170 (Host.exp : (⟨S4x64x2048, .f32⟩ : BufTy).Contents (Elt F) → (⟨S4x64x2048, .f32⟩ : BufTy).Contents (Elt F)),
    unary main_v170 main_v171 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v172 ((extractStridedSlice S4x20x64x2048 ![0, 0, 2, 2] · slices_S4x20x68x2052_S4x20x64x2048_0_0_2_2) : (⟨S4x20x68x2052, .f32⟩ : BufTy).Contents (Elt F) → (⟨S4x20x64x2048, .f32⟩ : BufTy).Contents (Elt F)),
    unary main_v171 main_v173 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v173 main_v172 main_v174 (mulf : (⟨S4x20x64x2048, .f32⟩ : BufTy).Contents (Elt F) → (⟨S4x20x64x2048, .f32⟩ : BufTy).Contents (Elt F) → (⟨S4x20x64x2048, .f32⟩ : BufTy).Contents (Elt F)),
    binary main_v162 main_v174 main_v175 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg12_W : List (Ref sig .tc) := [main_v163, main_v164, main_v165, main_cst_25, main_v166, main_v167, main_cst_26, main_v168, main_v169, main_v170, main_v171, main_v172, main_v173, main_v174, main_v175]

theorem seg12_writes : (seg12 : List (HloOp τ sig (Elt F))).Forall fun op => op.writes ⊆ (seg12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg12_keep (W : Valuation τ sig (Elt F)) (r : Ref sig .tc) (h : r ∉ seg12_W) :
    after seg12 W (Proc.devRef .tc r) = W (Proc.devRef .tc r) :=
  after_of_writes_sub seg12 _ seg12_writes h

/-- The group of the offset (2, 3). -/
abbrev seg13 : List (HloOp τ sig (Elt F)) :=
  [ unary main_v4 main_v176 ((extractStridedSlice S4x3x64x2048 ![0, 0, 2, 3] · slices_S4x3x68x2052_S4x3x64x2048_0_0_2_3) : (⟨S4x3x68x2052, .f32⟩ : BufTy).Contents (Elt F) → (⟨S4x3x64x2048, .f32⟩ : BufTy).Contents (Elt F)),
    binary main_v176 main_arg0 main_v177 (subf : (⟨S4x3x64x2048, .f32⟩ : BufTy).Contents (Elt F) → (⟨S4x3x64x2048, .f32⟩ : BufTy).Contents (Elt F) → (⟨S4x3x64x2048, .f32⟩ : BufTy).Contents (Elt F)),
    binary main_v177 main_v177 main_v178 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_27 (constant S_ .f32 0x00000000#32),
    binary main_v178 main_cst_27 main_v179 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v179 main_v180 (Host.negf : (⟨S4x64x2048, .f32⟩ : BufTy).Contents (Elt F) → (⟨S4x64x2048, .f32⟩ : BufTy).Contents (Elt F)),
    nullary main_cst_28 (constant S_ .f32 0x40000000#32),
    unary main_cst_28 main_v181 (broadcastInDim S4x64x2048 ![] bcast_S_S4x64x2048 : (⟨S_, .f32⟩ : BufTy).Contents (Elt F) → (⟨S4x64x2048, .f32⟩ : BufTy).Contents (Elt F)),
    binary main_v180 main_v181 main_v182 (Host.divf : (⟨S4x64x2048, .f32⟩ : BufTy).Contents (Elt F) → (⟨S4x64x2048, .f32⟩ : BufTy).Contents (Elt F) → (⟨S4x64x2048, .f32⟩ : BufTy).Contents (Elt F)),
    unary main_v182 main_v183 (Host.exp : (⟨S4x64x2048, .f32⟩ : BufTy).Contents (Elt F) → (⟨S4x64x2048, .f32⟩ : BufTy).Contents (Elt F)),
    unary main_v183 main_v184 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v185 ((extractStridedSlice S4x20x64x2048 ![0, 0, 2, 3] · slices_S4x20x68x2052_S4x20x64x2048_0_0_2_3) : (⟨S4x20x68x2052, .f32⟩ : BufTy).Contents (Elt F) → (⟨S4x20x64x2048, .f32⟩ : BufTy).Contents (Elt F)),
    unary main_v184 main_v186 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v186 main_v185 main_v187 (mulf : (⟨S4x20x64x2048, .f32⟩ : BufTy).Contents (Elt F) → (⟨S4x20x64x2048, .f32⟩ : BufTy).Contents (Elt F) → (⟨S4x20x64x2048, .f32⟩ : BufTy).Contents (Elt F)),
    binary main_v175 main_v187 main_v188 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg13_W : List (Ref sig .tc) := [main_v176, main_v177, main_v178, main_cst_27, main_v179, main_v180, main_cst_28, main_v181, main_v182, main_v183, main_v184, main_v185, main_v186, main_v187, main_v188]

theorem seg13_writes : (seg13 : List (HloOp τ sig (Elt F))).Forall fun op => op.writes ⊆ (seg13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg13_keep (W : Valuation τ sig (Elt F)) (r : Ref sig .tc) (h : r ∉ seg13_W) :
    after seg13 W (Proc.devRef .tc r) = W (Proc.devRef .tc r) :=
  after_of_writes_sub seg13 _ seg13_writes h

/-- The group of the offset (2, 4). -/
abbrev seg14 : List (HloOp τ sig (Elt F)) :=
  [ unary main_v4 main_v189 ((extractStridedSlice S4x3x64x2048 ![0, 0, 2, 4] · slices_S4x3x68x2052_S4x3x64x2048_0_0_2_4) : (⟨S4x3x68x2052, .f32⟩ : BufTy).Contents (Elt F) → (⟨S4x3x64x2048, .f32⟩ : BufTy).Contents (Elt F)),
    binary main_v189 main_arg0 main_v190 (subf : (⟨S4x3x64x2048, .f32⟩ : BufTy).Contents (Elt F) → (⟨S4x3x64x2048, .f32⟩ : BufTy).Contents (Elt F) → (⟨S4x3x64x2048, .f32⟩ : BufTy).Contents (Elt F)),
    binary main_v190 main_v190 main_v191 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_29 (constant S_ .f32 0x00000000#32),
    binary main_v191 main_cst_29 main_v192 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v192 main_v193 (Host.negf : (⟨S4x64x2048, .f32⟩ : BufTy).Contents (Elt F) → (⟨S4x64x2048, .f32⟩ : BufTy).Contents (Elt F)),
    nullary main_cst_30 (constant S_ .f32 0x40000000#32),
    unary main_cst_30 main_v194 (broadcastInDim S4x64x2048 ![] bcast_S_S4x64x2048 : (⟨S_, .f32⟩ : BufTy).Contents (Elt F) → (⟨S4x64x2048, .f32⟩ : BufTy).Contents (Elt F)),
    binary main_v193 main_v194 main_v195 (Host.divf : (⟨S4x64x2048, .f32⟩ : BufTy).Contents (Elt F) → (⟨S4x64x2048, .f32⟩ : BufTy).Contents (Elt F) → (⟨S4x64x2048, .f32⟩ : BufTy).Contents (Elt F)),
    unary main_v195 main_v196 (Host.exp : (⟨S4x64x2048, .f32⟩ : BufTy).Contents (Elt F) → (⟨S4x64x2048, .f32⟩ : BufTy).Contents (Elt F)),
    unary main_v196 main_v197 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v198 ((extractStridedSlice S4x20x64x2048 ![0, 0, 2, 4] · slices_S4x20x68x2052_S4x20x64x2048_0_0_2_4) : (⟨S4x20x68x2052, .f32⟩ : BufTy).Contents (Elt F) → (⟨S4x20x64x2048, .f32⟩ : BufTy).Contents (Elt F)),
    unary main_v197 main_v199 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v199 main_v198 main_v200 (mulf : (⟨S4x20x64x2048, .f32⟩ : BufTy).Contents (Elt F) → (⟨S4x20x64x2048, .f32⟩ : BufTy).Contents (Elt F) → (⟨S4x20x64x2048, .f32⟩ : BufTy).Contents (Elt F)),
    binary main_v188 main_v200 main_v201 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg14_W : List (Ref sig .tc) := [main_v189, main_v190, main_v191, main_cst_29, main_v192, main_v193, main_cst_30, main_v194, main_v195, main_v196, main_v197, main_v198, main_v199, main_v200, main_v201]

theorem seg14_writes : (seg14 : List (HloOp τ sig (Elt F))).Forall fun op => op.writes ⊆ (seg14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg14_keep (W : Valuation τ sig (Elt F)) (r : Ref sig .tc) (h : r ∉ seg14_W) :
    after seg14 W (Proc.devRef .tc r) = W (Proc.devRef .tc r) :=
  after_of_writes_sub seg14 _ seg14_writes h

/-- The group of the offset (3, 0). -/
abbrev seg15 : List (HloOp τ sig (Elt F)) :=
  [ unary main_v4 main_v202 ((extractStridedSlice S4x3x64x2048 ![0, 0, 3, 0] · slices_S4x3x68x2052_S4x3x64x2048_0_0_3_0) : (⟨S4x3x68x2052, .f32⟩ : BufTy).Contents (Elt F) → (⟨S4x3x64x2048, .f32⟩ : BufTy).Contents (Elt F)),
    binary main_v202 main_arg0 main_v203 (subf : (⟨S4x3x64x2048, .f32⟩ : BufTy).Contents (Elt F) → (⟨S4x3x64x2048, .f32⟩ : BufTy).Contents (Elt F) → (⟨S4x3x64x2048, .f32⟩ : BufTy).Contents (Elt F)),
    binary main_v203 main_v203 main_v204 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_31 (constant S_ .f32 0x00000000#32),
    binary main_v204 main_cst_31 main_v205 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v205 main_v206 (Host.negf : (⟨S4x64x2048, .f32⟩ : BufTy).Contents (Elt F) → (⟨S4x64x2048, .f32⟩ : BufTy).Contents (Elt F)),
    nullary main_cst_32 (constant S_ .f32 0x40000000#32),
    unary main_cst_32 main_v207 (broadcastInDim S4x64x2048 ![] bcast_S_S4x64x2048 : (⟨S_, .f32⟩ : BufTy).Contents (Elt F) → (⟨S4x64x2048, .f32⟩ : BufTy).Contents (Elt F)),
    binary main_v206 main_v207 main_v208 (Host.divf : (⟨S4x64x2048, .f32⟩ : BufTy).Contents (Elt F) → (⟨S4x64x2048, .f32⟩ : BufTy).Contents (Elt F) → (⟨S4x64x2048, .f32⟩ : BufTy).Contents (Elt F)),
    unary main_v208 main_v209 (Host.exp : (⟨S4x64x2048, .f32⟩ : BufTy).Contents (Elt F) → (⟨S4x64x2048, .f32⟩ : BufTy).Contents (Elt F)),
    unary main_v209 main_v210 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v211 ((extractStridedSlice S4x20x64x2048 ![0, 0, 3, 0] · slices_S4x20x68x2052_S4x20x64x2048_0_0_3_0) : (⟨S4x20x68x2052, .f32⟩ : BufTy).Contents (Elt F) → (⟨S4x20x64x2048, .f32⟩ : BufTy).Contents (Elt F)),
    unary main_v210 main_v212 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v212 main_v211 main_v213 (mulf : (⟨S4x20x64x2048, .f32⟩ : BufTy).Contents (Elt F) → (⟨S4x20x64x2048, .f32⟩ : BufTy).Contents (Elt F) → (⟨S4x20x64x2048, .f32⟩ : BufTy).Contents (Elt F)),
    binary main_v201 main_v213 main_v214 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg15_W : List (Ref sig .tc) := [main_v202, main_v203, main_v204, main_cst_31, main_v205, main_v206, main_cst_32, main_v207, main_v208, main_v209, main_v210, main_v211, main_v212, main_v213, main_v214]

theorem seg15_writes : (seg15 : List (HloOp τ sig (Elt F))).Forall fun op => op.writes ⊆ (seg15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg15_keep (W : Valuation τ sig (Elt F)) (r : Ref sig .tc) (h : r ∉ seg15_W) :
    after seg15 W (Proc.devRef .tc r) = W (Proc.devRef .tc r) :=
  after_of_writes_sub seg15 _ seg15_writes h

/-- The group of the offset (3, 1). -/
abbrev seg16 : List (HloOp τ sig (Elt F)) :=
  [ unary main_v4 main_v215 ((extractStridedSlice S4x3x64x2048 ![0, 0, 3, 1] · slices_S4x3x68x2052_S4x3x64x2048_0_0_3_1) : (⟨S4x3x68x2052, .f32⟩ : BufTy).Contents (Elt F) → (⟨S4x3x64x2048, .f32⟩ : BufTy).Contents (Elt F)),
    binary main_v215 main_arg0 main_v216 (subf : (⟨S4x3x64x2048, .f32⟩ : BufTy).Contents (Elt F) → (⟨S4x3x64x2048, .f32⟩ : BufTy).Contents (Elt F) → (⟨S4x3x64x2048, .f32⟩ : BufTy).Contents (Elt F)),
    binary main_v216 main_v216 main_v217 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_33 (constant S_ .f32 0x00000000#32),
    binary main_v217 main_cst_33 main_v218 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v218 main_v219 (Host.negf : (⟨S4x64x2048, .f32⟩ : BufTy).Contents (Elt F) → (⟨S4x64x2048, .f32⟩ : BufTy).Contents (Elt F)),
    nullary main_cst_34 (constant S_ .f32 0x40000000#32),
    unary main_cst_34 main_v220 (broadcastInDim S4x64x2048 ![] bcast_S_S4x64x2048 : (⟨S_, .f32⟩ : BufTy).Contents (Elt F) → (⟨S4x64x2048, .f32⟩ : BufTy).Contents (Elt F)),
    binary main_v219 main_v220 main_v221 (Host.divf : (⟨S4x64x2048, .f32⟩ : BufTy).Contents (Elt F) → (⟨S4x64x2048, .f32⟩ : BufTy).Contents (Elt F) → (⟨S4x64x2048, .f32⟩ : BufTy).Contents (Elt F)),
    unary main_v221 main_v222 (Host.exp : (⟨S4x64x2048, .f32⟩ : BufTy).Contents (Elt F) → (⟨S4x64x2048, .f32⟩ : BufTy).Contents (Elt F)),
    unary main_v222 main_v223 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v224 ((extractStridedSlice S4x20x64x2048 ![0, 0, 3, 1] · slices_S4x20x68x2052_S4x20x64x2048_0_0_3_1) : (⟨S4x20x68x2052, .f32⟩ : BufTy).Contents (Elt F) → (⟨S4x20x64x2048, .f32⟩ : BufTy).Contents (Elt F)),
    unary main_v223 main_v225 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v225 main_v224 main_v226 (mulf : (⟨S4x20x64x2048, .f32⟩ : BufTy).Contents (Elt F) → (⟨S4x20x64x2048, .f32⟩ : BufTy).Contents (Elt F) → (⟨S4x20x64x2048, .f32⟩ : BufTy).Contents (Elt F)),
    binary main_v214 main_v226 main_v227 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg16_W : List (Ref sig .tc) := [main_v215, main_v216, main_v217, main_cst_33, main_v218, main_v219, main_cst_34, main_v220, main_v221, main_v222, main_v223, main_v224, main_v225, main_v226, main_v227]

theorem seg16_writes : (seg16 : List (HloOp τ sig (Elt F))).Forall fun op => op.writes ⊆ (seg16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg16_keep (W : Valuation τ sig (Elt F)) (r : Ref sig .tc) (h : r ∉ seg16_W) :
    after seg16 W (Proc.devRef .tc r) = W (Proc.devRef .tc r) :=
  after_of_writes_sub seg16 _ seg16_writes h

/-- The group of the offset (3, 2). -/
abbrev seg17 : List (HloOp τ sig (Elt F)) :=
  [ unary main_v4 main_v228 ((extractStridedSlice S4x3x64x2048 ![0, 0, 3, 2] · slices_S4x3x68x2052_S4x3x64x2048_0_0_3_2) : (⟨S4x3x68x2052, .f32⟩ : BufTy).Contents (Elt F) → (⟨S4x3x64x2048, .f32⟩ : BufTy).Contents (Elt F)),
    binary main_v228 main_arg0 main_v229 (subf : (⟨S4x3x64x2048, .f32⟩ : BufTy).Contents (Elt F) → (⟨S4x3x64x2048, .f32⟩ : BufTy).Contents (Elt F) → (⟨S4x3x64x2048, .f32⟩ : BufTy).Contents (Elt F)),
    binary main_v229 main_v229 main_v230 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_35 (constant S_ .f32 0x00000000#32),
    binary main_v230 main_cst_35 main_v231 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v231 main_v232 (Host.negf : (⟨S4x64x2048, .f32⟩ : BufTy).Contents (Elt F) → (⟨S4x64x2048, .f32⟩ : BufTy).Contents (Elt F)),
    nullary main_cst_36 (constant S_ .f32 0x40000000#32),
    unary main_cst_36 main_v233 (broadcastInDim S4x64x2048 ![] bcast_S_S4x64x2048 : (⟨S_, .f32⟩ : BufTy).Contents (Elt F) → (⟨S4x64x2048, .f32⟩ : BufTy).Contents (Elt F)),
    binary main_v232 main_v233 main_v234 (Host.divf : (⟨S4x64x2048, .f32⟩ : BufTy).Contents (Elt F) → (⟨S4x64x2048, .f32⟩ : BufTy).Contents (Elt F) → (⟨S4x64x2048, .f32⟩ : BufTy).Contents (Elt F)),
    unary main_v234 main_v235 (Host.exp : (⟨S4x64x2048, .f32⟩ : BufTy).Contents (Elt F) → (⟨S4x64x2048, .f32⟩ : BufTy).Contents (Elt F)),
    unary main_v235 main_v236 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v237 ((extractStridedSlice S4x20x64x2048 ![0, 0, 3, 2] · slices_S4x20x68x2052_S4x20x64x2048_0_0_3_2) : (⟨S4x20x68x2052, .f32⟩ : BufTy).Contents (Elt F) → (⟨S4x20x64x2048, .f32⟩ : BufTy).Contents (Elt F)),
    unary main_v236 main_v238 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v238 main_v237 main_v239 (mulf : (⟨S4x20x64x2048, .f32⟩ : BufTy).Contents (Elt F) → (⟨S4x20x64x2048, .f32⟩ : BufTy).Contents (Elt F) → (⟨S4x20x64x2048, .f32⟩ : BufTy).Contents (Elt F)),
    binary main_v227 main_v239 main_v240 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg17_W : List (Ref sig .tc) := [main_v228, main_v229, main_v230, main_cst_35, main_v231, main_v232, main_cst_36, main_v233, main_v234, main_v235, main_v236, main_v237, main_v238, main_v239, main_v240]

theorem seg17_writes : (seg17 : List (HloOp τ sig (Elt F))).Forall fun op => op.writes ⊆ (seg17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg17_keep (W : Valuation τ sig (Elt F)) (r : Ref sig .tc) (h : r ∉ seg17_W) :
    after seg17 W (Proc.devRef .tc r) = W (Proc.devRef .tc r) :=
  after_of_writes_sub seg17 _ seg17_writes h

/-- The group of the offset (3, 3). -/
abbrev seg18 : List (HloOp τ sig (Elt F)) :=
  [ unary main_v4 main_v241 ((extractStridedSlice S4x3x64x2048 ![0, 0, 3, 3] · slices_S4x3x68x2052_S4x3x64x2048_0_0_3_3) : (⟨S4x3x68x2052, .f32⟩ : BufTy).Contents (Elt F) → (⟨S4x3x64x2048, .f32⟩ : BufTy).Contents (Elt F)),
    binary main_v241 main_arg0 main_v242 (subf : (⟨S4x3x64x2048, .f32⟩ : BufTy).Contents (Elt F) → (⟨S4x3x64x2048, .f32⟩ : BufTy).Contents (Elt F) → (⟨S4x3x64x2048, .f32⟩ : BufTy).Contents (Elt F)),
    binary main_v242 main_v242 main_v243 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_37 (constant S_ .f32 0x00000000#32),
    binary main_v243 main_cst_37 main_v244 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v244 main_v245 (Host.negf : (⟨S4x64x2048, .f32⟩ : BufTy).Contents (Elt F) → (⟨S4x64x2048, .f32⟩ : BufTy).Contents (Elt F)),
    nullary main_cst_38 (constant S_ .f32 0x40000000#32),
    unary main_cst_38 main_v246 (broadcastInDim S4x64x2048 ![] bcast_S_S4x64x2048 : (⟨S_, .f32⟩ : BufTy).Contents (Elt F) → (⟨S4x64x2048, .f32⟩ : BufTy).Contents (Elt F)),
    binary main_v245 main_v246 main_v247 (Host.divf : (⟨S4x64x2048, .f32⟩ : BufTy).Contents (Elt F) → (⟨S4x64x2048, .f32⟩ : BufTy).Contents (Elt F) → (⟨S4x64x2048, .f32⟩ : BufTy).Contents (Elt F)),
    unary main_v247 main_v248 (Host.exp : (⟨S4x64x2048, .f32⟩ : BufTy).Contents (Elt F) → (⟨S4x64x2048, .f32⟩ : BufTy).Contents (Elt F)),
    unary main_v248 main_v249 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v250 ((extractStridedSlice S4x20x64x2048 ![0, 0, 3, 3] · slices_S4x20x68x2052_S4x20x64x2048_0_0_3_3) : (⟨S4x20x68x2052, .f32⟩ : BufTy).Contents (Elt F) → (⟨S4x20x64x2048, .f32⟩ : BufTy).Contents (Elt F)),
    unary main_v249 main_v251 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v251 main_v250 main_v252 (mulf : (⟨S4x20x64x2048, .f32⟩ : BufTy).Contents (Elt F) → (⟨S4x20x64x2048, .f32⟩ : BufTy).Contents (Elt F) → (⟨S4x20x64x2048, .f32⟩ : BufTy).Contents (Elt F)),
    binary main_v240 main_v252 main_v253 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg18_W : List (Ref sig .tc) := [main_v241, main_v242, main_v243, main_cst_37, main_v244, main_v245, main_cst_38, main_v246, main_v247, main_v248, main_v249, main_v250, main_v251, main_v252, main_v253]

theorem seg18_writes : (seg18 : List (HloOp τ sig (Elt F))).Forall fun op => op.writes ⊆ (seg18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg18_keep (W : Valuation τ sig (Elt F)) (r : Ref sig .tc) (h : r ∉ seg18_W) :
    after seg18 W (Proc.devRef .tc r) = W (Proc.devRef .tc r) :=
  after_of_writes_sub seg18 _ seg18_writes h

/-- The group of the offset (3, 4). -/
abbrev seg19 : List (HloOp τ sig (Elt F)) :=
  [ unary main_v4 main_v254 ((extractStridedSlice S4x3x64x2048 ![0, 0, 3, 4] · slices_S4x3x68x2052_S4x3x64x2048_0_0_3_4) : (⟨S4x3x68x2052, .f32⟩ : BufTy).Contents (Elt F) → (⟨S4x3x64x2048, .f32⟩ : BufTy).Contents (Elt F)),
    binary main_v254 main_arg0 main_v255 (subf : (⟨S4x3x64x2048, .f32⟩ : BufTy).Contents (Elt F) → (⟨S4x3x64x2048, .f32⟩ : BufTy).Contents (Elt F) → (⟨S4x3x64x2048, .f32⟩ : BufTy).Contents (Elt F)),
    binary main_v255 main_v255 main_v256 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_39 (constant S_ .f32 0x00000000#32),
    binary main_v256 main_cst_39 main_v257 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v257 main_v258 (Host.negf : (⟨S4x64x2048, .f32⟩ : BufTy).Contents (Elt F) → (⟨S4x64x2048, .f32⟩ : BufTy).Contents (Elt F)),
    nullary main_cst_40 (constant S_ .f32 0x40000000#32),
    unary main_cst_40 main_v259 (broadcastInDim S4x64x2048 ![] bcast_S_S4x64x2048 : (⟨S_, .f32⟩ : BufTy).Contents (Elt F) → (⟨S4x64x2048, .f32⟩ : BufTy).Contents (Elt F)),
    binary main_v258 main_v259 main_v260 (Host.divf : (⟨S4x64x2048, .f32⟩ : BufTy).Contents (Elt F) → (⟨S4x64x2048, .f32⟩ : BufTy).Contents (Elt F) → (⟨S4x64x2048, .f32⟩ : BufTy).Contents (Elt F)),
    unary main_v260 main_v261 (Host.exp : (⟨S4x64x2048, .f32⟩ : BufTy).Contents (Elt F) → (⟨S4x64x2048, .f32⟩ : BufTy).Contents (Elt F)),
    unary main_v261 main_v262 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v263 ((extractStridedSlice S4x20x64x2048 ![0, 0, 3, 4] · slices_S4x20x68x2052_S4x20x64x2048_0_0_3_4) : (⟨S4x20x68x2052, .f32⟩ : BufTy).Contents (Elt F) → (⟨S4x20x64x2048, .f32⟩ : BufTy).Contents (Elt F)),
    unary main_v262 main_v264 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v264 main_v263 main_v265 (mulf : (⟨S4x20x64x2048, .f32⟩ : BufTy).Contents (Elt F) → (⟨S4x20x64x2048, .f32⟩ : BufTy).Contents (Elt F) → (⟨S4x20x64x2048, .f32⟩ : BufTy).Contents (Elt F)),
    binary main_v253 main_v265 main_v266 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg19_W : List (Ref sig .tc) := [main_v254, main_v255, main_v256, main_cst_39, main_v257, main_v258, main_cst_40, main_v259, main_v260, main_v261, main_v262, main_v263, main_v264, main_v265, main_v266]

theorem seg19_writes : (seg19 : List (HloOp τ sig (Elt F))).Forall fun op => op.writes ⊆ (seg19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg19_keep (W : Valuation τ sig (Elt F)) (r : Ref sig .tc) (h : r ∉ seg19_W) :
    after seg19 W (Proc.devRef .tc r) = W (Proc.devRef .tc r) :=
  after_of_writes_sub seg19 _ seg19_writes h

/-- The group of the offset (4, 0). -/
abbrev seg20 : List (HloOp τ sig (Elt F)) :=
  [ unary main_v4 main_v267 ((extractStridedSlice S4x3x64x2048 ![0, 0, 4, 0] · slices_S4x3x68x2052_S4x3x64x2048_0_0_4_0) : (⟨S4x3x68x2052, .f32⟩ : BufTy).Contents (Elt F) → (⟨S4x3x64x2048, .f32⟩ : BufTy).Contents (Elt F)),
    binary main_v267 main_arg0 main_v268 (subf : (⟨S4x3x64x2048, .f32⟩ : BufTy).Contents (Elt F) → (⟨S4x3x64x2048, .f32⟩ : BufTy).Contents (Elt F) → (⟨S4x3x64x2048, .f32⟩ : BufTy).Contents (Elt F)),
    binary main_v268 main_v268 main_v269 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_41 (constant S_ .f32 0x00000000#32),
    binary main_v269 main_cst_41 main_v270 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v270 main_v271 (Host.negf : (⟨S4x64x2048, .f32⟩ : BufTy).Contents (Elt F) → (⟨S4x64x2048, .f32⟩ : BufTy).Contents (Elt F)),
    nullary main_cst_42 (constant S_ .f32 0x40000000#32),
    unary main_cst_42 main_v272 (broadcastInDim S4x64x2048 ![] bcast_S_S4x64x2048 : (⟨S_, .f32⟩ : BufTy).Contents (Elt F) → (⟨S4x64x2048, .f32⟩ : BufTy).Contents (Elt F)),
    binary main_v271 main_v272 main_v273 (Host.divf : (⟨S4x64x2048, .f32⟩ : BufTy).Contents (Elt F) → (⟨S4x64x2048, .f32⟩ : BufTy).Contents (Elt F) → (⟨S4x64x2048, .f32⟩ : BufTy).Contents (Elt F)),
    unary main_v273 main_v274 (Host.exp : (⟨S4x64x2048, .f32⟩ : BufTy).Contents (Elt F) → (⟨S4x64x2048, .f32⟩ : BufTy).Contents (Elt F)),
    unary main_v274 main_v275 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v276 ((extractStridedSlice S4x20x64x2048 ![0, 0, 4, 0] · slices_S4x20x68x2052_S4x20x64x2048_0_0_4_0) : (⟨S4x20x68x2052, .f32⟩ : BufTy).Contents (Elt F) → (⟨S4x20x64x2048, .f32⟩ : BufTy).Contents (Elt F)),
    unary main_v275 main_v277 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v277 main_v276 main_v278 (mulf : (⟨S4x20x64x2048, .f32⟩ : BufTy).Contents (Elt F) → (⟨S4x20x64x2048, .f32⟩ : BufTy).Contents (Elt F) → (⟨S4x20x64x2048, .f32⟩ : BufTy).Contents (Elt F)),
    binary main_v266 main_v278 main_v279 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg20_W : List (Ref sig .tc) := [main_v267, main_v268, main_v269, main_cst_41, main_v270, main_v271, main_cst_42, main_v272, main_v273, main_v274, main_v275, main_v276, main_v277, main_v278, main_v279]

theorem seg20_writes : (seg20 : List (HloOp τ sig (Elt F))).Forall fun op => op.writes ⊆ (seg20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg20_keep (W : Valuation τ sig (Elt F)) (r : Ref sig .tc) (h : r ∉ seg20_W) :
    after seg20 W (Proc.devRef .tc r) = W (Proc.devRef .tc r) :=
  after_of_writes_sub seg20 _ seg20_writes h

/-- The group of the offset (4, 1). -/
abbrev seg21 : List (HloOp τ sig (Elt F)) :=
  [ unary main_v4 main_v280 ((extractStridedSlice S4x3x64x2048 ![0, 0, 4, 1] · slices_S4x3x68x2052_S4x3x64x2048_0_0_4_1) : (⟨S4x3x68x2052, .f32⟩ : BufTy).Contents (Elt F) → (⟨S4x3x64x2048, .f32⟩ : BufTy).Contents (Elt F)),
    binary main_v280 main_arg0 main_v281 (subf : (⟨S4x3x64x2048, .f32⟩ : BufTy).Contents (Elt F) → (⟨S4x3x64x2048, .f32⟩ : BufTy).Contents (Elt F) → (⟨S4x3x64x2048, .f32⟩ : BufTy).Contents (Elt F)),
    binary main_v281 main_v281 main_v282 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_43 (constant S_ .f32 0x00000000#32),
    binary main_v282 main_cst_43 main_v283 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v283 main_v284 (Host.negf : (⟨S4x64x2048, .f32⟩ : BufTy).Contents (Elt F) → (⟨S4x64x2048, .f32⟩ : BufTy).Contents (Elt F)),
    nullary main_cst_44 (constant S_ .f32 0x40000000#32),
    unary main_cst_44 main_v285 (broadcastInDim S4x64x2048 ![] bcast_S_S4x64x2048 : (⟨S_, .f32⟩ : BufTy).Contents (Elt F) → (⟨S4x64x2048, .f32⟩ : BufTy).Contents (Elt F)),
    binary main_v284 main_v285 main_v286 (Host.divf : (⟨S4x64x2048, .f32⟩ : BufTy).Contents (Elt F) → (⟨S4x64x2048, .f32⟩ : BufTy).Contents (Elt F) → (⟨S4x64x2048, .f32⟩ : BufTy).Contents (Elt F)),
    unary main_v286 main_v287 (Host.exp : (⟨S4x64x2048, .f32⟩ : BufTy).Contents (Elt F) → (⟨S4x64x2048, .f32⟩ : BufTy).Contents (Elt F)),
    unary main_v287 main_v288 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v289 ((extractStridedSlice S4x20x64x2048 ![0, 0, 4, 1] · slices_S4x20x68x2052_S4x20x64x2048_0_0_4_1) : (⟨S4x20x68x2052, .f32⟩ : BufTy).Contents (Elt F) → (⟨S4x20x64x2048, .f32⟩ : BufTy).Contents (Elt F)),
    unary main_v288 main_v290 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v290 main_v289 main_v291 (mulf : (⟨S4x20x64x2048, .f32⟩ : BufTy).Contents (Elt F) → (⟨S4x20x64x2048, .f32⟩ : BufTy).Contents (Elt F) → (⟨S4x20x64x2048, .f32⟩ : BufTy).Contents (Elt F)),
    binary main_v279 main_v291 main_v292 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg21_W : List (Ref sig .tc) := [main_v280, main_v281, main_v282, main_cst_43, main_v283, main_v284, main_cst_44, main_v285, main_v286, main_v287, main_v288, main_v289, main_v290, main_v291, main_v292]

theorem seg21_writes : (seg21 : List (HloOp τ sig (Elt F))).Forall fun op => op.writes ⊆ (seg21_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg21_keep (W : Valuation τ sig (Elt F)) (r : Ref sig .tc) (h : r ∉ seg21_W) :
    after seg21 W (Proc.devRef .tc r) = W (Proc.devRef .tc r) :=
  after_of_writes_sub seg21 _ seg21_writes h

/-- The group of the offset (4, 2). -/
abbrev seg22 : List (HloOp τ sig (Elt F)) :=
  [ unary main_v4 main_v293 ((extractStridedSlice S4x3x64x2048 ![0, 0, 4, 2] · slices_S4x3x68x2052_S4x3x64x2048_0_0_4_2) : (⟨S4x3x68x2052, .f32⟩ : BufTy).Contents (Elt F) → (⟨S4x3x64x2048, .f32⟩ : BufTy).Contents (Elt F)),
    binary main_v293 main_arg0 main_v294 (subf : (⟨S4x3x64x2048, .f32⟩ : BufTy).Contents (Elt F) → (⟨S4x3x64x2048, .f32⟩ : BufTy).Contents (Elt F) → (⟨S4x3x64x2048, .f32⟩ : BufTy).Contents (Elt F)),
    binary main_v294 main_v294 main_v295 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_45 (constant S_ .f32 0x00000000#32),
    binary main_v295 main_cst_45 main_v296 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v296 main_v297 (Host.negf : (⟨S4x64x2048, .f32⟩ : BufTy).Contents (Elt F) → (⟨S4x64x2048, .f32⟩ : BufTy).Contents (Elt F)),
    nullary main_cst_46 (constant S_ .f32 0x40000000#32),
    unary main_cst_46 main_v298 (broadcastInDim S4x64x2048 ![] bcast_S_S4x64x2048 : (⟨S_, .f32⟩ : BufTy).Contents (Elt F) → (⟨S4x64x2048, .f32⟩ : BufTy).Contents (Elt F)),
    binary main_v297 main_v298 main_v299 (Host.divf : (⟨S4x64x2048, .f32⟩ : BufTy).Contents (Elt F) → (⟨S4x64x2048, .f32⟩ : BufTy).Contents (Elt F) → (⟨S4x64x2048, .f32⟩ : BufTy).Contents (Elt F)),
    unary main_v299 main_v300 (Host.exp : (⟨S4x64x2048, .f32⟩ : BufTy).Contents (Elt F) → (⟨S4x64x2048, .f32⟩ : BufTy).Contents (Elt F)),
    unary main_v300 main_v301 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v302 ((extractStridedSlice S4x20x64x2048 ![0, 0, 4, 2] · slices_S4x20x68x2052_S4x20x64x2048_0_0_4_2) : (⟨S4x20x68x2052, .f32⟩ : BufTy).Contents (Elt F) → (⟨S4x20x64x2048, .f32⟩ : BufTy).Contents (Elt F)),
    unary main_v301 main_v303 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v303 main_v302 main_v304 (mulf : (⟨S4x20x64x2048, .f32⟩ : BufTy).Contents (Elt F) → (⟨S4x20x64x2048, .f32⟩ : BufTy).Contents (Elt F) → (⟨S4x20x64x2048, .f32⟩ : BufTy).Contents (Elt F)),
    binary main_v292 main_v304 main_v305 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg22_W : List (Ref sig .tc) := [main_v293, main_v294, main_v295, main_cst_45, main_v296, main_v297, main_cst_46, main_v298, main_v299, main_v300, main_v301, main_v302, main_v303, main_v304, main_v305]

theorem seg22_writes : (seg22 : List (HloOp τ sig (Elt F))).Forall fun op => op.writes ⊆ (seg22_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg22_keep (W : Valuation τ sig (Elt F)) (r : Ref sig .tc) (h : r ∉ seg22_W) :
    after seg22 W (Proc.devRef .tc r) = W (Proc.devRef .tc r) :=
  after_of_writes_sub seg22 _ seg22_writes h

/-- The group of the offset (4, 3). -/
abbrev seg23 : List (HloOp τ sig (Elt F)) :=
  [ unary main_v4 main_v306 ((extractStridedSlice S4x3x64x2048 ![0, 0, 4, 3] · slices_S4x3x68x2052_S4x3x64x2048_0_0_4_3) : (⟨S4x3x68x2052, .f32⟩ : BufTy).Contents (Elt F) → (⟨S4x3x64x2048, .f32⟩ : BufTy).Contents (Elt F)),
    binary main_v306 main_arg0 main_v307 (subf : (⟨S4x3x64x2048, .f32⟩ : BufTy).Contents (Elt F) → (⟨S4x3x64x2048, .f32⟩ : BufTy).Contents (Elt F) → (⟨S4x3x64x2048, .f32⟩ : BufTy).Contents (Elt F)),
    binary main_v307 main_v307 main_v308 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_47 (constant S_ .f32 0x00000000#32),
    binary main_v308 main_cst_47 main_v309 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v309 main_v310 (Host.negf : (⟨S4x64x2048, .f32⟩ : BufTy).Contents (Elt F) → (⟨S4x64x2048, .f32⟩ : BufTy).Contents (Elt F)),
    nullary main_cst_48 (constant S_ .f32 0x40000000#32),
    unary main_cst_48 main_v311 (broadcastInDim S4x64x2048 ![] bcast_S_S4x64x2048 : (⟨S_, .f32⟩ : BufTy).Contents (Elt F) → (⟨S4x64x2048, .f32⟩ : BufTy).Contents (Elt F)),
    binary main_v310 main_v311 main_v312 (Host.divf : (⟨S4x64x2048, .f32⟩ : BufTy).Contents (Elt F) → (⟨S4x64x2048, .f32⟩ : BufTy).Contents (Elt F) → (⟨S4x64x2048, .f32⟩ : BufTy).Contents (Elt F)),
    unary main_v312 main_v313 (Host.exp : (⟨S4x64x2048, .f32⟩ : BufTy).Contents (Elt F) → (⟨S4x64x2048, .f32⟩ : BufTy).Contents (Elt F)),
    unary main_v313 main_v314 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v315 ((extractStridedSlice S4x20x64x2048 ![0, 0, 4, 3] · slices_S4x20x68x2052_S4x20x64x2048_0_0_4_3) : (⟨S4x20x68x2052, .f32⟩ : BufTy).Contents (Elt F) → (⟨S4x20x64x2048, .f32⟩ : BufTy).Contents (Elt F)),
    unary main_v314 main_v316 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v316 main_v315 main_v317 (mulf : (⟨S4x20x64x2048, .f32⟩ : BufTy).Contents (Elt F) → (⟨S4x20x64x2048, .f32⟩ : BufTy).Contents (Elt F) → (⟨S4x20x64x2048, .f32⟩ : BufTy).Contents (Elt F)),
    binary main_v305 main_v317 main_v318 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg23_W : List (Ref sig .tc) := [main_v306, main_v307, main_v308, main_cst_47, main_v309, main_v310, main_cst_48, main_v311, main_v312, main_v313, main_v314, main_v315, main_v316, main_v317, main_v318]

theorem seg23_writes : (seg23 : List (HloOp τ sig (Elt F))).Forall fun op => op.writes ⊆ (seg23_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg23_keep (W : Valuation τ sig (Elt F)) (r : Ref sig .tc) (h : r ∉ seg23_W) :
    after seg23 W (Proc.devRef .tc r) = W (Proc.devRef .tc r) :=
  after_of_writes_sub seg23 _ seg23_writes h

/-- The group of the offset (4, 4). -/
abbrev seg24 : List (HloOp τ sig (Elt F)) :=
  [ unary main_v4 main_v319 ((extractStridedSlice S4x3x64x2048 ![0, 0, 4, 4] · slices_S4x3x68x2052_S4x3x64x2048_0_0_4_4) : (⟨S4x3x68x2052, .f32⟩ : BufTy).Contents (Elt F) → (⟨S4x3x64x2048, .f32⟩ : BufTy).Contents (Elt F)),
    binary main_v319 main_arg0 main_v320 (subf : (⟨S4x3x64x2048, .f32⟩ : BufTy).Contents (Elt F) → (⟨S4x3x64x2048, .f32⟩ : BufTy).Contents (Elt F) → (⟨S4x3x64x2048, .f32⟩ : BufTy).Contents (Elt F)),
    binary main_v320 main_v320 main_v321 (mulf : (⟨S4x3x64x2048, .f32⟩ : BufTy).Contents (Elt F) → (⟨S4x3x64x2048, .f32⟩ : BufTy).Contents (Elt F) → (⟨S4x3x64x2048, .f32⟩ : BufTy).Contents (Elt F)),
    nullary main_cst_49 (constant S_ .f32 0x00000000#32),
    binary main_v321 main_cst_49 main_v322 ((fun x v => Host.reduceAdd x v reducesTo_S4x3x64x2048_S4x64x2048_d1 h_S_) : (⟨S4x3x64x2048, .f32⟩ : BufTy).Contents (Elt F) → (⟨S_, .f32⟩ : BufTy).Contents (Elt F) → (⟨S4x64x2048, .f32⟩ : BufTy).Contents (Elt F)),
    unary main_v322 main_v323 (Host.negf : (⟨S4x64x2048, .f32⟩ : BufTy).Contents (Elt F) → (⟨S4x64x2048, .f32⟩ : BufTy).Contents (Elt F)),
    nullary main_cst_50 (constant S_ .f32 0x40000000#32),
    unary main_cst_50 main_v324 (broadcastInDim S4x64x2048 ![] bcast_S_S4x64x2048 : (⟨S_, .f32⟩ : BufTy).Contents (Elt F) → (⟨S4x64x2048, .f32⟩ : BufTy).Contents (Elt F)),
    binary main_v323 main_v324 main_v325 (Host.divf : (⟨S4x64x2048, .f32⟩ : BufTy).Contents (Elt F) → (⟨S4x64x2048, .f32⟩ : BufTy).Contents (Elt F) → (⟨S4x64x2048, .f32⟩ : BufTy).Contents (Elt F)),
    unary main_v325 main_v326 (Host.exp : (⟨S4x64x2048, .f32⟩ : BufTy).Contents (Elt F) → (⟨S4x64x2048, .f32⟩ : BufTy).Contents (Elt F)),
    unary main_v326 main_v327 (broadcastInDim S4x1x64x2048 ![0, 2, 3] bcast_S4x64x2048_S4x1x64x2048_0_2_3 : (⟨S4x64x2048, .f32⟩ : BufTy).Contents (Elt F) → (⟨S4x1x64x2048, .f32⟩ : BufTy).Contents (Elt F)),
    unary main_v5 main_v328 ((extractStridedSlice S4x20x64x2048 ![0, 0, 4, 4] · slices_S4x20x68x2052_S4x20x64x2048_0_0_4_4) : (⟨S4x20x68x2052, .f32⟩ : BufTy).Contents (Elt F) → (⟨S4x20x64x2048, .f32⟩ : BufTy).Contents (Elt F)),
    unary main_v327 main_v329 (broadcastInDim S4x20x64x2048 ![0, 1, 2, 3] bcast_S4x1x64x2048_S4x20x64x2048_0_1_2_3 : (⟨S4x1x64x2048, .f32⟩ : BufTy).Contents (Elt F) → (⟨S4x20x64x2048, .f32⟩ : BufTy).Contents (Elt F)),
    binary main_v329 main_v328 main_v330 (mulf : (⟨S4x20x64x2048, .f32⟩ : BufTy).Contents (Elt F) → (⟨S4x20x64x2048, .f32⟩ : BufTy).Contents (Elt F) → (⟨S4x20x64x2048, .f32⟩ : BufTy).Contents (Elt F)),
    binary main_v318 main_v330 main_v331 (addf : (⟨S4x20x64x2048, .f32⟩ : BufTy).Contents (Elt F) → (⟨S4x20x64x2048, .f32⟩ : BufTy).Contents (Elt F) → (⟨S4x20x64x2048, .f32⟩ : BufTy).Contents (Elt F)) ]

/-- The buffers it writes. -/
abbrev seg24_W : List (Ref sig .tc) := [main_v319, main_v320, main_v321, main_cst_49, main_v322, main_v323, main_cst_50, main_v324, main_v325, main_v326, main_v327, main_v328, main_v329, main_v330, main_v331]

theorem seg24_writes : (seg24 : List (HloOp τ sig (Elt F))).Forall fun op => op.writes ⊆ (seg24_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer it does not write keeps its contents. -/
theorem seg24_keep (W : Valuation τ sig (Elt F)) (r : Ref sig .tc) (h : r ∉ seg24_W) :
    after seg24 W (Proc.devRef .tc r) = W (Proc.devRef .tc r) :=
  after_of_writes_sub seg24 _ seg24_writes h

/-- The operations, regrouped. -/
theorem ops_regroup : (ops : List (HloOp τ sig (Elt F))) = opsPre ++ (seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22 ++ (seg23 ++ (seg24))))))))))))))))))))))))) := rfl

/-- After the prologue: the padded coordinates, the padded masked classes and the zero array are in place, the
    arguments as they were. -/
theorem pre_vals (V : Valuation τ sig (Elt F)) :
    after opsPre V (Proc.devRef .tc main_v4) = padX (V (Proc.devRef .tc main_arg0))
    ∧ after opsPre V (Proc.devRef .tc main_arg0) = V (Proc.devRef .tc main_arg0)
    ∧ after opsPre V (Proc.devRef .tc main_arg1) = V (Proc.devRef .tc main_arg1)
    ∧ after opsPre V (Proc.devRef .tc main_arg2) = V (Proc.devRef .tc main_arg2)
    ∧ after opsPre V (Proc.devRef .tc main_v5) = padS (V (Proc.devRef .tc main_arg1)) (V (Proc.devRef .tc main_arg2))
    ∧ after opsPre V (Proc.devRef .tc main_v6) = acc0 := by
  refine ⟨?_, opsPre_keep V main_arg0 (by decide), opsPre_keep V main_arg1 (by decide), opsPre_keep V main_arg2 (by decide), ?_, ?_⟩
  all_goals simp only [opsPre]
  all_goals after_results_simp
  all_goals rfl

/-- The group of the offset (0, 0) applies the update to the running sum. -/
theorem seg0_acc (W : Valuation τ sig (Elt F)) :
    after seg0 W (Proc.devRef .tc main_v19) = refStep ![0, 0, 0, 0] slices_S4x3x68x2052_S4x3x64x2048_0_0_0_0 slices_S4x20x68x2052_S4x20x64x2048_0_0_0_0
        (W (Proc.devRef .tc main_v4)) (W (Proc.devRef .tc main_arg0)) (W (Proc.devRef .tc main_v5)) (W (Proc.devRef .tc main_v6)) := by
  simp only [seg0]
  after_results_simp
  all_goals rfl

theorem seg0_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v6) = A) :
    after seg0 W (Proc.devRef .tc main_v4) = padX x0 ∧ after seg0 W (Proc.devRef .tc main_arg0) = x0
      ∧ after seg0 W (Proc.devRef .tc main_arg1) = x1 ∧ after seg0 W (Proc.devRef .tc main_arg2) = x2
      ∧ after seg0 W (Proc.devRef .tc main_v5) = padS x1 x2
      ∧ after seg0 W (Proc.devRef .tc main_v19) = refStep ![0, 0, 0, 0] slices_S4x3x68x2052_S4x3x64x2048_0_0_0_0 slices_S4x20x68x2052_S4x20x64x2048_0_0_0_0 (padX x0) x0 (padS x1 x2) A := by
  obtain ⟨h4, ha0, ha1, ha2, h5, hacc⟩ := h
  exact ⟨(seg0_keep W main_v4 (by decide)).trans h4, (seg0_keep W main_arg0 (by decide)).trans ha0,
    (seg0_keep W main_arg1 (by decide)).trans ha1, (seg0_keep W main_arg2 (by decide)).trans ha2,
    (seg0_keep W main_v5 (by decide)).trans h5, by rw [seg0_acc, h4, ha0, h5, hacc]⟩

/-- The group of the offset (0, 1) applies the update to the running sum. -/
theorem seg1_acc (W : Valuation τ sig (Elt F)) :
    after seg1 W (Proc.devRef .tc main_v32) = refStep ![0, 0, 0, 1] slices_S4x3x68x2052_S4x3x64x2048_0_0_0_1 slices_S4x20x68x2052_S4x20x64x2048_0_0_0_1
        (W (Proc.devRef .tc main_v4)) (W (Proc.devRef .tc main_arg0)) (W (Proc.devRef .tc main_v5)) (W (Proc.devRef .tc main_v19)) := by
  simp only [seg1]
  after_results_simp
  all_goals rfl

theorem seg1_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v19) = A) :
    after seg1 W (Proc.devRef .tc main_v4) = padX x0 ∧ after seg1 W (Proc.devRef .tc main_arg0) = x0
      ∧ after seg1 W (Proc.devRef .tc main_arg1) = x1 ∧ after seg1 W (Proc.devRef .tc main_arg2) = x2
      ∧ after seg1 W (Proc.devRef .tc main_v5) = padS x1 x2
      ∧ after seg1 W (Proc.devRef .tc main_v32) = refStep ![0, 0, 0, 1] slices_S4x3x68x2052_S4x3x64x2048_0_0_0_1 slices_S4x20x68x2052_S4x20x64x2048_0_0_0_1 (padX x0) x0 (padS x1 x2) A := by
  obtain ⟨h4, ha0, ha1, ha2, h5, hacc⟩ := h
  exact ⟨(seg1_keep W main_v4 (by decide)).trans h4, (seg1_keep W main_arg0 (by decide)).trans ha0,
    (seg1_keep W main_arg1 (by decide)).trans ha1, (seg1_keep W main_arg2 (by decide)).trans ha2,
    (seg1_keep W main_v5 (by decide)).trans h5, by rw [seg1_acc, h4, ha0, h5, hacc]⟩

/-- The group of the offset (0, 2) applies the update to the running sum. -/
theorem seg2_acc (W : Valuation τ sig (Elt F)) :
    after seg2 W (Proc.devRef .tc main_v45) = refStep ![0, 0, 0, 2] slices_S4x3x68x2052_S4x3x64x2048_0_0_0_2 slices_S4x20x68x2052_S4x20x64x2048_0_0_0_2
        (W (Proc.devRef .tc main_v4)) (W (Proc.devRef .tc main_arg0)) (W (Proc.devRef .tc main_v5)) (W (Proc.devRef .tc main_v32)) := by
  simp only [seg2]
  after_results_simp
  all_goals rfl

theorem seg2_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v32) = A) :
    after seg2 W (Proc.devRef .tc main_v4) = padX x0 ∧ after seg2 W (Proc.devRef .tc main_arg0) = x0
      ∧ after seg2 W (Proc.devRef .tc main_arg1) = x1 ∧ after seg2 W (Proc.devRef .tc main_arg2) = x2
      ∧ after seg2 W (Proc.devRef .tc main_v5) = padS x1 x2
      ∧ after seg2 W (Proc.devRef .tc main_v45) = refStep ![0, 0, 0, 2] slices_S4x3x68x2052_S4x3x64x2048_0_0_0_2 slices_S4x20x68x2052_S4x20x64x2048_0_0_0_2 (padX x0) x0 (padS x1 x2) A := by
  obtain ⟨h4, ha0, ha1, ha2, h5, hacc⟩ := h
  exact ⟨(seg2_keep W main_v4 (by decide)).trans h4, (seg2_keep W main_arg0 (by decide)).trans ha0,
    (seg2_keep W main_arg1 (by decide)).trans ha1, (seg2_keep W main_arg2 (by decide)).trans ha2,
    (seg2_keep W main_v5 (by decide)).trans h5, by rw [seg2_acc, h4, ha0, h5, hacc]⟩

/-- The group of the offset (0, 3) applies the update to the running sum. -/
theorem seg3_acc (W : Valuation τ sig (Elt F)) :
    after seg3 W (Proc.devRef .tc main_v58) = refStep ![0, 0, 0, 3] slices_S4x3x68x2052_S4x3x64x2048_0_0_0_3 slices_S4x20x68x2052_S4x20x64x2048_0_0_0_3
        (W (Proc.devRef .tc main_v4)) (W (Proc.devRef .tc main_arg0)) (W (Proc.devRef .tc main_v5)) (W (Proc.devRef .tc main_v45)) := by
  simp only [seg3]
  after_results_simp
  all_goals rfl

theorem seg3_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v45) = A) :
    after seg3 W (Proc.devRef .tc main_v4) = padX x0 ∧ after seg3 W (Proc.devRef .tc main_arg0) = x0
      ∧ after seg3 W (Proc.devRef .tc main_arg1) = x1 ∧ after seg3 W (Proc.devRef .tc main_arg2) = x2
      ∧ after seg3 W (Proc.devRef .tc main_v5) = padS x1 x2
      ∧ after seg3 W (Proc.devRef .tc main_v58) = refStep ![0, 0, 0, 3] slices_S4x3x68x2052_S4x3x64x2048_0_0_0_3 slices_S4x20x68x2052_S4x20x64x2048_0_0_0_3 (padX x0) x0 (padS x1 x2) A := by
  obtain ⟨h4, ha0, ha1, ha2, h5, hacc⟩ := h
  exact ⟨(seg3_keep W main_v4 (by decide)).trans h4, (seg3_keep W main_arg0 (by decide)).trans ha0,
    (seg3_keep W main_arg1 (by decide)).trans ha1, (seg3_keep W main_arg2 (by decide)).trans ha2,
    (seg3_keep W main_v5 (by decide)).trans h5, by rw [seg3_acc, h4, ha0, h5, hacc]⟩

/-- The group of the offset (0, 4) applies the update to the running sum. -/
theorem seg4_acc (W : Valuation τ sig (Elt F)) :
    after seg4 W (Proc.devRef .tc main_v71) = refStep ![0, 0, 0, 4] slices_S4x3x68x2052_S4x3x64x2048_0_0_0_4 slices_S4x20x68x2052_S4x20x64x2048_0_0_0_4
        (W (Proc.devRef .tc main_v4)) (W (Proc.devRef .tc main_arg0)) (W (Proc.devRef .tc main_v5)) (W (Proc.devRef .tc main_v58)) := by
  simp only [seg4]
  after_results_simp
  all_goals rfl

theorem seg4_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v58) = A) :
    after seg4 W (Proc.devRef .tc main_v4) = padX x0 ∧ after seg4 W (Proc.devRef .tc main_arg0) = x0
      ∧ after seg4 W (Proc.devRef .tc main_arg1) = x1 ∧ after seg4 W (Proc.devRef .tc main_arg2) = x2
      ∧ after seg4 W (Proc.devRef .tc main_v5) = padS x1 x2
      ∧ after seg4 W (Proc.devRef .tc main_v71) = refStep ![0, 0, 0, 4] slices_S4x3x68x2052_S4x3x64x2048_0_0_0_4 slices_S4x20x68x2052_S4x20x64x2048_0_0_0_4 (padX x0) x0 (padS x1 x2) A := by
  obtain ⟨h4, ha0, ha1, ha2, h5, hacc⟩ := h
  exact ⟨(seg4_keep W main_v4 (by decide)).trans h4, (seg4_keep W main_arg0 (by decide)).trans ha0,
    (seg4_keep W main_arg1 (by decide)).trans ha1, (seg4_keep W main_arg2 (by decide)).trans ha2,
    (seg4_keep W main_v5 (by decide)).trans h5, by rw [seg4_acc, h4, ha0, h5, hacc]⟩

/-- The group of the offset (1, 0) applies the update to the running sum. -/
theorem seg5_acc (W : Valuation τ sig (Elt F)) :
    after seg5 W (Proc.devRef .tc main_v84) = refStep ![0, 0, 1, 0] slices_S4x3x68x2052_S4x3x64x2048_0_0_1_0 slices_S4x20x68x2052_S4x20x64x2048_0_0_1_0
        (W (Proc.devRef .tc main_v4)) (W (Proc.devRef .tc main_arg0)) (W (Proc.devRef .tc main_v5)) (W (Proc.devRef .tc main_v71)) := by
  simp only [seg5]
  after_results_simp
  all_goals rfl

theorem seg5_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v71) = A) :
    after seg5 W (Proc.devRef .tc main_v4) = padX x0 ∧ after seg5 W (Proc.devRef .tc main_arg0) = x0
      ∧ after seg5 W (Proc.devRef .tc main_arg1) = x1 ∧ after seg5 W (Proc.devRef .tc main_arg2) = x2
      ∧ after seg5 W (Proc.devRef .tc main_v5) = padS x1 x2
      ∧ after seg5 W (Proc.devRef .tc main_v84) = refStep ![0, 0, 1, 0] slices_S4x3x68x2052_S4x3x64x2048_0_0_1_0 slices_S4x20x68x2052_S4x20x64x2048_0_0_1_0 (padX x0) x0 (padS x1 x2) A := by
  obtain ⟨h4, ha0, ha1, ha2, h5, hacc⟩ := h
  exact ⟨(seg5_keep W main_v4 (by decide)).trans h4, (seg5_keep W main_arg0 (by decide)).trans ha0,
    (seg5_keep W main_arg1 (by decide)).trans ha1, (seg5_keep W main_arg2 (by decide)).trans ha2,
    (seg5_keep W main_v5 (by decide)).trans h5, by rw [seg5_acc, h4, ha0, h5, hacc]⟩

/-- The group of the offset (1, 1) applies the update to the running sum. -/
theorem seg6_acc (W : Valuation τ sig (Elt F)) :
    after seg6 W (Proc.devRef .tc main_v97) = refStep ![0, 0, 1, 1] slices_S4x3x68x2052_S4x3x64x2048_0_0_1_1 slices_S4x20x68x2052_S4x20x64x2048_0_0_1_1
        (W (Proc.devRef .tc main_v4)) (W (Proc.devRef .tc main_arg0)) (W (Proc.devRef .tc main_v5)) (W (Proc.devRef .tc main_v84)) := by
  simp only [seg6]
  after_results_simp
  all_goals rfl

theorem seg6_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v84) = A) :
    after seg6 W (Proc.devRef .tc main_v4) = padX x0 ∧ after seg6 W (Proc.devRef .tc main_arg0) = x0
      ∧ after seg6 W (Proc.devRef .tc main_arg1) = x1 ∧ after seg6 W (Proc.devRef .tc main_arg2) = x2
      ∧ after seg6 W (Proc.devRef .tc main_v5) = padS x1 x2
      ∧ after seg6 W (Proc.devRef .tc main_v97) = refStep ![0, 0, 1, 1] slices_S4x3x68x2052_S4x3x64x2048_0_0_1_1 slices_S4x20x68x2052_S4x20x64x2048_0_0_1_1 (padX x0) x0 (padS x1 x2) A := by
  obtain ⟨h4, ha0, ha1, ha2, h5, hacc⟩ := h
  exact ⟨(seg6_keep W main_v4 (by decide)).trans h4, (seg6_keep W main_arg0 (by decide)).trans ha0,
    (seg6_keep W main_arg1 (by decide)).trans ha1, (seg6_keep W main_arg2 (by decide)).trans ha2,
    (seg6_keep W main_v5 (by decide)).trans h5, by rw [seg6_acc, h4, ha0, h5, hacc]⟩

/-- The group of the offset (1, 2) applies the update to the running sum. -/
theorem seg7_acc (W : Valuation τ sig (Elt F)) :
    after seg7 W (Proc.devRef .tc main_v110) = refStep ![0, 0, 1, 2] slices_S4x3x68x2052_S4x3x64x2048_0_0_1_2 slices_S4x20x68x2052_S4x20x64x2048_0_0_1_2
        (W (Proc.devRef .tc main_v4)) (W (Proc.devRef .tc main_arg0)) (W (Proc.devRef .tc main_v5)) (W (Proc.devRef .tc main_v97)) := by
  simp only [seg7]
  after_results_simp
  all_goals rfl

theorem seg7_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v97) = A) :
    after seg7 W (Proc.devRef .tc main_v4) = padX x0 ∧ after seg7 W (Proc.devRef .tc main_arg0) = x0
      ∧ after seg7 W (Proc.devRef .tc main_arg1) = x1 ∧ after seg7 W (Proc.devRef .tc main_arg2) = x2
      ∧ after seg7 W (Proc.devRef .tc main_v5) = padS x1 x2
      ∧ after seg7 W (Proc.devRef .tc main_v110) = refStep ![0, 0, 1, 2] slices_S4x3x68x2052_S4x3x64x2048_0_0_1_2 slices_S4x20x68x2052_S4x20x64x2048_0_0_1_2 (padX x0) x0 (padS x1 x2) A := by
  obtain ⟨h4, ha0, ha1, ha2, h5, hacc⟩ := h
  exact ⟨(seg7_keep W main_v4 (by decide)).trans h4, (seg7_keep W main_arg0 (by decide)).trans ha0,
    (seg7_keep W main_arg1 (by decide)).trans ha1, (seg7_keep W main_arg2 (by decide)).trans ha2,
    (seg7_keep W main_v5 (by decide)).trans h5, by rw [seg7_acc, h4, ha0, h5, hacc]⟩

/-- The group of the offset (1, 3) applies the update to the running sum. -/
theorem seg8_acc (W : Valuation τ sig (Elt F)) :
    after seg8 W (Proc.devRef .tc main_v123) = refStep ![0, 0, 1, 3] slices_S4x3x68x2052_S4x3x64x2048_0_0_1_3 slices_S4x20x68x2052_S4x20x64x2048_0_0_1_3
        (W (Proc.devRef .tc main_v4)) (W (Proc.devRef .tc main_arg0)) (W (Proc.devRef .tc main_v5)) (W (Proc.devRef .tc main_v110)) := by
  simp only [seg8]
  after_results_simp
  all_goals rfl

theorem seg8_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v110) = A) :
    after seg8 W (Proc.devRef .tc main_v4) = padX x0 ∧ after seg8 W (Proc.devRef .tc main_arg0) = x0
      ∧ after seg8 W (Proc.devRef .tc main_arg1) = x1 ∧ after seg8 W (Proc.devRef .tc main_arg2) = x2
      ∧ after seg8 W (Proc.devRef .tc main_v5) = padS x1 x2
      ∧ after seg8 W (Proc.devRef .tc main_v123) = refStep ![0, 0, 1, 3] slices_S4x3x68x2052_S4x3x64x2048_0_0_1_3 slices_S4x20x68x2052_S4x20x64x2048_0_0_1_3 (padX x0) x0 (padS x1 x2) A := by
  obtain ⟨h4, ha0, ha1, ha2, h5, hacc⟩ := h
  exact ⟨(seg8_keep W main_v4 (by decide)).trans h4, (seg8_keep W main_arg0 (by decide)).trans ha0,
    (seg8_keep W main_arg1 (by decide)).trans ha1, (seg8_keep W main_arg2 (by decide)).trans ha2,
    (seg8_keep W main_v5 (by decide)).trans h5, by rw [seg8_acc, h4, ha0, h5, hacc]⟩

/-- The group of the offset (1, 4) applies the update to the running sum. -/
theorem seg9_acc (W : Valuation τ sig (Elt F)) :
    after seg9 W (Proc.devRef .tc main_v136) = refStep ![0, 0, 1, 4] slices_S4x3x68x2052_S4x3x64x2048_0_0_1_4 slices_S4x20x68x2052_S4x20x64x2048_0_0_1_4
        (W (Proc.devRef .tc main_v4)) (W (Proc.devRef .tc main_arg0)) (W (Proc.devRef .tc main_v5)) (W (Proc.devRef .tc main_v123)) := by
  simp only [seg9]
  after_results_simp
  all_goals rfl

theorem seg9_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v123) = A) :
    after seg9 W (Proc.devRef .tc main_v4) = padX x0 ∧ after seg9 W (Proc.devRef .tc main_arg0) = x0
      ∧ after seg9 W (Proc.devRef .tc main_arg1) = x1 ∧ after seg9 W (Proc.devRef .tc main_arg2) = x2
      ∧ after seg9 W (Proc.devRef .tc main_v5) = padS x1 x2
      ∧ after seg9 W (Proc.devRef .tc main_v136) = refStep ![0, 0, 1, 4] slices_S4x3x68x2052_S4x3x64x2048_0_0_1_4 slices_S4x20x68x2052_S4x20x64x2048_0_0_1_4 (padX x0) x0 (padS x1 x2) A := by
  obtain ⟨h4, ha0, ha1, ha2, h5, hacc⟩ := h
  exact ⟨(seg9_keep W main_v4 (by decide)).trans h4, (seg9_keep W main_arg0 (by decide)).trans ha0,
    (seg9_keep W main_arg1 (by decide)).trans ha1, (seg9_keep W main_arg2 (by decide)).trans ha2,
    (seg9_keep W main_v5 (by decide)).trans h5, by rw [seg9_acc, h4, ha0, h5, hacc]⟩

/-- The group of the offset (2, 0) applies the update to the running sum. -/
theorem seg10_acc (W : Valuation τ sig (Elt F)) :
    after seg10 W (Proc.devRef .tc main_v149) = refStep ![0, 0, 2, 0] slices_S4x3x68x2052_S4x3x64x2048_0_0_2_0 slices_S4x20x68x2052_S4x20x64x2048_0_0_2_0
        (W (Proc.devRef .tc main_v4)) (W (Proc.devRef .tc main_arg0)) (W (Proc.devRef .tc main_v5)) (W (Proc.devRef .tc main_v136)) := by
  simp only [seg10]
  after_results_simp
  all_goals rfl

theorem seg10_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v136) = A) :
    after seg10 W (Proc.devRef .tc main_v4) = padX x0 ∧ after seg10 W (Proc.devRef .tc main_arg0) = x0
      ∧ after seg10 W (Proc.devRef .tc main_arg1) = x1 ∧ after seg10 W (Proc.devRef .tc main_arg2) = x2
      ∧ after seg10 W (Proc.devRef .tc main_v5) = padS x1 x2
      ∧ after seg10 W (Proc.devRef .tc main_v149) = refStep ![0, 0, 2, 0] slices_S4x3x68x2052_S4x3x64x2048_0_0_2_0 slices_S4x20x68x2052_S4x20x64x2048_0_0_2_0 (padX x0) x0 (padS x1 x2) A := by
  obtain ⟨h4, ha0, ha1, ha2, h5, hacc⟩ := h
  exact ⟨(seg10_keep W main_v4 (by decide)).trans h4, (seg10_keep W main_arg0 (by decide)).trans ha0,
    (seg10_keep W main_arg1 (by decide)).trans ha1, (seg10_keep W main_arg2 (by decide)).trans ha2,
    (seg10_keep W main_v5 (by decide)).trans h5, by rw [seg10_acc, h4, ha0, h5, hacc]⟩

/-- The group of the offset (2, 1) applies the update to the running sum. -/
theorem seg11_acc (W : Valuation τ sig (Elt F)) :
    after seg11 W (Proc.devRef .tc main_v162) = refStep ![0, 0, 2, 1] slices_S4x3x68x2052_S4x3x64x2048_0_0_2_1 slices_S4x20x68x2052_S4x20x64x2048_0_0_2_1
        (W (Proc.devRef .tc main_v4)) (W (Proc.devRef .tc main_arg0)) (W (Proc.devRef .tc main_v5)) (W (Proc.devRef .tc main_v149)) := by
  simp only [seg11]
  after_results_simp
  all_goals rfl

theorem seg11_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v149) = A) :
    after seg11 W (Proc.devRef .tc main_v4) = padX x0 ∧ after seg11 W (Proc.devRef .tc main_arg0) = x0
      ∧ after seg11 W (Proc.devRef .tc main_arg1) = x1 ∧ after seg11 W (Proc.devRef .tc main_arg2) = x2
      ∧ after seg11 W (Proc.devRef .tc main_v5) = padS x1 x2
      ∧ after seg11 W (Proc.devRef .tc main_v162) = refStep ![0, 0, 2, 1] slices_S4x3x68x2052_S4x3x64x2048_0_0_2_1 slices_S4x20x68x2052_S4x20x64x2048_0_0_2_1 (padX x0) x0 (padS x1 x2) A := by
  obtain ⟨h4, ha0, ha1, ha2, h5, hacc⟩ := h
  exact ⟨(seg11_keep W main_v4 (by decide)).trans h4, (seg11_keep W main_arg0 (by decide)).trans ha0,
    (seg11_keep W main_arg1 (by decide)).trans ha1, (seg11_keep W main_arg2 (by decide)).trans ha2,
    (seg11_keep W main_v5 (by decide)).trans h5, by rw [seg11_acc, h4, ha0, h5, hacc]⟩

/-- The group of the offset (2, 2) applies the update to the running sum. -/
theorem seg12_acc (W : Valuation τ sig (Elt F)) :
    after seg12 W (Proc.devRef .tc main_v175) = refStep ![0, 0, 2, 2] slices_S4x3x68x2052_S4x3x64x2048_0_0_2_2 slices_S4x20x68x2052_S4x20x64x2048_0_0_2_2
        (W (Proc.devRef .tc main_v4)) (W (Proc.devRef .tc main_arg0)) (W (Proc.devRef .tc main_v5)) (W (Proc.devRef .tc main_v162)) := by
  simp only [seg12]
  after_results_simp
  all_goals rfl

theorem seg12_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v162) = A) :
    after seg12 W (Proc.devRef .tc main_v4) = padX x0 ∧ after seg12 W (Proc.devRef .tc main_arg0) = x0
      ∧ after seg12 W (Proc.devRef .tc main_arg1) = x1 ∧ after seg12 W (Proc.devRef .tc main_arg2) = x2
      ∧ after seg12 W (Proc.devRef .tc main_v5) = padS x1 x2
      ∧ after seg12 W (Proc.devRef .tc main_v175) = refStep ![0, 0, 2, 2] slices_S4x3x68x2052_S4x3x64x2048_0_0_2_2 slices_S4x20x68x2052_S4x20x64x2048_0_0_2_2 (padX x0) x0 (padS x1 x2) A := by
  obtain ⟨h4, ha0, ha1, ha2, h5, hacc⟩ := h
  exact ⟨(seg12_keep W main_v4 (by decide)).trans h4, (seg12_keep W main_arg0 (by decide)).trans ha0,
    (seg12_keep W main_arg1 (by decide)).trans ha1, (seg12_keep W main_arg2 (by decide)).trans ha2,
    (seg12_keep W main_v5 (by decide)).trans h5, by rw [seg12_acc, h4, ha0, h5, hacc]⟩

/-- The group of the offset (2, 3) applies the update to the running sum. -/
theorem seg13_acc (W : Valuation τ sig (Elt F)) :
    after seg13 W (Proc.devRef .tc main_v188) = refStep ![0, 0, 2, 3] slices_S4x3x68x2052_S4x3x64x2048_0_0_2_3 slices_S4x20x68x2052_S4x20x64x2048_0_0_2_3
        (W (Proc.devRef .tc main_v4)) (W (Proc.devRef .tc main_arg0)) (W (Proc.devRef .tc main_v5)) (W (Proc.devRef .tc main_v175)) := by
  simp only [seg13]
  after_results_simp
  all_goals rfl

theorem seg13_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v175) = A) :
    after seg13 W (Proc.devRef .tc main_v4) = padX x0 ∧ after seg13 W (Proc.devRef .tc main_arg0) = x0
      ∧ after seg13 W (Proc.devRef .tc main_arg1) = x1 ∧ after seg13 W (Proc.devRef .tc main_arg2) = x2
      ∧ after seg13 W (Proc.devRef .tc main_v5) = padS x1 x2
      ∧ after seg13 W (Proc.devRef .tc main_v188) = refStep ![0, 0, 2, 3] slices_S4x3x68x2052_S4x3x64x2048_0_0_2_3 slices_S4x20x68x2052_S4x20x64x2048_0_0_2_3 (padX x0) x0 (padS x1 x2) A := by
  obtain ⟨h4, ha0, ha1, ha2, h5, hacc⟩ := h
  exact ⟨(seg13_keep W main_v4 (by decide)).trans h4, (seg13_keep W main_arg0 (by decide)).trans ha0,
    (seg13_keep W main_arg1 (by decide)).trans ha1, (seg13_keep W main_arg2 (by decide)).trans ha2,
    (seg13_keep W main_v5 (by decide)).trans h5, by rw [seg13_acc, h4, ha0, h5, hacc]⟩

/-- The group of the offset (2, 4) applies the update to the running sum. -/
theorem seg14_acc (W : Valuation τ sig (Elt F)) :
    after seg14 W (Proc.devRef .tc main_v201) = refStep ![0, 0, 2, 4] slices_S4x3x68x2052_S4x3x64x2048_0_0_2_4 slices_S4x20x68x2052_S4x20x64x2048_0_0_2_4
        (W (Proc.devRef .tc main_v4)) (W (Proc.devRef .tc main_arg0)) (W (Proc.devRef .tc main_v5)) (W (Proc.devRef .tc main_v188)) := by
  simp only [seg14]
  after_results_simp
  all_goals rfl

theorem seg14_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v188) = A) :
    after seg14 W (Proc.devRef .tc main_v4) = padX x0 ∧ after seg14 W (Proc.devRef .tc main_arg0) = x0
      ∧ after seg14 W (Proc.devRef .tc main_arg1) = x1 ∧ after seg14 W (Proc.devRef .tc main_arg2) = x2
      ∧ after seg14 W (Proc.devRef .tc main_v5) = padS x1 x2
      ∧ after seg14 W (Proc.devRef .tc main_v201) = refStep ![0, 0, 2, 4] slices_S4x3x68x2052_S4x3x64x2048_0_0_2_4 slices_S4x20x68x2052_S4x20x64x2048_0_0_2_4 (padX x0) x0 (padS x1 x2) A := by
  obtain ⟨h4, ha0, ha1, ha2, h5, hacc⟩ := h
  exact ⟨(seg14_keep W main_v4 (by decide)).trans h4, (seg14_keep W main_arg0 (by decide)).trans ha0,
    (seg14_keep W main_arg1 (by decide)).trans ha1, (seg14_keep W main_arg2 (by decide)).trans ha2,
    (seg14_keep W main_v5 (by decide)).trans h5, by rw [seg14_acc, h4, ha0, h5, hacc]⟩

/-- The group of the offset (3, 0) applies the update to the running sum. -/
theorem seg15_acc (W : Valuation τ sig (Elt F)) :
    after seg15 W (Proc.devRef .tc main_v214) = refStep ![0, 0, 3, 0] slices_S4x3x68x2052_S4x3x64x2048_0_0_3_0 slices_S4x20x68x2052_S4x20x64x2048_0_0_3_0
        (W (Proc.devRef .tc main_v4)) (W (Proc.devRef .tc main_arg0)) (W (Proc.devRef .tc main_v5)) (W (Proc.devRef .tc main_v201)) := by
  simp only [seg15]
  after_results_simp
  all_goals rfl

theorem seg15_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v201) = A) :
    after seg15 W (Proc.devRef .tc main_v4) = padX x0 ∧ after seg15 W (Proc.devRef .tc main_arg0) = x0
      ∧ after seg15 W (Proc.devRef .tc main_arg1) = x1 ∧ after seg15 W (Proc.devRef .tc main_arg2) = x2
      ∧ after seg15 W (Proc.devRef .tc main_v5) = padS x1 x2
      ∧ after seg15 W (Proc.devRef .tc main_v214) = refStep ![0, 0, 3, 0] slices_S4x3x68x2052_S4x3x64x2048_0_0_3_0 slices_S4x20x68x2052_S4x20x64x2048_0_0_3_0 (padX x0) x0 (padS x1 x2) A := by
  obtain ⟨h4, ha0, ha1, ha2, h5, hacc⟩ := h
  exact ⟨(seg15_keep W main_v4 (by decide)).trans h4, (seg15_keep W main_arg0 (by decide)).trans ha0,
    (seg15_keep W main_arg1 (by decide)).trans ha1, (seg15_keep W main_arg2 (by decide)).trans ha2,
    (seg15_keep W main_v5 (by decide)).trans h5, by rw [seg15_acc, h4, ha0, h5, hacc]⟩

/-- The group of the offset (3, 1) applies the update to the running sum. -/
theorem seg16_acc (W : Valuation τ sig (Elt F)) :
    after seg16 W (Proc.devRef .tc main_v227) = refStep ![0, 0, 3, 1] slices_S4x3x68x2052_S4x3x64x2048_0_0_3_1 slices_S4x20x68x2052_S4x20x64x2048_0_0_3_1
        (W (Proc.devRef .tc main_v4)) (W (Proc.devRef .tc main_arg0)) (W (Proc.devRef .tc main_v5)) (W (Proc.devRef .tc main_v214)) := by
  simp only [seg16]
  after_results_simp
  all_goals rfl

theorem seg16_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v214) = A) :
    after seg16 W (Proc.devRef .tc main_v4) = padX x0 ∧ after seg16 W (Proc.devRef .tc main_arg0) = x0
      ∧ after seg16 W (Proc.devRef .tc main_arg1) = x1 ∧ after seg16 W (Proc.devRef .tc main_arg2) = x2
      ∧ after seg16 W (Proc.devRef .tc main_v5) = padS x1 x2
      ∧ after seg16 W (Proc.devRef .tc main_v227) = refStep ![0, 0, 3, 1] slices_S4x3x68x2052_S4x3x64x2048_0_0_3_1 slices_S4x20x68x2052_S4x20x64x2048_0_0_3_1 (padX x0) x0 (padS x1 x2) A := by
  obtain ⟨h4, ha0, ha1, ha2, h5, hacc⟩ := h
  exact ⟨(seg16_keep W main_v4 (by decide)).trans h4, (seg16_keep W main_arg0 (by decide)).trans ha0,
    (seg16_keep W main_arg1 (by decide)).trans ha1, (seg16_keep W main_arg2 (by decide)).trans ha2,
    (seg16_keep W main_v5 (by decide)).trans h5, by rw [seg16_acc, h4, ha0, h5, hacc]⟩

/-- The group of the offset (3, 2) applies the update to the running sum. -/
theorem seg17_acc (W : Valuation τ sig (Elt F)) :
    after seg17 W (Proc.devRef .tc main_v240) = refStep ![0, 0, 3, 2] slices_S4x3x68x2052_S4x3x64x2048_0_0_3_2 slices_S4x20x68x2052_S4x20x64x2048_0_0_3_2
        (W (Proc.devRef .tc main_v4)) (W (Proc.devRef .tc main_arg0)) (W (Proc.devRef .tc main_v5)) (W (Proc.devRef .tc main_v227)) := by
  simp only [seg17]
  after_results_simp
  all_goals rfl

theorem seg17_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v227) = A) :
    after seg17 W (Proc.devRef .tc main_v4) = padX x0 ∧ after seg17 W (Proc.devRef .tc main_arg0) = x0
      ∧ after seg17 W (Proc.devRef .tc main_arg1) = x1 ∧ after seg17 W (Proc.devRef .tc main_arg2) = x2
      ∧ after seg17 W (Proc.devRef .tc main_v5) = padS x1 x2
      ∧ after seg17 W (Proc.devRef .tc main_v240) = refStep ![0, 0, 3, 2] slices_S4x3x68x2052_S4x3x64x2048_0_0_3_2 slices_S4x20x68x2052_S4x20x64x2048_0_0_3_2 (padX x0) x0 (padS x1 x2) A := by
  obtain ⟨h4, ha0, ha1, ha2, h5, hacc⟩ := h
  exact ⟨(seg17_keep W main_v4 (by decide)).trans h4, (seg17_keep W main_arg0 (by decide)).trans ha0,
    (seg17_keep W main_arg1 (by decide)).trans ha1, (seg17_keep W main_arg2 (by decide)).trans ha2,
    (seg17_keep W main_v5 (by decide)).trans h5, by rw [seg17_acc, h4, ha0, h5, hacc]⟩

/-- The group of the offset (3, 3) applies the update to the running sum. -/
theorem seg18_acc (W : Valuation τ sig (Elt F)) :
    after seg18 W (Proc.devRef .tc main_v253) = refStep ![0, 0, 3, 3] slices_S4x3x68x2052_S4x3x64x2048_0_0_3_3 slices_S4x20x68x2052_S4x20x64x2048_0_0_3_3
        (W (Proc.devRef .tc main_v4)) (W (Proc.devRef .tc main_arg0)) (W (Proc.devRef .tc main_v5)) (W (Proc.devRef .tc main_v240)) := by
  simp only [seg18]
  after_results_simp
  all_goals rfl

theorem seg18_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v240) = A) :
    after seg18 W (Proc.devRef .tc main_v4) = padX x0 ∧ after seg18 W (Proc.devRef .tc main_arg0) = x0
      ∧ after seg18 W (Proc.devRef .tc main_arg1) = x1 ∧ after seg18 W (Proc.devRef .tc main_arg2) = x2
      ∧ after seg18 W (Proc.devRef .tc main_v5) = padS x1 x2
      ∧ after seg18 W (Proc.devRef .tc main_v253) = refStep ![0, 0, 3, 3] slices_S4x3x68x2052_S4x3x64x2048_0_0_3_3 slices_S4x20x68x2052_S4x20x64x2048_0_0_3_3 (padX x0) x0 (padS x1 x2) A := by
  obtain ⟨h4, ha0, ha1, ha2, h5, hacc⟩ := h
  exact ⟨(seg18_keep W main_v4 (by decide)).trans h4, (seg18_keep W main_arg0 (by decide)).trans ha0,
    (seg18_keep W main_arg1 (by decide)).trans ha1, (seg18_keep W main_arg2 (by decide)).trans ha2,
    (seg18_keep W main_v5 (by decide)).trans h5, by rw [seg18_acc, h4, ha0, h5, hacc]⟩

/-- The group of the offset (3, 4) applies the update to the running sum. -/
theorem seg19_acc (W : Valuation τ sig (Elt F)) :
    after seg19 W (Proc.devRef .tc main_v266) = refStep ![0, 0, 3, 4] slices_S4x3x68x2052_S4x3x64x2048_0_0_3_4 slices_S4x20x68x2052_S4x20x64x2048_0_0_3_4
        (W (Proc.devRef .tc main_v4)) (W (Proc.devRef .tc main_arg0)) (W (Proc.devRef .tc main_v5)) (W (Proc.devRef .tc main_v253)) := by
  simp only [seg19]
  after_results_simp
  all_goals rfl

theorem seg19_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v253) = A) :
    after seg19 W (Proc.devRef .tc main_v4) = padX x0 ∧ after seg19 W (Proc.devRef .tc main_arg0) = x0
      ∧ after seg19 W (Proc.devRef .tc main_arg1) = x1 ∧ after seg19 W (Proc.devRef .tc main_arg2) = x2
      ∧ after seg19 W (Proc.devRef .tc main_v5) = padS x1 x2
      ∧ after seg19 W (Proc.devRef .tc main_v266) = refStep ![0, 0, 3, 4] slices_S4x3x68x2052_S4x3x64x2048_0_0_3_4 slices_S4x20x68x2052_S4x20x64x2048_0_0_3_4 (padX x0) x0 (padS x1 x2) A := by
  obtain ⟨h4, ha0, ha1, ha2, h5, hacc⟩ := h
  exact ⟨(seg19_keep W main_v4 (by decide)).trans h4, (seg19_keep W main_arg0 (by decide)).trans ha0,
    (seg19_keep W main_arg1 (by decide)).trans ha1, (seg19_keep W main_arg2 (by decide)).trans ha2,
    (seg19_keep W main_v5 (by decide)).trans h5, by rw [seg19_acc, h4, ha0, h5, hacc]⟩

/-- The group of the offset (4, 0) applies the update to the running sum. -/
theorem seg20_acc (W : Valuation τ sig (Elt F)) :
    after seg20 W (Proc.devRef .tc main_v279) = refStep ![0, 0, 4, 0] slices_S4x3x68x2052_S4x3x64x2048_0_0_4_0 slices_S4x20x68x2052_S4x20x64x2048_0_0_4_0
        (W (Proc.devRef .tc main_v4)) (W (Proc.devRef .tc main_arg0)) (W (Proc.devRef .tc main_v5)) (W (Proc.devRef .tc main_v266)) := by
  simp only [seg20]
  after_results_simp
  all_goals rfl

theorem seg20_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v266) = A) :
    after seg20 W (Proc.devRef .tc main_v4) = padX x0 ∧ after seg20 W (Proc.devRef .tc main_arg0) = x0
      ∧ after seg20 W (Proc.devRef .tc main_arg1) = x1 ∧ after seg20 W (Proc.devRef .tc main_arg2) = x2
      ∧ after seg20 W (Proc.devRef .tc main_v5) = padS x1 x2
      ∧ after seg20 W (Proc.devRef .tc main_v279) = refStep ![0, 0, 4, 0] slices_S4x3x68x2052_S4x3x64x2048_0_0_4_0 slices_S4x20x68x2052_S4x20x64x2048_0_0_4_0 (padX x0) x0 (padS x1 x2) A := by
  obtain ⟨h4, ha0, ha1, ha2, h5, hacc⟩ := h
  exact ⟨(seg20_keep W main_v4 (by decide)).trans h4, (seg20_keep W main_arg0 (by decide)).trans ha0,
    (seg20_keep W main_arg1 (by decide)).trans ha1, (seg20_keep W main_arg2 (by decide)).trans ha2,
    (seg20_keep W main_v5 (by decide)).trans h5, by rw [seg20_acc, h4, ha0, h5, hacc]⟩

/-- The group of the offset (4, 1) applies the update to the running sum. -/
theorem seg21_acc (W : Valuation τ sig (Elt F)) :
    after seg21 W (Proc.devRef .tc main_v292) = refStep ![0, 0, 4, 1] slices_S4x3x68x2052_S4x3x64x2048_0_0_4_1 slices_S4x20x68x2052_S4x20x64x2048_0_0_4_1
        (W (Proc.devRef .tc main_v4)) (W (Proc.devRef .tc main_arg0)) (W (Proc.devRef .tc main_v5)) (W (Proc.devRef .tc main_v279)) := by
  simp only [seg21]
  after_results_simp
  all_goals rfl

theorem seg21_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v279) = A) :
    after seg21 W (Proc.devRef .tc main_v4) = padX x0 ∧ after seg21 W (Proc.devRef .tc main_arg0) = x0
      ∧ after seg21 W (Proc.devRef .tc main_arg1) = x1 ∧ after seg21 W (Proc.devRef .tc main_arg2) = x2
      ∧ after seg21 W (Proc.devRef .tc main_v5) = padS x1 x2
      ∧ after seg21 W (Proc.devRef .tc main_v292) = refStep ![0, 0, 4, 1] slices_S4x3x68x2052_S4x3x64x2048_0_0_4_1 slices_S4x20x68x2052_S4x20x64x2048_0_0_4_1 (padX x0) x0 (padS x1 x2) A := by
  obtain ⟨h4, ha0, ha1, ha2, h5, hacc⟩ := h
  exact ⟨(seg21_keep W main_v4 (by decide)).trans h4, (seg21_keep W main_arg0 (by decide)).trans ha0,
    (seg21_keep W main_arg1 (by decide)).trans ha1, (seg21_keep W main_arg2 (by decide)).trans ha2,
    (seg21_keep W main_v5 (by decide)).trans h5, by rw [seg21_acc, h4, ha0, h5, hacc]⟩

/-- The group of the offset (4, 2) applies the update to the running sum. -/
theorem seg22_acc (W : Valuation τ sig (Elt F)) :
    after seg22 W (Proc.devRef .tc main_v305) = refStep ![0, 0, 4, 2] slices_S4x3x68x2052_S4x3x64x2048_0_0_4_2 slices_S4x20x68x2052_S4x20x64x2048_0_0_4_2
        (W (Proc.devRef .tc main_v4)) (W (Proc.devRef .tc main_arg0)) (W (Proc.devRef .tc main_v5)) (W (Proc.devRef .tc main_v292)) := by
  simp only [seg22]
  after_results_simp
  all_goals rfl

theorem seg22_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v292) = A) :
    after seg22 W (Proc.devRef .tc main_v4) = padX x0 ∧ after seg22 W (Proc.devRef .tc main_arg0) = x0
      ∧ after seg22 W (Proc.devRef .tc main_arg1) = x1 ∧ after seg22 W (Proc.devRef .tc main_arg2) = x2
      ∧ after seg22 W (Proc.devRef .tc main_v5) = padS x1 x2
      ∧ after seg22 W (Proc.devRef .tc main_v305) = refStep ![0, 0, 4, 2] slices_S4x3x68x2052_S4x3x64x2048_0_0_4_2 slices_S4x20x68x2052_S4x20x64x2048_0_0_4_2 (padX x0) x0 (padS x1 x2) A := by
  obtain ⟨h4, ha0, ha1, ha2, h5, hacc⟩ := h
  exact ⟨(seg22_keep W main_v4 (by decide)).trans h4, (seg22_keep W main_arg0 (by decide)).trans ha0,
    (seg22_keep W main_arg1 (by decide)).trans ha1, (seg22_keep W main_arg2 (by decide)).trans ha2,
    (seg22_keep W main_v5 (by decide)).trans h5, by rw [seg22_acc, h4, ha0, h5, hacc]⟩

/-- The group of the offset (4, 3) applies the update to the running sum. -/
theorem seg23_acc (W : Valuation τ sig (Elt F)) :
    after seg23 W (Proc.devRef .tc main_v318) = refStep ![0, 0, 4, 3] slices_S4x3x68x2052_S4x3x64x2048_0_0_4_3 slices_S4x20x68x2052_S4x20x64x2048_0_0_4_3
        (W (Proc.devRef .tc main_v4)) (W (Proc.devRef .tc main_arg0)) (W (Proc.devRef .tc main_v5)) (W (Proc.devRef .tc main_v305)) := by
  simp only [seg23]
  after_results_simp
  all_goals rfl

theorem seg23_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v305) = A) :
    after seg23 W (Proc.devRef .tc main_v4) = padX x0 ∧ after seg23 W (Proc.devRef .tc main_arg0) = x0
      ∧ after seg23 W (Proc.devRef .tc main_arg1) = x1 ∧ after seg23 W (Proc.devRef .tc main_arg2) = x2
      ∧ after seg23 W (Proc.devRef .tc main_v5) = padS x1 x2
      ∧ after seg23 W (Proc.devRef .tc main_v318) = refStep ![0, 0, 4, 3] slices_S4x3x68x2052_S4x3x64x2048_0_0_4_3 slices_S4x20x68x2052_S4x20x64x2048_0_0_4_3 (padX x0) x0 (padS x1 x2) A := by
  obtain ⟨h4, ha0, ha1, ha2, h5, hacc⟩ := h
  exact ⟨(seg23_keep W main_v4 (by decide)).trans h4, (seg23_keep W main_arg0 (by decide)).trans ha0,
    (seg23_keep W main_arg1 (by decide)).trans ha1, (seg23_keep W main_arg2 (by decide)).trans ha2,
    (seg23_keep W main_v5 (by decide)).trans h5, by rw [seg23_acc, h4, ha0, h5, hacc]⟩

/-- The group of the offset (4, 4) applies the update to the running sum. -/
theorem seg24_acc (W : Valuation τ sig (Elt F)) :
    after seg24 W (Proc.devRef .tc main_v331) = refStep ![0, 0, 4, 4] slices_S4x3x68x2052_S4x3x64x2048_0_0_4_4 slices_S4x20x68x2052_S4x20x64x2048_0_0_4_4
        (W (Proc.devRef .tc main_v4)) (W (Proc.devRef .tc main_arg0)) (W (Proc.devRef .tc main_v5)) (W (Proc.devRef .tc main_v318)) := by
  simp only [seg24]
  after_results_simp
  all_goals rfl

theorem seg24_step (W : Valuation τ sig (Elt F)) (x0 : (⟨S4x3x64x2048, .f32⟩ : BufTy).Contents (Elt F))
    (x1 : (⟨S4x20x64x2048, .f32⟩ : BufTy).Contents (Elt F)) (x2 : (⟨S4x64x2048, .i1⟩ : BufTy).Contents (Elt F))
    (A : (⟨S4x20x64x2048, .f32⟩ : BufTy).Contents (Elt F))
    (h : W (Proc.devRef .tc main_v4) = padX x0 ∧ W (Proc.devRef .tc main_arg0) = x0 ∧ W (Proc.devRef .tc main_arg1) = x1 ∧ W (Proc.devRef .tc main_arg2) = x2
      ∧ W (Proc.devRef .tc main_v5) = padS x1 x2 ∧ W (Proc.devRef .tc main_v318) = A) :
    after seg24 W (Proc.devRef .tc main_v4) = padX x0 ∧ after seg24 W (Proc.devRef .tc main_arg0) = x0
      ∧ after seg24 W (Proc.devRef .tc main_arg1) = x1 ∧ after seg24 W (Proc.devRef .tc main_arg2) = x2
      ∧ after seg24 W (Proc.devRef .tc main_v5) = padS x1 x2
      ∧ after seg24 W (Proc.devRef .tc main_v331) = refStep ![0, 0, 4, 4] slices_S4x3x68x2052_S4x3x64x2048_0_0_4_4 slices_S4x20x68x2052_S4x20x64x2048_0_0_4_4 (padX x0) x0 (padS x1 x2) A := by
  obtain ⟨h4, ha0, ha1, ha2, h5, hacc⟩ := h
  exact ⟨(seg24_keep W main_v4 (by decide)).trans h4, (seg24_keep W main_arg0 (by decide)).trans ha0,
    (seg24_keep W main_arg1 (by decide)).trans ha1, (seg24_keep W main_arg2 (by decide)).trans ha2,
    (seg24_keep W main_v5 (by decide)).trans h5, by rw [seg24_acc, h4, ha0, h5, hacc]⟩

/-- After all the operations: the result buffer at the reference's term of the launch contents of the arguments,
    the arguments as launched. -/
theorem after_ops_vals (V : Valuation τ sig (Elt F)) :
    after ops V (Proc.devRef .tc main_v331) = refResult (V (Proc.devRef .tc main_arg0)) (V (Proc.devRef .tc main_arg1)) (V (Proc.devRef .tc main_arg2))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2) := by
  rw [ops_regroup]
  simp only [after_append]
  have i0 := pre_vals V
  have i1 := seg0_step _ _ _ _ _ i0
  have i2 := seg1_step _ _ _ _ _ i1
  have i3 := seg2_step _ _ _ _ _ i2
  have i4 := seg3_step _ _ _ _ _ i3
  have i5 := seg4_step _ _ _ _ _ i4
  have i6 := seg5_step _ _ _ _ _ i5
  have i7 := seg6_step _ _ _ _ _ i6
  have i8 := seg7_step _ _ _ _ _ i7
  have i9 := seg8_step _ _ _ _ _ i8
  have i10 := seg9_step _ _ _ _ _ i9
  have i11 := seg10_step _ _ _ _ _ i10
  have i12 := seg11_step _ _ _ _ _ i11
  have i13 := seg12_step _ _ _ _ _ i12
  have i14 := seg13_step _ _ _ _ _ i13
  have i15 := seg14_step _ _ _ _ _ i14
  have i16 := seg15_step _ _ _ _ _ i15
  have i17 := seg16_step _ _ _ _ _ i16
  have i18 := seg17_step _ _ _ _ _ i17
  have i19 := seg18_step _ _ _ _ _ i18
  have i20 := seg19_step _ _ _ _ _ i19
  have i21 := seg20_step _ _ _ _ _ i20
  have i22 := seg21_step _ _ _ _ _ i21
  have i23 := seg22_step _ _ _ _ _ i22
  have i24 := seg23_step _ _ _ _ _ i23
  have i25 := seg24_step _ _ _ _ _ i24
  exact ⟨i25.2.2.2.2.2, i25.2.1, i25.2.2.1, i25.2.2.2.1⟩

/-- On every device, from any memory with zero counters: every weakly fair execution of the reference terminates
    with the result buffer at the reference's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v331) = refResult (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v331).trans (after_ops_vals (launchContents m c)).1,
      (h c main_arg0).trans (after_ops_vals (launchContents m c)).2.1,
      (h c main_arg1).trans (after_ops_vals (launchContents m c)).2.2.1,
      (h c main_arg2).trans (after_ops_vals (launchContents m c)).2.2.2⟩)
    (run_seq scopedRefs_eq scopedSems_eq defs main (fun _ => ops) main_eq (fun _ => ops_sub) m ρ)

end Cert.ReferenceIdeal.RefRun

end
-- ==== Proof.KerSteps.lean ====
/-
  The kernel body as twenty-five equal updates.

  At one grid point the body holds three blocks: the padded coordinates of one image (3 × 68 × 2052), five
  channels of the padded class volume (5 × 68 × 2052) and the padded mask (68 × 2052).  It multiplies the
  classes by the mask once, reads the centre's coordinates once, and then, for each window offset, loads
  the coordinate block moved by the offset, forms the squared distance to the centre (a sum over the
  three channels), the Gaussian weight exp((0 − d²)/2), and adds weight × (masked classes moved by the
  offset) onto a running sum that starts at zero.  This file names the one update and states that what
  the body stores is its twenty-five-fold iterate.
-/
import proofs.«120163_j10179072491794_2_alg».proof.Proof.Gen.KernelIdeal.Frame

noncomputable section

namespace Cert.KernelIdeal.KerValue

open Cert.KernelIdeal Cert.KernelIdeal.Gen Idealize.ShloMosaic Idealize.ShloMosaic.TcCoe

variable {F : FTy → Type} [FloatOps F]

/-- One offset's update of the running sum on the blocks: `v6` the masked padded classes, `v8` the centre's
    coordinates, `ld` the padded coordinates moved by the offset `o`. -/
def kStep (o : Fin 3 → Nat) (hs : S5x68x2052.Slices o S5x64x2048) (v6 : FVec F S5x68x2052 .f32) (v8 : FVec F S3x64x2048 .f32)
    (ld : Vec F S1x3x64x2048 .f32) (acc : FVec F S5x64x2048 .f32) : FVec F S5x64x2048 .f32 :=
  addf acc (mulf
    (broadcastTo S5x64x2048
      (shapeCast S1x64x2048
        (exp (divf
          (subf (broadcast S64x2048 (Scalar.ofBits .f32 0x00000000#32))
            (multiReduction .add [0] S64x2048
              (mulf (subf (shapeCast S3x64x2048 ld shapeCasts_S1x3x64x2048_S3x64x2048) v8)
                (subf (shapeCast S3x64x2048 ld shapeCasts_S1x3x64x2048_S3x64x2048) v8))
              0x00000000#32 reduces_S3x64x2048_S64x2048 (.inl rfl) rfl))
          (broadcast S64x2048 (Scalar.ofBits .f32 0x40000000#32))))
        shapeCasts_S64x2048_S1x64x2048)
      broadcasts_S1x64x2048_S5x64x2048)
    (extractStridedSlice S5x64x2048 o v6 hs))

/-- What the body leaves in the output block: the twenty-five updates in the order of the offsets, from zero,
    with a unit axis put in front. -/
theorem out_eq_steps (x0 : Vec F S1x3x68x2052 .f32) (x1 : Vec F S1x5x68x2052 .f32) (x2 : Vec F S1x68x2052 .f32) :
    out0_3 x0 x1 x2 = View.canon [⟨r0_27, shapeCast S1x5x64x2048
      (kStep ![0, 4, 4] slices_S5x68x2052_o0_4_4_S5x64x2048 (k0_pay2 (View.ld x1 r0_0) (View.ld x2 r0_1)) (k0_pay3 (View.ld x0 r0_2))
      (View.ld x0 (Rect.unit (s := S1x3x68x2052) ![0, 0, 4, 4] S1x3x64x2048.size inb_S1x3x68x2052_S1x3x64x2048_0_0_4_4))
      (kStep ![0, 4, 3] slices_S5x68x2052_o0_4_3_S5x64x2048 (k0_pay2 (View.ld x1 r0_0) (View.ld x2 r0_1)) (k0_pay3 (View.ld x0 r0_2))
      (View.ld x0 (Rect.unit (s := S1x3x68x2052) ![0, 0, 4, 3] S1x3x64x2048.size inb_S1x3x68x2052_S1x3x64x2048_0_0_4_3))
      (kStep ![0, 4, 2] slices_S5x68x2052_o0_4_2_S5x64x2048 (k0_pay2 (View.ld x1 r0_0) (View.ld x2 r0_1)) (k0_pay3 (View.ld x0 r0_2))
      (View.ld x0 (Rect.unit (s := S1x3x68x2052) ![0, 0, 4, 2] S1x3x64x2048.size inb_S1x3x68x2052_S1x3x64x2048_0_0_4_2))
      (kStep ![0, 4, 1] slices_S5x68x2052_o0_4_1_S5x64x2048 (k0_pay2 (View.ld x1 r0_0) (View.ld x2 r0_1)) (k0_pay3 (View.ld x0 r0_2))
      (View.ld x0 (Rect.unit (s := S1x3x68x2052) ![0, 0, 4, 1] S1x3x64x2048.size inb_S1x3x68x2052_S1x3x64x2048_0_0_4_1))
      (kStep ![0, 4, 0] slices_S5x68x2052_o0_4_0_S5x64x2048 (k0_pay2 (View.ld x1 r0_0) (View.ld x2 r0_1)) (k0_pay3 (View.ld x0 r0_2))
      (View.ld x0 (Rect.unit (s := S1x3x68x2052) ![0, 0, 4, 0] S1x3x64x2048.size inb_S1x3x68x2052_S1x3x64x2048_0_0_4_0))
      (kStep ![0, 3, 4] slices_S5x68x2052_o0_3_4_S5x64x2048 (k0_pay2 (View.ld x1 r0_0) (View.ld x2 r0_1)) (k0_pay3 (View.ld x0 r0_2))
      (View.ld x0 (Rect.unit (s := S1x3x68x2052) ![0, 0, 3, 4] S1x3x64x2048.size inb_S1x3x68x2052_S1x3x64x2048_0_0_3_4))
      (kStep ![0, 3, 3] slices_S5x68x2052_o0_3_3_S5x64x2048 (k0_pay2 (View.ld x1 r0_0) (View.ld x2 r0_1)) (k0_pay3 (View.ld x0 r0_2))
      (View.ld x0 (Rect.unit (s := S1x3x68x2052) ![0, 0, 3, 3] S1x3x64x2048.size inb_S1x3x68x2052_S1x3x64x2048_0_0_3_3))
      (kStep ![0, 3, 2] slices_S5x68x2052_o0_3_2_S5x64x2048 (k0_pay2 (View.ld x1 r0_0) (View.ld x2 r0_1)) (k0_pay3 (View.ld x0 r0_2))
      (View.ld x0 (Rect.unit (s := S1x3x68x2052) ![0, 0, 3, 2] S1x3x64x2048.size inb_S1x3x68x2052_S1x3x64x2048_0_0_3_2))
      (kStep ![0, 3, 1] slices_S5x68x2052_o0_3_1_S5x64x2048 (k0_pay2 (View.ld x1 r0_0) (View.ld x2 r0_1)) (k0_pay3 (View.ld x0 r0_2))
      (View.ld x0 (Rect.unit (s := S1x3x68x2052) ![0, 0, 3, 1] S1x3x64x2048.size inb_S1x3x68x2052_S1x3x64x2048_0_0_3_1))
      (kStep ![0, 3, 0] slices_S5x68x2052_o0_3_0_S5x64x2048 (k0_pay2 (View.ld x1 r0_0) (View.ld x2 r0_1)) (k0_pay3 (View.ld x0 r0_2))
      (View.ld x0 (Rect.unit (s := S1x3x68x2052) ![0, 0, 3, 0] S1x3x64x2048.size inb_S1x3x68x2052_S1x3x64x2048_0_0_3_0))
      (kStep ![0, 2, 4] slices_S5x68x2052_o0_2_4_S5x64x2048 (k0_pay2 (View.ld x1 r0_0) (View.ld x2 r0_1)) (k0_pay3 (View.ld x0 r0_2))
      (View.ld x0 (Rect.unit (s := S1x3x68x2052) ![0, 0, 2, 4] S1x3x64x2048.size inb_S1x3x68x2052_S1x3x64x2048_0_0_2_4))
      (kStep ![0, 2, 3] slices_S5x68x2052_o0_2_3_S5x64x2048 (k0_pay2 (View.ld x1 r0_0) (View.ld x2 r0_1)) (k0_pay3 (View.ld x0 r0_2))
      (View.ld x0 (Rect.unit (s := S1x3x68x2052) ![0, 0, 2, 3] S1x3x64x2048.size inb_S1x3x68x2052_S1x3x64x2048_0_0_2_3))
      (kStep ![0, 2, 2] slices_S5x68x2052_o0_2_2_S5x64x2048 (k0_pay2 (View.ld x1 r0_0) (View.ld x2 r0_1)) (k0_pay3 (View.ld x0 r0_2))
      (View.ld x0 (Rect.unit (s := S1x3x68x2052) ![0, 0, 2, 2] S1x3x64x2048.size inb_S1x3x68x2052_S1x3x64x2048_0_0_2_2))
      (kStep ![0, 2, 1] slices_S5x68x2052_o0_2_1_S5x64x2048 (k0_pay2 (View.ld x1 r0_0) (View.ld x2 r0_1)) (k0_pay3 (View.ld x0 r0_2))
      (View.ld x0 (Rect.unit (s := S1x3x68x2052) ![0, 0, 2, 1] S1x3x64x2048.size inb_S1x3x68x2052_S1x3x64x2048_0_0_2_1))
      (kStep ![0, 2, 0] slices_S5x68x2052_o0_2_0_S5x64x2048 (k0_pay2 (View.ld x1 r0_0) (View.ld x2 r0_1)) (k0_pay3 (View.ld x0 r0_2))
      (View.ld x0 (Rect.unit (s := S1x3x68x2052) ![0, 0, 2, 0] S1x3x64x2048.size inb_S1x3x68x2052_S1x3x64x2048_0_0_2_0))
      (kStep ![0, 1, 4] slices_S5x68x2052_o0_1_4_S5x64x2048 (k0_pay2 (View.ld x1 r0_0) (View.ld x2 r0_1)) (k0_pay3 (View.ld x0 r0_2))
      (View.ld x0 (Rect.unit (s := S1x3x68x2052) ![0, 0, 1, 4] S1x3x64x2048.size inb_S1x3x68x2052_S1x3x64x2048_0_0_1_4))
      (kStep ![0, 1, 3] slices_S5x68x2052_o0_1_3_S5x64x2048 (k0_pay2 (View.ld x1 r0_0) (View.ld x2 r0_1)) (k0_pay3 (View.ld x0 r0_2))
      (View.ld x0 (Rect.unit (s := S1x3x68x2052) ![0, 0, 1, 3] S1x3x64x2048.size inb_S1x3x68x2052_S1x3x64x2048_0_0_1_3))
      (kStep ![0, 1, 2] slices_S5x68x2052_o0_1_2_S5x64x2048 (k0_pay2 (View.ld x1 r0_0) (View.ld x2 r0_1)) (k0_pay3 (View.ld x0 r0_2))
      (View.ld x0 (Rect.unit (s := S1x3x68x2052) ![0, 0, 1, 2] S1x3x64x2048.size inb_S1x3x68x2052_S1x3x64x2048_0_0_1_2))
      (kStep ![0, 1, 1] slices_S5x68x2052_o0_1_1_S5x64x2048 (k0_pay2 (View.ld x1 r0_0) (View.ld x2 r0_1)) (k0_pay3 (View.ld x0 r0_2))
      (View.ld x0 (Rect.unit (s := S1x3x68x2052) ![0, 0, 1, 1] S1x3x64x2048.size inb_S1x3x68x2052_S1x3x64x2048_0_0_1_1))
      (kStep ![0, 1, 0] slices_S5x68x2052_o0_1_0_S5x64x2048 (k0_pay2 (View.ld x1 r0_0) (View.ld x2 r0_1)) (k0_pay3 (View.ld x0 r0_2))
      (View.ld x0 (Rect.unit (s := S1x3x68x2052) ![0, 0, 1, 0] S1x3x64x2048.size inb_S1x3x68x2052_S1x3x64x2048_0_0_1_0))
      (kStep ![0, 0, 4] slices_S5x68x2052_o0_0_4_S5x64x2048 (k0_pay2 (View.ld x1 r0_0) (View.ld x2 r0_1)) (k0_pay3 (View.ld x0 r0_2))
      (View.ld x0 (Rect.unit (s := S1x3x68x2052) ![0, 0, 0, 4] S1x3x64x2048.size inb_S1x3x68x2052_S1x3x64x2048_0_0_0_4))
      (kStep ![0, 0, 3] slices_S5x68x2052_o0_0_3_S5x64x2048 (k0_pay2 (View.ld x1 r0_0) (View.ld x2 r0_1)) (k0_pay3 (View.ld x0 r0_2))
      (View.ld x0 (Rect.unit (s := S1x3x68x2052) ![0, 0, 0, 3] S1x3x64x2048.size inb_S1x3x68x2052_S1x3x64x2048_0_0_0_3))
      (kStep ![0, 0, 2] slices_S5x68x2052_o0_0_2_S5x64x2048 (k0_pay2 (View.ld x1 r0_0) (View.ld x2 r0_1)) (k0_pay3 (View.ld x0 r0_2))
      (View.ld x0 (Rect.unit (s := S1x3x68x2052) ![0, 0, 0, 2] S1x3x64x2048.size inb_S1x3x68x2052_S1x3x64x2048_0_0_0_2))
      (kStep ![0, 0, 1] slices_S5x68x2052_o0_0_1_S5x64x2048 (k0_pay2 (View.ld x1 r0_0) (View.ld x2 r0_1)) (k0_pay3 (View.ld x0 r0_2))
      (View.ld x0 (Rect.unit (s := S1x3x68x2052) ![0, 0, 0, 1] S1x3x64x2048.size inb_S1x3x68x2052_S1x3x64x2048_0_0_0_1))
      (kStep ![0, 0, 0] slices_S5x68x2052_o0_0_0_S5x64x2048 (k0_pay2 (View.ld x1 r0_0) (View.ld x2 r0_1)) (k0_pay3 (View.ld x0 r0_2))
      (View.ld x0 (Rect.unit (s := S1x3x68x2052) ![0, 0, 0, 0] S1x3x64x2048.size inb_S1x3x68x2052_S1x3x64x2048_0_0_0_0))
      (broadcast S5x64x2048 (Scalar.ofBits .f32 0x00000000#32)))))))))))))))))))))))))))
      shapeCasts_S5x64x2048_S1x5x64x2048⟩] := rfl

end Cert.KernelIdeal.KerValue

end
-- ==== Proof.Spec.lean ====
/-
  The function both programs compute, as one formula over whole arrays.

  For a pixel (n, h, w) and a window offset (dy, dx) with 0 ≤ dy, dx ≤ 4, let
    d²(dy, dx) = Σ_{k<3} (xp[n, k, h+dy, w+dx] − xc[n, k, h, w])²
  where xp is the coordinate volume zero-padded by two on each side of its last two axes and xc the
  unpadded one, and let the Gaussian weight be exp(−d² / 2).  The result at (n, c, h, w) is the sum,
  taken in the row-major order of the offsets starting from zero, of
    exp(−d²(dy, dx) / 2) · sp[n, c, h+dy, w+dx]
  with sp the masked class volume, zero-padded the same way.  No law of the extended reals beyond the
  order of this sum is used: both programs add the twenty-five products in this same order.
-/
import Idealize.ShloMosaic.PureOps.Ideal
import Idealize.ShloMosaic.PureOps.Ideal.Laws
import Idealize.ShloMosaic.Lib.ValueIdx

noncomputable section

namespace Cert.LocalSum

open Idealize.ShloMosaic Idealize.ShloMosaic.ValueIdx

/-- Row `h` of the image moved down by `d ≤ 4`: a row of the padded image. -/
def rowAt (h : Fin 64) (d : Fin 5) : Fin 68 := ⟨h.val + d.val, by omega⟩

/-- Column `w` of the image moved right by `d ≤ 4`: a column of the padded image. -/
def colAt (w : Fin 2048) (d : Fin 5) : Fin 2052 := ⟨w.val + d.val, by omega⟩

/-- The Gaussian weight of a squared distance: exp(−d / 2), the two as the float word both programs print. -/
def weight (d : EReal) : EReal := Ideal.exp (Ideal.div (-d) (Ideal.ofBits .f32 0x40000000#32))

/-- The squared distance between the padded coordinates at the moved pixel and the centre's coordinates. -/
def dist2 (xp : (⟨4, ![4, 3, 68, 2052]⟩ : Shape).Idx → EReal) (xc : (⟨4, ![4, 3, 64, 2048]⟩ : Shape).Idx → EReal)
    (n : Fin 4) (h : Fin 64) (w : Fin 2048) (dy dx : Fin 5) : EReal :=
  ∑ k : Fin 3, (xp (ix4 n k (rowAt h dy) (colAt w dx)) - xc (ix4 n k h w))
    * (xp (ix4 n k (rowAt h dy) (colAt w dx)) - xc (ix4 n k h w))

/-- One offset's product: the weight times the padded masked class value at the moved pixel. -/
def term (xp : (⟨4, ![4, 3, 68, 2052]⟩ : Shape).Idx → EReal) (xc : (⟨4, ![4, 3, 64, 2048]⟩ : Shape).Idx → EReal)
    (sp : (⟨4, ![4, 20, 68, 2052]⟩ : Shape).Idx → EReal)
    (n : Fin 4) (c : Fin 20) (h : Fin 64) (w : Fin 2048) (o : Fin 5 × Fin 5) : EReal :=
  weight (dist2 xp xc n h w o.1 o.2) * sp (ix4 n c (rowAt h o.1) (colAt w o.2))

/-- The twenty-five offsets in the order both programs visit them. -/
def offsets : List (Fin 5 × Fin 5) :=
  [(0, 0), (0, 1), (0, 2), (0, 3), (0, 4), (1, 0), (1, 1), (1, 2), (1, 3), (1, 4), (2, 0), (2, 1), (2, 2), (2, 3), (2, 4), (3, 0), (3, 1), (3, 2), (3, 3), (3, 4), (4, 0), (4, 1), (4, 2), (4, 3), (4, 4)]

/-- The result array: the products added in order onto the float zero. -/
def G (xp : (⟨4, ![4, 3, 68, 2052]⟩ : Shape).Idx → EReal) (xc : (⟨4, ![4, 3, 64, 2048]⟩ : Shape).Idx → EReal)
    (sp : (⟨4, ![4, 20, 68, 2052]⟩ : Shape).Idx → EReal) : (⟨4, ![4, 20, 64, 2048]⟩ : Shape).Idx → EReal :=
  fun i => offsets.foldl (fun a o => a + term xp xc sp (i 0) (i 1) (i 2) (i 3) o) (Ideal.ofBits .f32 0x00000000#32)

end Cert.LocalSum

end
-- ==== Proof.KerBlock.lean ====
/-
  What the kernel body stores, read at an entry.

  At the entry (c, h, w) of the 5 × 64 × 2048 running sum one update adds
    exp(−Σ_k (x0[0, k, h+dy, w+dx] − x0[0, k, h+2, w+2])² / 2) · (x1[0, c, h+dy, w+dx] · x2[0, h+dy, w+dx])
  where x0, x1, x2 are the three blocks the grid point holds (padded coordinates, five padded class channels,
  padded mask): the weight is the same for the five channels (it is broadcast over them), the sum over k is the
  lane reduction over the three coordinate channels, the centre's coordinates are the block read two rows down
  and two columns right, and the class factor is the slice, at the offset, of classes × mask.  The kernel
  writes the negated distance as 0 − d²; on the extended reals that is −d² for every d², infinite ones
  included.  The stored block is the twenty-five such products added in order onto zero.
-/
import proofs.«120163_j10179072491794_2_alg».proof.Proof.KerSteps
import proofs.«120163_j10179072491794_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Idealize.ShloMosaic Idealize.ShloMosaic.TcCoe
open Idealize.ShloMosaic.ValueIdx Cert.LocalSum

/-- The exponential of a block, entry by entry. -/
theorem exp_apply {s : Shape} {φ : FTy} (a : FVec Ideal s φ) (i : s.Idx) : exp a i = Ideal.exp (a i) := rfl

/-- The lane reduction over the three coordinate channels of the squared differences, at the pixel (h, w): the sum
    over the channels of (moved coordinate − centre coordinate)². -/
theorem dist_apply (ld : Vec Ideal S1x3x64x2048 .f32) (v8 : FVec Ideal S3x64x2048 .f32) (h : Fin 64) (w : Fin 2048) :
    multiReduction (F := Ideal) .add [0] S64x2048
        (mulf (subf (shapeCast S3x64x2048 ld shapeCasts_S1x3x64x2048_S3x64x2048) v8)
          (subf (shapeCast S3x64x2048 ld shapeCasts_S1x3x64x2048_S3x64x2048) v8))
        0x00000000#32 reduces_S3x64x2048_S64x2048 (.inl rfl) rfl (ix2 h w)
      = ∑ k : Fin 3, (ld (ix4 (0 : Fin 1) k h w) - v8 (ix3 k h w)) * (ld (ix4 (0 : Fin 1) k h w) - v8 (ix3 k h w)) := by
  refine (Ideal.multiReduction_add_single _ 0x00000000#32 reduces_S3x64x2048_S64x2048 (.inl rfl) rfl (ix2 h w)).trans ?_
  show ∑ k : Fin 3, (mulf (subf (shapeCast S3x64x2048 ld shapeCasts_S1x3x64x2048_S3x64x2048) v8)
      (subf (shapeCast S3x64x2048 ld shapeCasts_S1x3x64x2048_S3x64x2048) v8)) (reduces_S3x64x2048_S64x2048.lift (ix2 h w) k) = _
  refine Finset.sum_congr rfl fun (k : Fin 3) _ => ?_
  have e : reduces_S3x64x2048_S64x2048.lift (ix2 h w) k = ix3 k h w :=
    funext fun a => Fin.ext (by match a with | ⟨0, _⟩ => rfl | ⟨1, _⟩ => rfl | ⟨2, _⟩ => rfl)
  rw [e, mulf_apply, subf_apply, shapeCast_1abc_abc_apply]

/-- One update at the entry (c, h, w), over any masked classes `v6`, centre `v8` and moved coordinates `ld`. -/
theorem kStep_apply (o : Fin 3 → Nat) (hs : S5x68x2052.Slices o S5x64x2048) (dy dx : Fin 5) (ho : o = ![0, dy.val, dx.val])
    (v6 : FVec Ideal S5x68x2052 .f32) (v8 : FVec Ideal S3x64x2048 .f32) (ld : Vec Ideal S1x3x64x2048 .f32)
    (acc : FVec Ideal S5x64x2048 .f32) (c : Fin 5) (h : Fin 64) (w : Fin 2048) :
    kStep (F := Ideal) o hs v6 v8 ld acc (ix3 c h w)
      = acc (ix3 c h w)
        + weight (∑ k : Fin 3, (ld (ix4 (0 : Fin 1) k h w) - v8 (ix3 k h w)) * (ld (ix4 (0 : Fin 1) k h w) - v8 (ix3 k h w)))
          * v6 (ix3 c (rowAt h dy) (colAt w dx)) := by
  subst ho
  unfold kStep
  rw [addf_apply, mulf_apply]
  rw [broadcastTo_apply _ broadcasts_S1x64x2048_S5x64x2048 (ix3 c h w) (ix3 (0 : Fin 1) h w) (fun a => match a with
      | ⟨0, _⟩ => by show (0 : Nat) = if (1 : Nat) = 1 then 0 else c.val; rw [if_pos rfl]
      | ⟨1, _⟩ => by show h.val = if (64 : Nat) = 1 then 0 else h.val; rw [if_neg (by decide)]
      | ⟨2, _⟩ => by show w.val = if (2048 : Nat) = 1 then 0 else w.val; rw [if_neg (by decide)])]
  rw [shapeCast_ab_1ab_apply]
  rw [extractStridedSlice_apply ![0, dy.val, dx.val] v6 hs (ix3 c h w) (ix3 c (rowAt h dy) (colAt w dx)) (fun a => match a with
      | ⟨0, _⟩ => by show c.val = 0 + c.val; omega
      | ⟨1, _⟩ => by show h.val + dy.val = dy.val + h.val; omega
      | ⟨2, _⟩ => by show w.val + dx.val = dx.val + w.val; omega)]
  rw [exp_apply, divf_apply, subf_apply, broadcast_apply, broadcast_apply, dist_apply]
  show acc (ix3 c h w) + Ideal.exp (Ideal.div (Ideal.ofBits .f32 0x00000000#32 - _) (Ideal.ofBits .f32 0x40000000#32)) * _ = _
  rw [Ideal.ofBits_zero_f32, zero_sub]
  rfl

/-- A load of the coordinate block through the 3 × 64 × 2048 rectangle at the offset (dy, dx) reads the block moved
    by the offset. -/
theorem ld_apply (x0 : Vec Ideal S1x3x68x2052 .f32) (o : Fin 4 → Nat) (dy dx : Fin 5) (ho : o = ![0, 0, dy.val, dx.val])
    (inb : ∀ a, o a + S1x3x64x2048.size a ≤ S1x3x68x2052.size a) (k : Fin 3) (h : Fin 64) (w : Fin 2048) :
    View.ld x0 (Rect.unit (s := S1x3x68x2052) o S1x3x64x2048.size inb) (ix4 (0 : Fin 1) k h w)
      = x0 (ix4 (0 : Fin 1) k (rowAt h dy) (colAt w dx)) := by
  subst ho
  exact congrArg x0 (funext fun a => Fin.ext (by
    match a with
    | ⟨0, _⟩ => show 0 + 1 * 0 = 0; omega
    | ⟨1, _⟩ => show 0 + 1 * k.val = k.val; omega
    | ⟨2, _⟩ => show dy.val + 1 * h.val = h.val + dy.val; omega
    | ⟨3, _⟩ => show dx.val + 1 * w.val = w.val + dx.val; omega))

/-- The centre's coordinates: the block read two rows down and two columns right. -/
theorem centre_apply (x0 : Vec Ideal S1x3x68x2052 .f32) (k : Fin 3) (h : Fin 64) (w : Fin 2048) :
    k0_pay3 (F := Ideal) (View.ld x0 r0_2) (ix3 k h w) = x0 (ix4 (0 : Fin 1) k (rowAt h 2) (colAt w 2)) := by
  unfold k0_pay3
  rw [shapeCast_1abc_abc_apply]
  exact ld_apply x0 _ 2 2 rfl _ k h w

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- The masked padded classes: the class block times the mask block, the mask the same for the five channels. -/
theorem masked_apply (x1 : Vec Ideal S1x5x68x2052 .f32) (x2 : Vec Ideal S1x68x2052 .f32) (c : Fin 5) (r : Fin 68) (s : Fin 2052) :
    k0_pay2 (F := Ideal) (View.ld x1 r0_0) (View.ld x2 r0_1) (ix3 c r s) = x1 (ix4 (0 : Fin 1) c r s) * x2 (ix3 (0 : Fin 1) r s) := by
  unfold k0_pay2
  rw [View.ld_unit_zero (S := S1x5x68x2052) zero4, View.ld_unit_zero (S := S1x68x2052) zero3]
  rw [mulf_apply, shapeCast_1abc_abc_apply]
  rw [broadcastTo_apply _ broadcasts_S1x68x2052_S5x68x2052 (ix3 c r s) (ix3 (0 : Fin 1) r s) (fun a => match a with
      | ⟨0, _⟩ => by show (0 : Nat) = if (1 : Nat) = 1 then 0 else c.val; rw [if_pos rfl]
      | ⟨1, _⟩ => by show r.val = if (68 : Nat) = 1 then 0 else r.val; rw [if_neg (by decide)]
      | ⟨2, _⟩ => by show s.val = if (2052 : Nat) = 1 then 0 else s.val; rw [if_neg (by decide)])]
  rw [shapeCast_ab_1ab_apply, shapeCast_1ab_ab_apply]

/-- One offset's product on the blocks of a grid point. -/
def bterm (x0 : Vec Ideal S1x3x68x2052 .f32) (x1 : Vec Ideal S1x5x68x2052 .f32) (x2 : Vec Ideal S1x68x2052 .f32)
    (c : Fin 5) (h : Fin 64) (w : Fin 2048) (o : Fin 5 × Fin 5) : EReal :=
  weight (∑ k : Fin 3, (x0 (ix4 (0 : Fin 1) k (rowAt h o.1) (colAt w o.2)) - x0 (ix4 (0 : Fin 1) k (rowAt h 2) (colAt w 2)))
      * (x0 (ix4 (0 : Fin 1) k (rowAt h o.1) (colAt w o.2)) - x0 (ix4 (0 : Fin 1) k (rowAt h 2) (colAt w 2))))
    * (x1 (ix4 (0 : Fin 1) c (rowAt h o.1) (colAt w o.2)) * x2 (ix3 (0 : Fin 1) (rowAt h o.1) (colAt w o.2)))

/-- One update of the body, with its own loads, at the entry (c, h, w). -/
theorem kStep_ld_apply (o3 : Fin 3 → Nat) (hs : S5x68x2052.Slices o3 S5x64x2048) (o4 : Fin 4 → Nat)
    (inb : ∀ a, o4 a + S1x3x64x2048.size a ≤ S1x3x68x2052.size a) (dy dx : Nat) (hdy : dy < 5) (hdx : dx < 5)
    (ho3 : o3 = ![0, dy, dx]) (ho4 : o4 = ![0, 0, dy, dx])
    (x0 : Vec Ideal S1x3x68x2052 .f32) (x1 : Vec Ideal S1x5x68x2052 .f32) (x2 : Vec Ideal S1x68x2052 .f32)
    (acc : FVec Ideal S5x64x2048 .f32) (c : Fin 5) (h : Fin 64) (w : Fin 2048) :
    kStep (F := Ideal) o3 hs (k0_pay2 (View.ld x1 r0_0) (View.ld x2 r0_1)) (k0_pay3 (View.ld x0 r0_2))
        (View.ld x0 (Rect.unit (s := S1x3x68x2052) o4 S1x3x64x2048.size inb)) acc (ix3 c h w)
      = acc (ix3 c h w) + bterm x0 x1 x2 c h w (⟨dy, hdy⟩, ⟨dx, hdx⟩) := by
  rw [kStep_apply o3 hs ⟨dy, hdy⟩ ⟨dx, hdx⟩ ho3, masked_apply]
  unfold bterm
  refine congrArg (fun z => acc (ix3 c h w) + weight z * _) (Finset.sum_congr rfl fun k _ => ?_)
  rw [centre_apply, ld_apply x0 o4 ⟨dy, hdy⟩ ⟨dx, hdx⟩ ho4 inb]

/-- The stored block at the entry (u, c, h, w): the twenty-five products added in order onto the float zero. -/
theorem out_apply (x0 : Vec Ideal S1x3x68x2052 .f32) (x1 : Vec Ideal S1x5x68x2052 .f32) (x2 : Vec Ideal S1x68x2052 .f32)
    (u : Fin 1) (c : Fin 5) (h : Fin 64) (w : Fin 2048) :
    out0_3 (F := Ideal) x0 x1 x2 (ix4 u c h w)
      = offsets.foldl (fun a o => a + bterm x0 x1 x2 c h w o) (Ideal.ofBits .f32 0x00000000#32) := by
  rw [out_eq_steps, View.canon_unit_zero zero4, shapeCast_abc_1abc_apply]
  rw [kStep_ld_apply _ _ _ _ 4 4 (by decide) (by decide) rfl rfl,
    kStep_ld_apply _ _ _ _ 4 3 (by decide) (by decide) rfl rfl,
    kStep_ld_apply _ _ _ _ 4 2 (by decide) (by decide) rfl rfl,
    kStep_ld_apply _ _ _ _ 4 1 (by decide) (by decide) rfl rfl,
    kStep_ld_apply _ _ _ _ 4 0 (by decide) (by decide) rfl rfl,
    kStep_ld_apply _ _ _ _ 3 4 (by decide) (by decide) rfl rfl,
    kStep_ld_apply _ _ _ _ 3 3 (by decide) (by decide) rfl rfl,
    kStep_ld_apply _ _ _ _ 3 2 (by decide) (by decide) rfl rfl,
    kStep_ld_apply _ _ _ _ 3 1 (by decide) (by decide) rfl rfl,
    kStep_ld_apply _ _ _ _ 3 0 (by decide) (by decide) rfl rfl,
    kStep_ld_apply _ _ _ _ 2 4 (by decide) (by decide) rfl rfl,
    kStep_ld_apply _ _ _ _ 2 3 (by decide) (by decide) rfl rfl,
    kStep_ld_apply _ _ _ _ 2 2 (by decide) (by decide) rfl rfl,
    kStep_ld_apply _ _ _ _ 2 1 (by decide) (by decide) rfl rfl,
    kStep_ld_apply _ _ _ _ 2 0 (by decide) (by decide) rfl rfl,
    kStep_ld_apply _ _ _ _ 1 4 (by decide) (by decide) rfl rfl,
    kStep_ld_apply _ _ _ _ 1 3 (by decide) (by decide) rfl rfl,
    kStep_ld_apply _ _ _ _ 1 2 (by decide) (by decide) rfl rfl,
    kStep_ld_apply _ _ _ _ 1 1 (by decide) (by decide) rfl rfl,
    kStep_ld_apply _ _ _ _ 1 0 (by decide) (by decide) rfl rfl,
    kStep_ld_apply _ _ _ _ 0 4 (by decide) (by decide) rfl rfl,
    kStep_ld_apply _ _ _ _ 0 3 (by decide) (by decide) rfl rfl,
    kStep_ld_apply _ _ _ _ 0 2 (by decide) (by decide) rfl rfl,
    kStep_ld_apply _ _ _ _ 0 1 (by decide) (by decide) rfl rfl,
    kStep_ld_apply _ _ _ _ 0 0 (by decide) (by decide) rfl rfl]
  rfl

end Cert.KernelIdeal.KerValue

end
-- ==== Proof.KerArray.lean ====
/-
  From the blocks to the whole result array.

  Grid point t = (n, q) holds image n's padded coordinates, channels 5q … 5q+4 of image n's padded classes
  and image n's padded mask, and writes channels 5q … 5q+4 of image n's result.  So what point t writes back
  is block t of ONE function of the three padded arrays: the specification's sum with the centre's
  coordinates read from the padded coordinates two rows down and two columns right, and the masked classes
  formed as padded classes × padded mask.  The sixteen blocks tile the result array, so the array after the
  run is that function.
-/
import proofs.«120163_j10179072491794_2_alg».proof.Proof.KerBlock
import proofs.«120163_j10179072491794_2_alg».proof.Proof.Gen.KernelIdeal.Value

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx Cert.LocalSum

/-- The centre's coordinates read off the padded coordinates: two rows down, two columns right. -/
def centreOf (XP : S4x3x68x2052.Idx → EReal) : S4x3x64x2048.Idx → EReal :=
  fun i => XP (ix4 (i 0) (i 1) (rowAt (i 2) 2) (colAt (i 3) 2))

/-- Padded classes times padded mask, the mask the same for every channel. -/
def maskedOf (SP : S4x20x68x2052.Idx → EReal) (MP : S4x68x2052.Idx → EReal) : S4x20x68x2052.Idx → EReal :=
  fun j => SP j * MP (ix3 (j 0) (j 2) (j 3))

/-- One offset's product on the blocks of image `n`, channel `cc` (block channel `c'`), is the specification's
    product on the whole padded arrays. -/
theorem bterm_eq (XP : S4x3x68x2052.Idx → EReal) (SP : S4x20x68x2052.Idx → EReal) (MP : S4x68x2052.Idx → EReal)
    (x0 : Vec Ideal S1x3x68x2052 .f32) (x1 : Vec Ideal S1x5x68x2052 .f32) (x2 : Vec Ideal S1x68x2052 .f32)
    (n : Fin 4) (cc : Fin 20) (c' : Fin 5)
    (h0 : ∀ (k : Fin 3) (r : Fin 68) (s : Fin 2052), x0 (ix4 (0 : Fin 1) k r s) = XP (ix4 n k r s))
    (h1 : ∀ (r : Fin 68) (s : Fin 2052), x1 (ix4 (0 : Fin 1) c' r s) = SP (ix4 n cc r s))
    (h2 : ∀ (r : Fin 68) (s : Fin 2052), x2 (ix3 (0 : Fin 1) r s) = MP (ix3 n r s))
    (h : Fin 64) (w : Fin 2048) (o : Fin 5 × Fin 5) :
    bterm x0 x1 x2 c' h w o = term XP (centreOf XP) (maskedOf SP MP) n cc h w o := by
  unfold bterm term dist2 centreOf maskedOf
  simp only [h0, h1, h2]

variable (m : (ℓ : Loc nD τ sig) → Buf (Elt Ideal) ℓ) (ρ : Dev nD → PrngReg)

/-- The printed index maps over the sixteen grid points: point (n, q) takes block n of the coordinates and of the
    mask, block (n, q) of the classes and of the result. -/
theorem idx_facts : ∀ t : Fin cfg0.N,
    win0_0.index t (0 : Fin 4) = win0_3.index t (0 : Fin 4) ∧ win0_0.index t (1 : Fin 4) = 0
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 3) = win0_3.index t (0 : Fin 4) ∧ win0_2.index t (1 : Fin 3) = 0 ∧ win0_2.index t (2 : Fin 3) = 0
    ∧ win0_3.index t (0 : Fin 4) < 4 ∧ win0_3.index t (1 : Fin 4) < 4
    ∧ win0_3.index t (2 : Fin 4) = 0 ∧ win0_3.index t (3 : Fin 4) = 0 :=
  (by decide +kernel : ∀ t : Fin grid0.N, _)

/-- Every (image, channel group) is some point's. -/
theorem idx_onto : ∀ (q0 : Fin 4) (q1 : Fin 4), ∃ t : Fin cfg0.N, win0_3.index t = ![q0.val, q1.val, 0, 0] :=
  (by decide +kernel : ∀ (q0 : Fin 4) (q1 : Fin 4), ∃ t : Fin grid0.N, win0_3.index t = ![q0.val, q1.val, 0, 0])

/-- The function of the padded arrays the result array ends holding. -/
def GV (c : Dev nD) : S4x20x64x2048.Idx → EReal :=
  G (V m c main_v1) (centreOf (V m c main_v1)) (maskedOf (V m c main_v2) (V m c main_v3))

/-- The specification's sum at an entry given by its coordinates. -/
theorem G_apply (xp : S4x3x68x2052.Idx → EReal) (xc : S4x3x64x2048.Idx → EReal) (sp : S4x20x68x2052.Idx → EReal)
    (n : Fin 4) (cc : Fin 20) (h : Fin 64) (w : Fin 2048) :
    G xp xc sp (ix4 n cc h w)
      = offsets.foldl (fun a o => a + term xp xc sp n cc h w o) (Ideal.ofBits .f32 0x00000000#32) := rfl

/-- WHAT POINT `t` WRITES BACK is block `t` of that function. -/
theorem flushed_eq (c : Dev nD) (t : Fin cfg0.N) :
    (dats m 0 c).flushed 3 t = ((cfg0.win 3).blk t).view.read (Elt Ideal) (GV m c) := by
  show (cfg0.win 3).cut (grid0.coords t) ((dats m 0 c).after 3 t) = _
  rw [after0_3]
  obtain ⟨a0, a1, a2, a3, b0, b1, b2, b3, c0, c1, c2, d0, d1, d2, d3⟩ := idx_facts t
  funext (j : S1x5x64x2048.Idx)
  obtain ⟨u, c', h, w, rfl⟩ : ∃ (u : Fin 1) (c' : Fin 5) (h : Fin 64) (w : Fin 2048), j = ix4 u c' h w :=
    ⟨j 0, j 1, j 2, j 3, eq_ix4 j⟩
  have hu : u.val = 0 := by omega
  have hc' : c'.val < 5 := c'.isLt
  have hE : ((cfg0.win 3).blk t).view.emb (ix4 u c' h w)
      = ix4 (⟨win0_3.index t (0 : Fin 4), d0⟩ : Fin 4) (⟨win0_3.index t (1 : Fin 4) * 5 + c'.val, by omega⟩ : Fin 20) h w := by
    funext a; apply Fin.ext
    match a with
    | ⟨0, _⟩ => show win0_3.index t (0 : Fin 4) * 1 + 1 * u.val = win0_3.index t (0 : Fin 4); omega
    | ⟨1, _⟩ => show win0_3.index t (1 : Fin 4) * 5 + 1 * c'.val = win0_3.index t (1 : Fin 4) * 5 + c'.val; omega
    | ⟨2, _⟩ => show win0_3.index t (2 : Fin 4) * 64 + 1 * h.val = h.val; omega
    | ⟨3, _⟩ => show win0_3.index t (3 : Fin 4) * 2048 + 1 * w.val = w.val; omega
  show out0_3 (iblk m c 0 t) (iblk m c 1 t) (iblk m c 2 t) (ix4 u c' h w) = GV m c (((cfg0.win 3).blk t).view.emb (ix4 u c' h w))
  rw [hE]
  refine (out_apply (iblk m c 0 t) (iblk m c 1 t) (iblk m c 2 t) u c' h w).trans ?_
  unfold GV
  rw [G_apply]
  refine congrArg (fun f => List.foldl f (Ideal.ofBits .f32 0x00000000#32) offsets) (funext fun a => funext fun o => congrArg (a + ·) ?_)
  refine bterm_eq (V m c main_v1) (V m c main_v2) (V m c main_v3) _ _ _ _ _ c' (fun k r s => ?_) (fun r s => ?_) (fun r s => ?_) h w o
  · show V m c main_v1 (((cfg0.win 0).blk t).view.emb (ix4 (0 : Fin 1) k r s)) = _
    refine congrArg (V m c main_v1) (funext fun a => Fin.ext ?_)
    match a with
    | ⟨0, _⟩ => show win0_0.index t (0 : Fin 4) * 1 + 1 * 0 = win0_3.index t (0 : Fin 4); omega
    | ⟨1, _⟩ => show win0_0.index t (1 : Fin 4) * 3 + 1 * k.val = k.val; omega
    | ⟨2, _⟩ => show win0_0.index t (2 : Fin 4) * 68 + 1 * r.val = r.val; omega
    | ⟨3, _⟩ => show win0_0.index t (3 : Fin 4) * 2052 + 1 * s.val = s.val; omega
  · show V m c main_v2 (((cfg0.win 1).blk t).view.emb (ix4 (0 : Fin 1) c' r s)) = _
    refine congrArg (V m c main_v2) (funext fun a => Fin.ext ?_)
    match a with
    | ⟨0, _⟩ => show win0_1.index t (0 : Fin 4) * 1 + 1 * 0 = win0_3.index t (0 : Fin 4); omega
    | ⟨1, _⟩ => show win0_1.index t (1 : Fin 4) * 5 + 1 * c'.val = win0_3.index t (1 : Fin 4) * 5 + c'.val; omega
    | ⟨2, _⟩ => show win0_1.index t (2 : Fin 4) * 68 + 1 * r.val = r.val; omega
    | ⟨3, _⟩ => show win0_1.index t (3 : Fin 4) * 2052 + 1 * s.val = s.val; omega
  · show V m c main_v3 (((cfg0.win 2).blk t).view.emb (ix3 (0 : Fin 1) r s)) = _
    refine congrArg (V m c main_v3) (funext fun a => Fin.ext ?_)
    match a with
    | ⟨0, _⟩ => show win0_2.index t (0 : Fin 3) * 1 + 1 * 0 = win0_3.index t (0 : Fin 4); omega
    | ⟨1, _⟩ => show win0_2.index t (1 : Fin 3) * 68 + 1 * r.val = r.val; omega
    | ⟨2, _⟩ => show win0_2.index t (2 : Fin 3) * 2052 + 1 * s.val = s.val; omega

/-- An index of the result array is in point `t`'s block iff each coordinate is in the block's range on its axis. -/
theorem mem_blk (t : Fin cfg0.N) (i : S4x20x64x2048.Idx) :
    i ∈ ((cfg0.win 3).blk t).view.set ↔ ∀ a : Fin 4, win0_3.index t a * S1x5x64x2048.size a ≤ (i a).val
      ∧ (i a).val < win0_3.index t a * S1x5x64x2048.size a + S1x5x64x2048.size a := by
  show i ∈ ((View.whole main_v4).slice (win0_3.rect t)).set ↔ _
  rw [View.set_slice_whole, Rect.mem_set_unit]
  exact Iff.rfl

/-- The sixteen blocks cover the result array: entry (n, c, h, w) is in the block of point (n, c / 5). -/
theorem cover (i : S4x20x64x2048.Idx) :
    ∃ t : Fin cfg0.N, (cfg0.win 3).flush t = true ∧ i ∈ ((cfg0.win 3).blk t).view.set := by
  have hi0 : (i 0).val < 4 := (i 0).isLt
  have hi1 : (i 1).val < 20 := (i 1).isLt
  have hi2 : (i 2).val < 64 := (i 2).isLt
  have hi3 : (i 3).val < 2048 := (i 3).isLt
  obtain ⟨t, ht⟩ := idx_onto ⟨(i 0).val, hi0⟩ ⟨(i 1).val / 5, by omega⟩
  have q0 : win0_3.index t (0 : Fin 4) = (i 0).val := congrFun ht 0
  have q1 : win0_3.index t (1 : Fin 4) = (i 1).val / 5 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 5 ≤ (i 1).val ∧ (i 1).val < win0_3.index t (1 : Fin 4) * 5 + 5; omega
  | ⟨2, _⟩ => show win0_3.index t (2 : Fin 4) * 64 ≤ (i 2).val ∧ (i 2).val < win0_3.index t (2 : Fin 4) * 64 + 64; omega
  | ⟨3, _⟩ => show win0_3.index t (3 : Fin 4) * 2048 ≤ (i 3).val ∧ (i 3).val < win0_3.index t (3 : Fin 4) * 2048 + 2048; omega

/-- THE ARRAY after the run. -/
theorem final (c : Dev nD) : (dats m 0 c).arrAt 3 cfg0.N = GV m c :=
  (dats m 0 c).arrAt_eq_of_cover 3 (GV m c) (fun t _ => flushed_eq m c t) cover

/-- The kernel's run: the result array ends at that function of the padded arrays, the arguments unchanged. -/
theorem run : θ_run defs (onTc (τ := τ) (main (F := Ideal))) ⟨m, fun _ => 0, ρ⟩ fun r => ∀ c : Dev nD,
      r.2.mem ((c : Thread nD τ).loc main_v4) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.KerValue

end
-- ==== Proof.RefRead.lean ====
/-
  The reference's result read at an entry.

  One update of the running sum at (n, c, h, w) adds
    exp(−(0 + Σ_k (xp[n, k, h+dy, w+dx] − xc[n, k, h, w])²) / 2) · sp[n, c, h+dy, w+dx]:
  the weight is computed once per pixel and broadcast over the twenty channels, the sum over k is the host's
  reduction over the coordinate axis from the initial value zero, and both slices read the padded arrays at
  the offset.  Twenty-five such updates from zero are the specification's sum.
-/
import proofs.«120163_j10179072491794_2_alg».proof.Proof.RefSteps
import proofs.«120163_j10179072491794_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe
open Idealize.ShloMosaic.ValueIdx Cert.LocalSum

theorem hostExp_apply {s : Shape} {φ : FTy} (a : FVec Ideal s φ) (i : s.Idx) : Host.exp a i = Ideal.exp (a i) := rfl
theorem hostDivf_apply {s : Shape} {φ : FTy} (a b : FVec Ideal s φ) (i : s.Idx) : Host.divf a b i = Ideal.div (a i) (b i) := rfl
theorem hostNegf_apply {s : Shape} {φ : FTy} (a : FVec Ideal s φ) (i : s.Idx) : Host.negf a i = -(a i) := rfl

/-- The host's sum over the coordinate axis at the pixel (n, h, w): the initial value plus the three channels'
    entries. -/
theorem reduce_apply (y : FVec Ideal S4x3x64x2048 .f32) (init : FVec Ideal S_ .f32)
    (n : Fin 4) (h : Fin 64) (w : Fin 2048) :
    Host.reduceAdd (F := Ideal) (φ := .f32) y init reducesTo_S4x3x64x2048_S4x64x2048_d1 h_S_ (ix3 n h w)
      = init (Shape.Idx.first h_S_) + ∑ k : Fin 3, y (ix4 n k h w) := by
  simp only [Host.reduceAdd, Ideal.hostReduceAdd_def]
  rw [Ideal.hostReduceAdd_single reducesTo_S4x3x64x2048_S4x64x2048_d1 (by decide)]
  refine congrArg (_ + ·) (Finset.sum_congr rfl fun k _ => ?_)
  exact congrArg y (funext fun a => Fin.ext (by match a with | ⟨0, _⟩ => rfl | ⟨1, _⟩ => rfl | ⟨2, _⟩ => rfl | ⟨3, _⟩ => rfl))

/-- The squared coordinate difference at an entry: the padded coordinates at the moved pixel minus the centre's,
    squared. -/
theorem sq_apply (o : Fin 4 → Nat) (hs1 : S4x3x68x2052.Slices o S4x3x64x2048) (dy dx : Nat) (hdy : dy < 5) (hdx : dx < 5)
    (ho : o = ![0, 0, dy, dx]) (xp : FVec Ideal S4x3x68x2052 .f32) (xc : FVec Ideal S4x3x64x2048 .f32)
    (n : Fin 4) (k : Fin 3) (h : Fin 64) (w : Fin 2048) :
    mulf (subf (extractStridedSlice S4x3x64x2048 o xp hs1) xc) (subf (extractStridedSlice S4x3x64x2048 o xp hs1) xc) (ix4 n k h w)
      = (xp (ix4 n k (rowAt h ⟨dy, hdy⟩) (colAt w ⟨dx, hdx⟩)) - xc (ix4 n k h w))
        * (xp (ix4 n k (rowAt h ⟨dy, hdy⟩) (colAt w ⟨dx, hdx⟩)) - xc (ix4 n k h w)) := by
  subst ho
  rw [mulf_apply, subf_apply,
    extractStridedSlice_apply ![0, 0, dy, dx] xp hs1 (ix4 n k h w) (ix4 n k (rowAt h ⟨dy, hdy⟩) (colAt w ⟨dx, hdx⟩)) (fun a => match a with
      | ⟨0, _⟩ => by show n.val = 0 + n.val; omega
      | ⟨1, _⟩ => by show k.val = 0 + k.val; omega
      | ⟨2, _⟩ => by show h.val + dy = dy + h.val; omega
      | ⟨3, _⟩ => by show w.val + dx = dx + w.val; omega)]

/-- One update at the entry (n, c, h, w): the running sum plus the offset's product. -/
theorem refStep_apply (o : Fin 4 → Nat) (hs1 : S4x3x68x2052.Slices o S4x3x64x2048) (hs2 : S4x20x68x2052.Slices o S4x20x64x2048)
    (dy dx : Nat) (hdy : dy < 5) (hdx : dx < 5) (ho : o = ![0, 0, dy, dx])
    (xp : (⟨S4x3x68x2052, .f32⟩ : BufTy).Contents (Elt Ideal)) (xc : (⟨S4x3x64x2048, .f32⟩ : BufTy).Contents (Elt Ideal))
    (sp : (⟨S4x20x68x2052, .f32⟩ : BufTy).Contents (Elt Ideal)) (acc : (⟨S4x20x64x2048, .f32⟩ : BufTy).Contents (Elt Ideal))
    (n : Fin 4) (c : Fin 20) (h : Fin 64) (w : Fin 2048) :
    refStep (F := Ideal) o hs1 hs2 xp xc sp acc (ix4 n c h w) = acc (ix4 n c h w) + term xp xc sp n c h w (⟨dy, hdy⟩, ⟨dx, hdx⟩) := by
  subst ho
  unfold refStep
  rw [addf_apply, mulf_apply]
  rw [broadcastInDim_apply _ bcast_S4x1x64x2048_S4x20x64x2048_0_1_2_3 _ (ix4 n c h w) (ix4 n (0 : Fin 1) h w) (fun a => match a with
    | ⟨0, _⟩ => by show n.val = if (4 : Nat) = 1 then 0 else n.val; rw [if_neg (by decide)]
    | ⟨1, _⟩ => by show (0 : Nat) = if (1 : Nat) = 1 then 0 else c.val; rw [if_pos rfl]
    | ⟨2, _⟩ => by show h.val = if (64 : Nat) = 1 then 0 else h.val; rw [if_neg (by decide)]
    | ⟨3, _⟩ => by show w.val = if (2048 : Nat) = 1 then 0 else w.val; rw [if_neg (by decide)])]
  rw [broadcastInDim_apply _ bcast_S4x64x2048_S4x1x64x2048_0_2_3 _ (ix4 n (0 : Fin 1) h w) (ix3 n h w) (fun a => match a with
    | ⟨0, _⟩ => by show n.val = if (4 : Nat) = 1 then 0 else n.val; rw [if_neg (by decide)]
    | ⟨1, _⟩ => by show h.val = if (64 : Nat) = 1 then 0 else h.val; rw [if_neg (by decide)]
    | ⟨2, _⟩ => by show w.val = if (2048 : Nat) = 1 then 0 else w.val; rw [if_neg (by decide)])]
  rw [extractStridedSlice_apply ![0, 0, dy, dx] sp hs2 (ix4 n c h w) (ix4 n c (rowAt h ⟨dy, hdy⟩) (colAt w ⟨dx, hdx⟩)) (fun a => match a with
    | ⟨0, _⟩ => by show n.val = 0 + n.val; omega
    | ⟨1, _⟩ => by show c.val = 0 + c.val; omega
    | ⟨2, _⟩ => by show h.val + dy = dy + h.val; omega
    | ⟨3, _⟩ => by show w.val + dx = dx + w.val; omega)]
  rw [hostExp_apply, hostDivf_apply, hostNegf_apply, reduce_apply]
  rw [broadcastInDim_apply _ bcast_S_S4x64x2048 _ (ix3 n h w) ix0 (fun a => a.elim0)]
  simp only [sq_apply _ hs1 dy dx hdy hdx rfl]
  show acc (ix4 n c h w) + Ideal.exp (Ideal.div (-(Ideal.ofBits .f32 0x00000000#32 + _)) (Ideal.ofBits .f32 0x40000000#32)) * _ = _
  rw [Ideal.ofBits_zero_f32, zero_add]
  rfl

/-- The masked classes at an entry: the class value times the mask's float at the same pixel. -/
theorem masked_apply (x1 : (⟨S4x20x64x2048, .f32⟩ : BufTy).Contents (Elt Ideal)) (x2 : (⟨S4x64x2048, .i1⟩ : BufTy).Contents (Elt Ideal))
    (n : Fin 4) (c : Fin 20) (h : Fin 64) (w : Fin 2048) :
    masked (F := Ideal) x1 x2 (ix4 n c h w) = x1 (ix4 n c h w) * FloatOps.uitofp (F := Ideal) .f32 (x2 (ix3 n h w)) := by
  unfold masked
  rw [mulf_apply]
  rw [broadcastInDim_apply _ bcast_S4x1x64x2048_S4x20x64x2048_0_1_2_3 _ (ix4 n c h w) (ix4 n (0 : Fin 1) h w) (fun a => match a with
    | ⟨0, _⟩ => by show n.val = if (4 : Nat) = 1 then 0 else n.val; rw [if_neg (by decide)]
    | ⟨1, _⟩ => by show (0 : Nat) = if (1 : Nat) = 1 then 0 else c.val; rw [if_pos rfl]
    | ⟨2, _⟩ => by show h.val = if (64 : Nat) = 1 then 0 else h.val; rw [if_neg (by decide)]
    | ⟨3, _⟩ => by show w.val = if (2048 : Nat) = 1 then 0 else w.val; rw [if_neg (by decide)])]
  show x1 (ix4 n c h w) * FloatOps.uitofp (F := Ideal) .f32
      (broadcastInDim S4x1x64x2048 ![0, 2, 3] bcast_S4x64x2048_S4x1x64x2048_0_2_3 x2 (ix4 n (0 : Fin 1) h w)) = _
  rw [broadcastInDim_apply _ bcast_S4x64x2048_S4x1x64x2048_0_2_3 x2 (ix4 n (0 : Fin 1) h w) (ix3 n h w) (fun a => match a with
    | ⟨0, _⟩ => by show n.val = if (4 : Nat) = 1 then 0 else n.val; rw [if_neg (by decide)]
    | ⟨1, _⟩ => by show h.val = if (64 : Nat) = 1 then 0 else h.val; rw [if_neg (by decide)]
    | ⟨2, _⟩ => by show w.val = if (2048 : Nat) = 1 then 0 else w.val; rw [if_neg (by decide)])]

/-- … as a whole array. -/
theorem masked_fun (x1 : (⟨S4x20x64x2048, .f32⟩ : BufTy).Contents (Elt Ideal)) (x2 : (⟨S4x64x2048, .i1⟩ : BufTy).Contents (Elt Ideal)) :
    masked (F := Ideal) x1 x2 = fun i => x1 i * (uitofp (F := Ideal) .f32 x2) (ix3 (i 0) (i 2) (i 3)) := by
  funext i
  obtain ⟨n, c, h, w, rfl⟩ : ∃ (n : Fin 4) (c : Fin 20) (h : Fin 64) (w : Fin 2048), i = ix4 n c h w :=
    ⟨i 0, i 1, i 2, i 3, eq_ix4 i⟩
  rw [masked_apply]
  rfl

/-- The reference's result at an entry is the specification's sum over the padded coordinates, the coordinates and
    the padded masked classes. -/
theorem result_apply (x0 : (⟨S4x3x64x2048, .f32⟩ : BufTy).Contents (Elt Ideal)) (x1 : (⟨S4x20x64x2048, .f32⟩ : BufTy).Contents (Elt Ideal))
    (x2 : (⟨S4x64x2048, .i1⟩ : BufTy).Contents (Elt Ideal)) (n : Fin 4) (c : Fin 20) (h : Fin 64) (w : Fin 2048) :
    refResult (F := Ideal) x0 x1 x2 (ix4 n c h w)
      = G (padX (F := Ideal) x0) x0 (padS (F := Ideal) x1 x2) (ix4 n c h w) := by
  unfold refResult
  rw [refStep_apply _ _ _ 4 4 (by decide) (by decide) rfl,
    refStep_apply _ _ _ 4 3 (by decide) (by decide) rfl,
    refStep_apply _ _ _ 4 2 (by decide) (by decide) rfl,
    refStep_apply _ _ _ 4 1 (by decide) (by decide) rfl,
    refStep_apply _ _ _ 4 0 (by decide) (by decide) rfl,
    refStep_apply _ _ _ 3 4 (by decide) (by decide) rfl,
    refStep_apply _ _ _ 3 3 (by decide) (by decide) rfl,
    refStep_apply _ _ _ 3 2 (by decide) (by decide) rfl,
    refStep_apply _ _ _ 3 1 (by decide) (by decide) rfl,
    refStep_apply _ _ _ 3 0 (by decide) (by decide) rfl,
    refStep_apply _ _ _ 2 4 (by decide) (by decide) rfl,
    refStep_apply _ _ _ 2 3 (by decide) (by decide) rfl,
    refStep_apply _ _ _ 2 2 (by decide) (by decide) rfl,
    refStep_apply _ _ _ 2 1 (by decide) (by decide) rfl,
    refStep_apply _ _ _ 2 0 (by decide) (by decide) rfl,
    refStep_apply _ _ _ 1 4 (by decide) (by decide) rfl,
    refStep_apply _ _ _ 1 3 (by decide) (by decide) rfl,
    refStep_apply _ _ _ 1 2 (by decide) (by decide) rfl,
    refStep_apply _ _ _ 1 1 (by decide) (by decide) rfl,
    refStep_apply _ _ _ 1 0 (by decide) (by decide) rfl,
    refStep_apply _ _ _ 0 4 (by decide) (by decide) rfl,
    refStep_apply _ _ _ 0 3 (by decide) (by decide) rfl,
    refStep_apply _ _ _ 0 2 (by decide) (by decide) rfl,
    refStep_apply _ _ _ 0 1 (by decide) (by decide) rfl,
    refStep_apply _ _ _ 0 0 (by decide) (by decide) rfl]
  rfl

/-- … and so as whole arrays. -/
theorem result_eq (x0 : (⟨S4x3x64x2048, .f32⟩ : BufTy).Contents (Elt Ideal)) (x1 : (⟨S4x20x64x2048, .f32⟩ : BufTy).Contents (Elt Ideal))
    (x2 : (⟨S4x64x2048, .i1⟩ : BufTy).Contents (Elt Ideal)) :
    refResult (F := Ideal) x0 x1 x2 = G (padX (F := Ideal) x0) x0 (padS (F := Ideal) x1 x2) := by
  funext i
  rw [eq_ix4 i]
  exact result_apply x0 x1 x2 (i 0) (i 1) (i 2) (i 3)

end Cert.ReferenceIdeal.RefValue

end
-- ==== Proof.Pads.lean ====
/-
  Zero padding by two rows and two columns, read at an entry.

  Inside the border a padded array is the array itself moved by (2, 2); on the border it is the padding value.
  Two consequences are what the two programs differ by.  The centre pixel's coordinates can be read from the
  padded coordinates at (h + 2, w + 2).  And padding commutes with the masking product when the padding value
  is zero: padded classes × padded mask is the padding of classes × mask, because inside the border both are
  the product of the entries and on the border both are zero (0 · 0 = 0).
-/
import proofs.«120163_j10179072491794_2_alg».proof.Proof.Spec
import Idealize.ShloMosaic.Lib.KernelVsHost

noncomputable section

namespace Cert.LocalSum

open Idealize.ShloMosaic Idealize.ShloMosaic.ValueIdx

abbrev A4 (c : Nat) : Shape := ⟨4, ![4, c, 64, 2048]⟩
abbrev P4 (c : Nat) : Shape := ⟨4, ![4, c, 68, 2052]⟩
abbrev A3 : Shape := ⟨3, ![4, 64, 2048]⟩
abbrev P3 : Shape := ⟨3, ![4, 68, 2052]⟩

/-- A row of the padded image is inside the border iff it is an image row moved down by two. -/
theorem inside_row (r : Fin 68) (hr : 2 ≤ r.val ∧ r.val < 66) : ∃ h : Fin 64, r = rowAt h 2 :=
  ⟨⟨r.val - 2, by omega⟩, Fin.ext (by show r.val = r.val - 2 + 2; omega)⟩

theorem inside_col (s : Fin 2052) (hs : 2 ≤ s.val ∧ s.val < 2050) : ∃ w : Fin 2048, s = colAt w 2 :=
  ⟨⟨s.val - 2, by omega⟩, Fin.ext (by show s.val = s.val - 2 + 2; omega)⟩

/-- A rank-four array padded by (2, 2) on its last two axes, read inside the border. -/
theorem pad4_inside {C : Nat} (x : (A4 C).Idx → EReal) {u : Shape} (v : u.Idx → EReal)
    (hp : (A4 C).Pads (![0, 0, 2, 2] : Fin 4 → Nat) ![0, 0, 2, 2] ![0, 0, 0, 0] (P4 C)) (hu : 0 < u.numel)
    (n : Fin 4) (c : Fin C) (h : Fin 64) (w : Fin 2048) :
    pad (P4 C) ![0, 0, 2, 2] ![0, 0, 2, 2] ![0, 0, 0, 0] x v hp hu (ix4 n c (rowAt h 2) (colAt w 2)) = x (ix4 n c h w) :=
  pad_apply_of_inside _ _ _ x v hp hu _ (ix4 n c h w) (fun a => match a with
    | ⟨0, _⟩ => by show n.val = 0 + n.val * (0 + 1); omega
    | ⟨1, _⟩ => by show c.val = 0 + c.val * (0 + 1); omega
    | ⟨2, _⟩ => by show h.val + 2 = 2 + h.val * (0 + 1); omega
    | ⟨3, _⟩ => by show w.val + 2 = 2 + w.val * (0 + 1); omega)

/-- … and on the border (a row or a column outside the image). -/
theorem pad4_border {C : Nat} (x : (A4 C).Idx → EReal) {u : Shape} (v : u.Idx → EReal)
    (hp : (A4 C).Pads (![0, 0, 2, 2] : Fin 4 → Nat) ![0, 0, 2, 2] ![0, 0, 0, 0] (P4 C)) (hu : 0 < u.numel)
    (n : Fin 4) (c : Fin C) (r : Fin 68) (s : Fin 2052) (hout : ¬((2 ≤ r.val ∧ r.val < 66) ∧ (2 ≤ s.val ∧ s.val < 2050))) :
    pad (P4 C) ![0, 0, 2, 2] ![0, 0, 2, 2] ![0, 0, 0, 0] x v hp hu (ix4 n c r s) = v (Shape.Idx.first hu) := by
  by_cases hr : 2 ≤ r.val ∧ r.val < 66
  · refine pad_apply_of_not_inside _ _ _ x v hp hu _ (3 : Fin 4) ?_
    show ¬(2 ≤ s.val ∧ (s.val - 2) % (0 + 1) = 0 ∧ (s.val - 2) / (0 + 1) < 2048)
    omega
  · refine pad_apply_of_not_inside _ _ _ x v hp hu _ (2 : Fin 4) ?_
    show ¬(2 ≤ r.val ∧ (r.val - 2) % (0 + 1) = 0 ∧ (r.val - 2) / (0 + 1) < 64)
    omega

/-- A rank-three array padded by (2, 2) on its last two axes, read inside the border … -/
theorem pad3_inside (x : A3.Idx → EReal) {u : Shape} (v : u.Idx → EReal)
    (hp : A3.Pads (![0, 2, 2] : Fin 3 → Nat) ![0, 2, 2] ![0, 0, 0] P3) (hu : 0 < u.numel)
    (n : Fin 4) (h : Fin 64) (w : Fin 2048) :
    pad P3 ![0, 2, 2] ![0, 2, 2] ![0, 0, 0] x v hp hu (ix3 n (rowAt h 2) (colAt w 2)) = x (ix3 n h w) :=
  pad_apply_of_inside _ _ _ x v hp hu _ (ix3 n h w) (fun a => match a with
    | ⟨0, _⟩ => by show n.val = 0 + n.val * (0 + 1); omega
    | ⟨1, _⟩ => by show h.val + 2 = 2 + h.val * (0 + 1); omega
    | ⟨2, _⟩ => by show w.val + 2 = 2 + w.val * (0 + 1); omega)

/-- … and on the border. -/
theorem pad3_border (x : A3.Idx → EReal) {u : Shape} (v : u.Idx → EReal)
    (hp : A3.Pads (![0, 2, 2] : Fin 3 → Nat) ![0, 2, 2] ![0, 0, 0] P3) (hu : 0 < u.numel)
    (n : Fin 4) (r : Fin 68) (s : Fin 2052) (hout : ¬((2 ≤ r.val ∧ r.val < 66) ∧ (2 ≤ s.val ∧ s.val < 2050))) :
    pad P3 ![0, 2, 2] ![0, 2, 2] ![0, 0, 0] x v hp hu (ix3 n r s) = v (Shape.Idx.first hu) := by
  by_cases hr : 2 ≤ r.val ∧ r.val < 66
  · refine pad_apply_of_not_inside _ _ _ x v hp hu _ (2 : Fin 3) ?_
    show ¬(2 ≤ s.val ∧ (s.val - 2) % (0 + 1) = 0 ∧ (s.val - 2) / (0 + 1) < 2048)
    omega
  · refine pad_apply_of_not_inside _ _ _ x v hp hu _ (1 : Fin 3) ?_
    show ¬(2 ≤ r.val ∧ (r.val - 2) % (0 + 1) = 0 ∧ (r.val - 2) / (0 + 1) < 64)
    omega

/-- Padding with zero commutes with the masking product: padded classes × padded mask, entry by entry, is the
    padding of classes × mask. -/
theorem pad_mul_pad (x : (A4 20).Idx → EReal) (mk : A3.Idx → EReal) {u u' u'' : Shape}
    (v : u.Idx → EReal) (v' : u'.Idx → EReal) (v'' : u''.Idx → EReal)
    (hp : (A4 20).Pads (![0, 0, 2, 2] : Fin 4 → Nat) ![0, 0, 2, 2] ![0, 0, 0, 0] (P4 20))
    (hp' : A3.Pads (![0, 2, 2] : Fin 3 → Nat) ![0, 2, 2] ![0, 0, 0] P3)
    (hp'' : (A4 20).Pads (![0, 0, 2, 2] : Fin 4 → Nat) ![0, 0, 2, 2] ![0, 0, 0, 0] (P4 20))
    (hu : 0 < u.numel) (hu' : 0 < u'.numel) (hu'' : 0 < u''.numel)
    (hv : v (Shape.Idx.first hu) = 0) (hv' : v' (Shape.Idx.first hu') = 0) (hv'' : v'' (Shape.Idx.first hu'') = 0)
    (n : Fin 4) (c : Fin 20) (r : Fin 68) (s : Fin 2052) :
    pad (P4 20) ![0, 0, 2, 2] ![0, 0, 2, 2] ![0, 0, 0, 0] x v hp hu (ix4 n c r s)
        * pad P3 ![0, 2, 2] ![0, 2, 2] ![0, 0, 0] mk v' hp' hu' (ix3 n r s)
      = pad (P4 20) ![0, 0, 2, 2] ![0, 0, 2, 2] ![0, 0, 0, 0] (fun i => x i * mk (ix3 (i 0) (i 2) (i 3))) v'' hp'' hu'' (ix4 n c r s) := by
  by_cases hin : (2 ≤ r.val ∧ r.val < 66) ∧ (2 ≤ s.val ∧ s.val < 2050)
  · obtain ⟨h, rfl⟩ := inside_row r hin.1
    obtain ⟨w, rfl⟩ := inside_col s hin.2
    rw [pad4_inside, pad3_inside, pad4_inside]
  · rw [pad4_border x v hp hu n c r s hin, pad3_border mk v' hp' hu' n r s hin, pad4_border _ v'' hp'' hu'' n c r s hin, hv, hv', hv'', mul_zero]

end Cert.LocalSum

end
-- ==== Proof.Bridge.lean ====
/-
  The two programs' results are one array.

  The kernel's result is the specification's sum over the padded coordinates, the centre read off them, and
  padded classes × padded mask; the reference's is the same sum over the padded coordinates, the unpadded
  coordinates, and the padding of classes × mask.  The host operations in front of the kernel's region pad
  the same arguments with the same zero, so the padded coordinates agree as terms; the centre read two rows
  down and two columns right of a padded array is the array; and zero padding commutes with the masking
  product.
-/
import proofs.«120163_j10179072491794_2_alg».proof.Proof.KerArray
import proofs.«120163_j10179072491794_2_alg».proof.Proof.RefRead
import proofs.«120163_j10179072491794_2_alg».proof.Proof.Pads
import Idealize.ShloMosaic.Lib.StableHlo.Run

noncomputable section

namespace Cert.Proof.Bridge

open Idealize.ShloMosaic Idealize.ShloMosaic.TcCoe Idealize.SL.Sem Idealize.ShloMosaic.StableHlo
open Idealize.ShloMosaic.ValueIdx Cert.LocalSum
open Cert.KernelIdeal Cert.KernelIdeal.Gen Cert.KernelIdeal.KerValue

variable (m : (ℓ : Loc nD τ sig) → Buf (Elt Ideal) ℓ)

/-- The region finds the coordinates zero-padded … -/
theorem V_v1 (c : Dev nD) : (V m c main_v1 : S4x3x68x2052.Idx → EReal) =
    pad S4x3x68x2052 ![0, 0, 2, 2] ![0, 0, 2, 2] ![0, 0, 0, 0] (m ((c : Thread nD τ).loc main_arg0))
      (sitofp (F := Ideal) .f32 (constantI S_ 32 0#32)) pads_S4x3x64x2048_S4x3x68x2052_000_000_220_220 h_S_ := by
  dsimp only [V]
  simp only [hostOps0, hostOps0_1, hostOps0_2, hostOps0_3, hostOps0_4, hostOps0_5, List.flatten_cons, List.flatten_nil,
    List.append_nil, List.cons_append, List.nil_append]
  after_results
  rfl

/-- … the classes zero-padded … -/
theorem V_v2 (c : Dev nD) : (V m c main_v2 : S4x20x68x2052.Idx → EReal) =
    pad S4x20x68x2052 ![0, 0, 2, 2] ![0, 0, 2, 2] ![0, 0, 0, 0] (m ((c : Thread nD τ).loc main_arg1))
      (sitofp (F := Ideal) .f32 (constantI S_ 32 0#32)) pads_S4x20x64x2048_S4x20x68x2052_000_000_220_220 h_S_ := by
  dsimp only [V]
  simp only [hostOps0, hostOps0_1, hostOps0_2, hostOps0_3, hostOps0_4, hostOps0_5, List.flatten_cons, List.flatten_nil,
    List.append_nil, List.cons_append, List.nil_append]
  after_results
  rfl

/-- … and the mask, as a float, zero-padded. -/
theorem V_v3 (c : Dev nD) : (V m c main_v3 : S4x68x2052.Idx → EReal) =
    pad S4x68x2052 ![0, 2, 2] ![0, 2, 2] ![0, 0, 0] (uitofp (F := Ideal) .f32 (m ((c : Thread nD τ).loc main_arg2)))
      (sitofp (F := Ideal) .f32 (constantI S_ 32 0#32)) pads_S4x64x2048_S4x68x2052_000_220_220 h_S_ := by
  dsimp only [V]
  simp only [hostOps0, hostOps0_1, hostOps0_2, hostOps0_3, hostOps0_4, hostOps0_5, List.flatten_cons, List.flatten_nil,
    List.append_nil, List.cons_append, List.nil_append]
  after_results
  rfl

/-- The padding value, the integer zero converted to a float, is the real zero. -/
theorem padval_zero {hu : 0 < S_.numel} : (sitofp (F := Ideal) .f32 (constantI S_ 32 0#32)) (Shape.Idx.first hu) = 0 := by
  show ((((0#32 : BitVec 32).toInt : ℤ) : ℝ) : EReal) = 0
  simp

open Cert.ReferenceIdeal.RefValue in
/-- The kernel's result array is the reference's result term of the same arguments. -/
theorem results_eq (c : Dev nD) :
    GV m c = refResult (F := Ideal) (m ((c : Thread nD τ).loc main_arg0)) (m ((c : Thread nD τ).loc main_arg1))
      (m ((c : Thread nD τ).loc main_arg2)) := by
  rw [Cert.ReferenceIdeal.RefValue.result_eq]
  unfold GV
  have e1 : (V m c main_v1 : S4x3x68x2052.Idx → EReal) = padX (F := Ideal) (m ((c : Thread nD τ).loc main_arg0)) :=
    (V_v1 m c).trans rfl
  have e2 : centreOf (V m c main_v1) = m ((c : Thread nD τ).loc main_arg0) := by
    rw [V_v1]
    funext i
    obtain ⟨n, k, h, w, rfl⟩ : ∃ (n : Fin 4) (k : Fin 3) (h : Fin 64) (w : Fin 2048), i = ix4 n k h w :=
      ⟨i 0, i 1, i 2, i 3, eq_ix4 i⟩
    exact pad4_inside (C := 3) _ _ _ _ n k h w
  have e3 : maskedOf (V m c main_v2) (V m c main_v3)
      = padS (F := Ideal) (m ((c : Thread nD τ).loc main_arg1)) (m ((c : Thread nD τ).loc main_arg2)) := by
    rw [V_v2, V_v3]
    funext j
    obtain ⟨n, k, r, s, rfl⟩ : ∃ (n : Fin 4) (k : Fin 20) (r : Fin 68) (s : Fin 2052), j = ix4 n k r s :=
      ⟨j 0, j 1, j 2, j 3, eq_ix4 j⟩
    unfold padS
    rw [masked_fun]
    exact pad_mul_pad (m ((c : Thread nD τ).loc main_arg1)) (uitofp (F := Ideal) .f32 (m ((c : Thread nD τ).loc main_arg2)))
      _ _ _ _ _ _ _ _ _ padval_zero padval_zero padval_zero n k r s
  rw [e2, e3, e1]

end Cert.Proof.Bridge

end
-- ==== Proof.lean ====
/-
  A per-pixel 5 × 5 window sum of a masked class volume, each window entry weighted by the Gaussian
  exp(−d²/2) of the squared distance d² between the entry's and the centre pixel's three coordinates, with
  zero padding outside the image: the kernel computes it on (image, five-channel group) blocks of arrays the
  host pads beforehand, the reference on whole arrays.  At the exact instance both results are the same
  twenty-five-term sum, added in the same order (Proof/Spec.lean).  The kernel's value is read off its
  frame run block by block (Proof/KerSteps.lean, KerBlock.lean, KerArray.lean), the reference's off its run
  (Proof/RefOps.lean, RefSteps.lean, RefRun.lean, RefRead.lean), and the two spellings that differ — masking before or after padding,
  the centre read from the padded or the unpadded coordinates — are joined in Proof/Pads.lean and
  Proof/Bridge.lean.  No finiteness of the inputs is used.
-/
import proofs.«120163_j10179072491794_2_alg».proof.Defs
import proofs.«120163_j10179072491794_2_alg».proof.Proof.Gen.Kernel
import proofs.«120163_j10179072491794_2_alg».proof.Proof.Gen.Kernel.Skeleton
import proofs.«120163_j10179072491794_2_alg».proof.Proof.Gen.Kernel.Launch
import proofs.«120163_j10179072491794_2_alg».proof.Proof.Gen.Kernel.Points
import proofs.«120163_j10179072491794_2_alg».proof.Proof.Gen.Kernel.Frame
import proofs.«120163_j10179072491794_2_alg».proof.Proof.Gen.KernelIdeal
import proofs.«120163_j10179072491794_2_alg».proof.Proof.Gen.KernelIdeal.Skeleton
import proofs.«120163_j10179072491794_2_alg».proof.Proof.Gen.KernelIdeal.Launch
import proofs.«120163_j10179072491794_2_alg».proof.Proof.Gen.KernelIdeal.Points
import proofs.«120163_j10179072491794_2_alg».proof.Proof.Gen.KernelIdeal.Frame
import proofs.«120163_j10179072491794_2_alg».proof.Proof.Gen.ReferenceIdeal
import proofs.«120163_j10179072491794_2_alg».proof.Proof.Gen.Pre_finite_inputs
import proofs.«120163_j10179072491794_2_alg».proof.Proof.Gen.KernelIdeal.Value
import proofs.«120163_j10179072491794_2_alg».proof.Proof.RefRun
import proofs.«120163_j10179072491794_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read at the exact instance. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the specification's sum in their result array. -/
theorem algebraic : Cert.algebraic_KernelIdeal_ReferenceIdeal := by
  intro m ρ m' ρ' _ hagree
  refine ⟨fun c => Cert.KernelIdeal.KerValue.GV m c, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact (Cert.Proof.Bridge.results_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
